-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 58
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S128x128, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x128, .f32⟩
  | .hbm, ⟨39, _⟩ => ⟨S_, .f32⟩
  | .hbm, ⟨40, _⟩ => ⟨S50000x128, .f32⟩
  | .hbm, ⟨41, _⟩ => ⟨S850000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v31_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S128x128, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call1_cst : Ref sig .tc := ⟨.hbm, 100, rfl⟩
abbrev main_call1_v0 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.Region0.lean ====
/-
  Region 0 of @main: the row-block product. At grid point t the body multiplies the 5000 rows of the first operand
  that the point stages by the whole 128x128 second operand, scales row r of the product by the r-th entry of the
  staged 5000x1 column, and stores the 5000x128 result as the point's block of the output. The body keeps nothing
  between points; its one store covers the output's staging buffer whole.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S5000x1 := Rect.unit (s := S5000x1) ![0, 0] S5000x1.size inb_S5000x1_S5000x1_0_0

/-- The output's staging buffer after the body, from the three input blocks: its one store as a piece. -/
def out0_3 (x0 : Vec F S5000x128 .f32) (x1 : Vec F S128x128 .f32) (x2 : Vec F S5000x1 .f32) : Vec F S5000x128 .f32 :=
  View.canon [⟨rA0, k0_pay1 (View.ld x0 rA0) (View.ld x1 rB0) (View.ld x2 rC0)⟩]

/-- The one store covers the buffer. -/
theorem cover0_3 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The body on whole staging memrefs: the inputs at their contents, the output at anything, runs to the continuation
    with the inputs as they were and the output at out0_3 of the inputs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c at the entry contents V: the arrays as the region finds them; after the body
    each input's buffer at its block and the output's at out0_3 of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Base.lean ====
/-
  Region 1 of @main, the shared part: the two conditions the body branches on (is this the first grid point? the last?),
  where the two row outputs are idle, the staging and scratch memrefs, and the blocks the point's input windows hold.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when the grid coordinate is 0: there it zeroes the two scratch rows. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The body's second branch is taken when the grid coordinate is 9: there it copies the two scratch rows out. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The three inputs and the block output are live at every point; the two row outputs only at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-- One staging buffer of each output window, through which its contents are stated. -/
abbrev VO1_3 : View sig .tc .vmem S5000x128 .f32 := (Memref.whole cc1_stg3_0 : Memref sig .tc .vmem S5000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view
/-- Each window's current staging memref at point t, spelt as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two scratch rows: whole scoped buffers of the kernel's own, carried from one point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- A scoped buffer of the core, whole, at some contents. -/
abbrev bufAny (c : Dev nD) (b : Ref sig .tc) : sProp 𝕄 :=
  iprop(∃ f : Buf (Elt F) ((c : Thread nD τ).loc b), ((c : Thread nD τ).loc b) ↦{fullShare} f)
/-- The staging buffers of the region after this one, each at some contents. -/
abbrev tail1 (c : Dev nD) : sProp 𝕄 :=
  iprop(bufAny (F := F) c cc2_stg0_0 ∗ bufAny (F := F) c cc2_stg0_1 ∗ bufAny (F := F) c cc2_stg1_0 ∗ bufAny (F := F) c cc2_stg2_0 ∗ bufAny (F := F) c cc2_stg3_0 ∗ bufAny (F := F) c cc2_stg4_0 ∗ bufAny (F := F) c cc2_stg5_0 ∗ bufAny (F := F) c cc2_stg5_1)
/-- The class invariant's shape with the two scratch rows' resources as parameters: the staging buffers of the region before
    this one, the two scratch rows, the staging buffers of the region after, and the generator register at some state. -/
def PhiWith (c : Dev nD) (S0 S1 : sProp 𝕄) : sProp 𝕄 :=
  iprop((bufAny (F := F) c cc0_stg0_0 ∗ bufAny (F := F) c cc0_stg0_1 ∗ bufAny (F := F) c cc0_stg1_0 ∗ bufAny (F := F) c cc0_stg2_0 ∗ bufAny (F := F) c cc0_stg2_1 ∗ bufAny (F := F) c cc0_stg3_0 ∗ bufAny (F := F) c cc0_stg3_1 ∗ S0 ∗ S1 ∗ tail1 (F := F) c) ∗ ∃ r, prngReg c r)
/-- Everything of that shape but the two scratch rows. -/
def restR (c : Dev nD) : sProp 𝕄 :=
  iprop((bufAny (F := F) c cc0_stg0_0 ∗ bufAny (F := F) c cc0_stg0_1 ∗ bufAny (F := F) c cc0_stg1_0 ∗ bufAny (F := F) c cc0_stg2_0 ∗ bufAny (F := F) c cc0_stg2_1 ∗ bufAny (F := F) c cc0_stg3_0 ∗ bufAny (F := F) c cc0_stg3_1 ∗ tail1 (F := F) c) ∗ ∃ r, prngReg c r)

theorem PhiWith_split (c : Dev nD) (S0 S1 : sProp 𝕄) : PhiWith (F := F) c S0 S1 ⊢ iprop(S0 ∗ S1 ∗ restR (F := F) c) := by
  unfold PhiWith restR
  iintro ⟨⟨B0, B1, B2, B3, B4, B5, B6, HS0, HS1, Ht⟩, Hg⟩
  isplitl [HS0]; · iexact HS0
  isplitl [HS1]; · iexact HS1
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact Ht
  iexact Hg

theorem PhiWith_join (c : Dev nD) (S0 S1 : sProp 𝕄) : iprop(S0 ∗ S1 ∗ restR (F := F) c) ⊢ PhiWith (F := F) c S0 S1 := by
  unfold PhiWith restR
  iintro ⟨HS0, HS1, ⟨B0, B1, B2, B3, B4, B5, B6, Ht⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]; · iexact HS0
    isplitl [HS1]; · iexact HS1
    iexact Ht
  iexact Hg

/-- The class invariant is that shape with each scratch row owned at some contents. -/
theorem PhiA1_eq (c : Dev nD) :
    (Pipeline.ΦA spec1 c : sProp 𝕄)
      = PhiWith (F := F) c (iprop(∃ d, owns (c : Thread nD τ) scM1_0 fullShare d)) (iprop(∃ d, owns (c : Thread nD τ) scM1_1 fullShare d)) := by
  unfold Pipeline.ΦA PhiWith; rw [scopedRest1_eq]; simp only [scM1_0, scM1_1, owns_whole]; try rfl

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.K.R1RunA.lean ====
/-
  Region 1 of @main, the body at the first grid point (the scratch rows are zeroed, then the point's column sums and sums of squares are added; the two row outputs are left alone): what its stores leave in each buffer, as pieces, with the proof that on
  whole memrefs holding the stated contents the body runs to the continuation with those pieces written.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import proofs.«149551_j31903017074707_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg5 fullShare xi4
            ∗ owns (c : Thread nD τ) arg6 fullShare xi5
            ∗ (∃ d, owns (c : Thread nD τ) arg7 fullShare d)
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ owns (c : Thread nD τ) arg5 fullShare xi4
                ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R1RunB.lean ====
/-
  Region 1 of @main, the body at a grid point that is neither first nor last (the point's column sums and sums of squares are added to the scratch rows; the two row outputs are left alone): what its stores leave in each buffer, as pieces, with the proof that on
  whole memrefs holding the stated contents the body runs to the continuation with those pieces written.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import proofs.«149551_j31903017074707_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg5 fullShare xi4
            ∗ owns (c : Thread nD τ) arg6 fullShare xi5
            ∗ owns (c : Thread nD τ) arg7 fullShare xs0
            ∗ owns (c : Thread nD τ) arg8 fullShare xs1
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ owns (c : Thread nD τ) arg5 fullShare xi4
                ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Hand

end
-- ==== Proof.K.R1RunC.lean ====
/-
  Region 1 of @main, the body at the last grid point (the point's column sums and sums of squares are added to the scratch rows, which are then copied to the two row outputs): what its stores leave in each buffer, as pieces, with the proof that on
  whole memrefs holding the stated contents the body runs to the continuation with those pieces written.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import proofs.«149551_j31903017074707_2_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ (∃ d, owns (c : Thread nD τ) arg5 fullShare d)
            ∗ (∃ d, owns (c : Thread nD τ) arg6 fullShare d)
            ∗ owns (c : Thread nD τ) arg7 fullShare xs0
            ∗ owns (c : Thread nD τ) arg8 fullShare xs1
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.K.Region1.lean ====
/-
  Region 1 of @main: the scaled sum plus bias, with the column statistics. At grid point t the body stores, as the point's
  block of the first output, a = (rows of the first operand) * (the staged 5000x1 column, broadcast along each row) +
  (the staged 1x128 row, broadcast down the columns), and keeps in two scratch rows the running column sums of a and of
  a * a over the points so far: zeroed at the first point, copied to the two 1x128 outputs at the last. What the two
  scratch rows hold after each point is defined by recursion on the point; the region invariant carries them from one
  point to the next.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import proofs.«149551_j31903017074707_2_alg».proof.Proof.K.R1RunA
import proofs.«149551_j31903017074707_2_alg».proof.Proof.K.R1RunB
import proofs.«149551_j31903017074707_2_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S5000x128.Idx) :
    ∃ pc ∈ (kernelRun1_A c i arg1 harg1 arg2 harg2 arg3 harg3 arg4 harg4 arg5 harg5 arg6 harg6 arg7 harg7 arg8 harg8 hc0 hc1 x0 x1 x2).1, y ∈ pc.1.set :=
  View.cover_of_tiledL (kernelRun1_A c i arg1 harg1 arg2 harg2 arg3 harg3 arg4 harg4 arg5 harg5 arg6 harg6 arg7 harg7 arg8 harg8 hc0 hc1 x0 x1 x2).1 S5000x128.size (by sl_kernel_rfl) y
/-- What case A leaves in the block output's staging buffer: its pieces read back. -/
def out1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S5000x128 .f32 :=
  VO1_3.read (Elt F) (VO1_3.writes (Elt F) VO1_3.junk (kernelRun1_A c i arg1 harg1 arg2 harg2 arg3 harg3 arg4 harg4 arg5 harg5 arg6 harg6 arg7 harg7 arg8 harg8 hc0 hc1 x0 x1 x2).1)

theorem scover1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.1, y ∈ pc.1.set :=
  View.cover_of_tiledL (kernelRun1_A c i arg1 harg1 arg2 harg2 arg3 harg3 arg4 harg4 arg5 harg5 arg6 harg6 arg7 harg7 arg8 harg8 hc0 hc1 x0 x1 x2).2.1 S1x128.size (by sl_kernel_rfl) y
/-- What case A leaves in the first scratch row. -/
def sout1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2).2.1)

theorem scover1_A_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.2.1, y ∈ pc.1.set :=
  View.cover_of_tiledL (kernelRun1_A c i arg1 harg1 arg2 harg2 arg3 harg3 arg4 harg4 arg5 harg5 arg6 harg6 arg7 harg7 arg8 harg8 hc0 hc1 x0 x1 x2).2.2.1 S1x128.size (by sl_kernel_rfl) y
/-- What case A leaves in the second scratch row. -/
def sout1_A_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2).2.2.1)

theorem cover1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).1 S5000x128.size (by sl_kernel_rfl) y
/-- What case B leaves in the block output's staging buffer: its pieces read back. -/
def out1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_B c i arg1 harg1 arg2 harg2 arg3 harg3 arg4 harg4 arg5 harg5 arg6 harg6 arg7 harg7 arg8 harg8 hc0 hc1 x0 x1 x2 xs0 xs1).1)

theorem scover1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.1 S1x128.size (by sl_kernel_rfl) y
/-- What case B leaves in the first scratch row. -/
def sout1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 xs0 xs1).2.1)

theorem scover1_B_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.2.1 S1x128.size (by sl_kernel_rfl) y
/-- What case B leaves in the second scratch row. -/
def sout1_B_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 xs0 xs1).2.2.1)

theorem cover1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).1 S5000x128.size (by sl_kernel_rfl) y
/-- What case C leaves in the block output's staging buffer: its pieces read back. -/
def out1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_C c i arg1 harg1 arg2 harg2 arg3 harg3 arg4 harg4 arg5 harg5 arg6 harg6 arg7 harg7 arg8 harg8 hc0 hc1 x0 x1 x2 xs0 xs1).1)

theorem cover1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.1 S1x128.size (by sl_kernel_rfl) y
/-- What the last point leaves in the first row output's staging buffer. -/
def out1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 xs0 xs1).2.1)

theorem cover1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.1 S1x128.size (by sl_kernel_rfl) y
/-- What the last point leaves in the second row output's staging buffer. -/
def out1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 xs0 xs1).2.2.1)

theorem scover1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What case C leaves in the first scratch row. -/
def sout1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 xs0 xs1).2.2.2.1)

theorem scover1_C_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What case C leaves in the second scratch row. -/
def sout1_C_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 xs0 xs1).2.2.2.2.1)

variable (V : (c : Dev nD) → (b : Ref sig .tc) → Buf (Elt F) ((c : Thread nD τ).loc b))

theorem N1_lt {n : ℕ} (hn : n < cfg1.N) : n < 10 := lt_of_lt_of_eq hn (show cfg1.N = 10 from N_1)
theorem c0_zero (hn : 0 < cfg1.N) : cond1_0 (grid1.coords ⟨0, hn⟩) := (hcond1_0 ⟨0, hn⟩).mpr (Nat.zero_mod _)
theorem nc1_zero (hn : 0 < cfg1.N) : ¬cond1_1 (grid1.coords ⟨0, hn⟩) := fun h => by
  have h' := (hcond1_1 ⟨0, hn⟩).mp h
  dsimp only at h'; omega
theorem nc0_succ (n : ℕ) (hn : n + 1 < cfg1.N) : ¬cond1_0 (grid1.coords ⟨n + 1, hn⟩) := fun h => by
  have h' := (hcond1_0 ⟨n + 1, hn⟩).mp h
  have hN := N1_lt hn
  dsimp only at h'; omega
theorem c1_of (t : Fin cfg1.N) (h : t.val % 10 = 9) : cond1_1 (grid1.coords t) := (hcond1_1 t).mpr h
theorem nc1_of (t : Fin cfg1.N) (h : ¬t.val % 10 = 9) : ¬cond1_1 (grid1.coords t) := fun h' => h ((hcond1_1 t).mp h')

/-- THE ACCUMULATION: what the three outputs' staging buffers and the two scratch rows hold after the body at position n
    (block output, first row output, second row output, first scratch row, second scratch row): at position 0 the
    first-point case; at a later position the last-point case when n = 9 and the middle case otherwise, each run on the
    scratch rows the position before left. A row output at a point that stores nothing into it is a placeholder. -/
def outsAt1 (c : Dev nD) : (n : ℕ) → n < cfg1.N → Vec F S5000x128 .f32 × Vec F S1x128 .f32 × Vec F S1x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), VO1_4.read (Elt F) VO1_4.junk, VO1_5.read (Elt F) VO1_5.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩))
  | n + 1, hn =>
    if h1 : (n + 1) % 10 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, VO1_4.read (Elt F) VO1_4.junk, VO1_5.read (Elt F) VO1_5.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)

theorem outsAt1_zero (c : Dev nD) (hn : 0 < cfg1.N) :
    outsAt1 V c 0 hn = (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), VO1_4.read (Elt F) VO1_4.junk, VO1_5.read (Elt F) VO1_5.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩)) := rfl
theorem outsAt1_succ_C (c : Dev nD) (n : ℕ) (hn : n + 1 < cfg1.N) (h1 : (n + 1) % 10 = 9) :
    outsAt1 V c (n + 1) hn = (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2) := by
  rw [outsAt1]; exact dif_pos h1
theorem outsAt1_succ_B (c : Dev nD) (n : ℕ) (hn : n + 1 < cfg1.N) (h1 : ¬(n + 1) % 10 = 9) :
    outsAt1 V c (n + 1) hn = (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, VO1_4.read (Elt F) VO1_4.junk, VO1_5.read (Elt F) VO1_5.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2) := by
  rw [outsAt1]; exact dif_neg h1

/-- outsAt1 at the first point: the first-point case's contents. -/
theorem outsAt1_A (c : Dev nD) (t : Fin cfg1.N) (h0 : t.val = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t), VO1_4.read (Elt F) VO1_4.junk, VO1_5.read (Elt F) VO1_5.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t)) := by
  obtain ⟨n, hn⟩ := t
  dsimp only at h0
  subst h0
  rfl
/-- outsAt1 at a middle point: the middle case's contents, on the scratch rows the point before left. -/
theorem outsAt1_B (c : Dev nD) (t : Fin cfg1.N) (h0 : ¬t.val = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_4.read (Elt F) VO1_4.junk, VO1_5.read (Elt F) VO1_5.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact outsAt1_succ_B V c n hn h1
/-- outsAt1 at the last point: the last-point case's contents, on the scratch rows the point before left. -/
theorem outsAt1_C (c : Dev nD) (t : Fin cfg1.N) (h0 : ¬t.val = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact outsAt1_succ_C V c n hn h1

/-- The region invariant before position n: before the first point the class's (every scratch at anything); afterwards the
    two scratch rows at what the point before left in them, and the generator register at some state. -/
def PhiS1 (c : Dev nD) : (n : ℕ) → n ≤ cfg1.N → sProp 𝕄
  | 0, _ => Pipeline.ΦA spec1 c
  | n + 1, hn => PhiWith (F := F) c (owns (c : Thread nD τ) scM1_0 fullShare ((outsAt1 V c n hn).2.2.2.1)) (owns (c : Thread nD τ) scM1_1 fullShare ((outsAt1 V c n hn).2.2.2.2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith (F := F) c (owns (c : Thread nD τ) scM1_0 fullShare ((outsAt1 V c n hn).2.2.2.1)) (owns (c : Thread nD τ) scM1_1 fullShare ((outsAt1 V c n hn).2.2.2.2)) := rfl
theorem PhiS1_pos (c : Dev nD) (n : ℕ) (h : n ≤ cfg1.N) (hz : n ≠ 0) :
    PhiS1 V c n h = PhiWith (F := F) c (owns (c : Thread nD τ) scM1_0 fullShare ((outsAt1 V c (n - 1) (by omega)).2.2.2.1)) (owns (c : Thread nD τ) scM1_1 fullShare ((outsAt1 V c (n - 1) (by omega)).2.2.2.2)) := by
  cases n with
  | zero => exact absurd rfl hz
  | succ n => rfl

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) :
    (dat1 V c).Φ t.castSucc = PhiS1 V c t.val (Nat.le_of_lt t.isLt) := by
  dsimp only [dat1]; simp only [Fin.coe_castSucc]

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the two scratch rows at what the point before left (at anything at the first point) and takes
    them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 10 := N1_lt t.isLt
  by_cases h0 : t.val = 0
  ·
    rw [Dat.leavesExact_idle (dat1 V c) 4 t (idleAt1_4 t (fun h => by have := (hcond1_1 t).mp h; omega)) (noFlush1_4 t (fun h => by have := (hcond1_1 t).mp h; omega)),
      Dat.leavesExact_idle (dat1 V c) 5 t (idleAt1_5 t (fun h => by have := (hcond1_1 t).mp h; omega)) (noFlush1_5 t (fun h => by have := (hcond1_1 t).mp h; omega))]
    rw [outsAt1_A V c t h0]
    unfold out1_A_3 sout1_A_0 sout1_A_1; (try dsimp only)
    rw [Phi1_castSucc V c t, PhiS1_zero V c _ _ h0, PhiA1_eq]
    iintro ⟨HP, Ho, ⟨%d0, H0⟩, ⟨%d1, H1⟩, ⟨%d2, H2⟩, ⟨%d3, H3⟩, ⟨%d4, H4⟩, ⟨%d5, H5⟩⟩
    ihave HQ := (PhiWith_split (F := F) c _ _) $$ HP
    icases HQ with ⟨HS0, HS1, HR⟩
    iapply ((kernelRun1_A c (grid1.coords t) _ _ _ _ _ _ _ _ _ _ _ _ _ _ _ _ ((hcond1_0 t).mpr (by omega)) (fun h => by have := (hcond1_1 t).mp h; omega) (iblk1 V c 0 t) (iblk1 V c 1 t) (iblk1 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 HR]
    · iapply (PhiWith_join (F := F) c _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _ _ _ _ _)
    isplitl [H4]; · iexists _; iexact H4
    iexists _; iexact H5
  · by_cases h1 : t.val % 10 = 9
    ·
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_3 out1_C_4 out1_C_5 sout1_C_0 sout1_C_1; (try dsimp only)
      rw [Phi1_castSucc V c t, PhiS1_pos V c _ _ h0]
      iintro ⟨HP, Ho, ⟨%d0, H0⟩, ⟨%d1, H1⟩, ⟨%d2, H2⟩, ⟨%d3, H3⟩, ⟨%d4, H4⟩, ⟨%d5, H5⟩⟩
      ihave HQ := (PhiWith_split (F := F) c _ _) $$ HP
      icases HQ with ⟨HS0, HS1, HR⟩
      iapply ((kernelRun1_C c (grid1.coords t) _ _ _ _ _ _ _ _ _ _ _ _ _ _ _ _ (fun h => h0 (by have := (hcond1_0 t).mp h; omega)) ((hcond1_1 t).mpr h1) (iblk1 V c 0 t) (iblk1 V c 1 t) (iblk1 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR]
      · iapply (PhiWith_join (F := F) c _ _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h))),
        Dat.leavesExact_idle (dat1 V c) 5 t (idleAt1_5 t (fun h => h1 ((hcond1_1 t).mp h))) (noFlush1_5 t (fun h => h1 ((hcond1_1 t).mp h)))]
      rw [outsAt1_B V c t h0 h1]
      unfold out1_B_3 sout1_B_0 sout1_B_1; (try dsimp only)
      rw [Phi1_castSucc V c t, PhiS1_pos V c _ _ h0]
      iintro ⟨HP, Ho, ⟨%d0, H0⟩, ⟨%d1, H1⟩, ⟨%d2, H2⟩, ⟨%d3, H3⟩, ⟨%d4, H4⟩, ⟨%d5, H5⟩⟩
      ihave HQ := (PhiWith_split (F := F) c _ _) $$ HP
      icases HQ with ⟨HS0, HS1, HR⟩
      iapply ((kernelRun1_B c (grid1.coords t) _ _ _ _ _ _ _ _ _ _ _ _ _ _ _ _ (fun h => h0 (by have := (hcond1_0 t).mp h; omega)) (fun h => h1 ((hcond1_1 t).mp h)) (iblk1 V c 0 t) (iblk1 V c 1 t) (iblk1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 HR]
      · iapply (PhiWith_join (F := F) c _ _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _ _ _ _ _)
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the class's back: the scratch rows' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro HP
  ihave HQ := (PhiWith_split (F := F) c _ _) $$ HP
  icases HQ with ⟨HS0, HS1, HR⟩
  iapply (PhiWith_join (F := F) c _ _)
  isplitl [HS0]; · iexists _; iexact HS0
  isplitl [HS1]; · iexists _; iexact HS1
  iexact HR

end Cert.Kernel.Hand

end
-- ==== Proof.K.Region2.lean ====
/-
  Region 2 of @main: normalisation and rectification. At grid point t the body reads the point's 5000 rows of the first
  operand and four 1x128 rows (a mean, a variance, a scale and a shift, each staged once), clamps the variance at zero
  from below, adds the small constant, takes the reciprocal square root, and stores
  max((a - mean) * rsqrt * scale + shift, 0) as the point's block of the output. Nothing is kept between points; the
  one store covers the output's staging buffer whole.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S5000x128 := Rect.unit (s := S5000x128) ![0, 0] S5000x128.size inb_S5000x128_S5000x128_0_0
abbrev rD2 : Rect S1x128 := Rect.unit (s := S1x128) ![0, 0] S1x128.size inb_S1x128_S1x128_0_0

/-- The output's staging buffer after the body, from the five input blocks: its one store as a piece (the body reads
    the variance row, window 2, before the mean row, window 1). -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨rA2, k2_pay1 (View.ld x0 rA2) (View.ld x2 rD2) (View.ld x1 rD2) (View.ld x3 rD2) (View.ld x4 rD2)⟩]

/-- The one store covers the buffer. -/
theorem cover2_5 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

set_option maxHeartbeats 1000000 in
/-- The body on whole staging memrefs: the inputs at their contents, the output at anything, runs to the continuation
    with the inputs as they were and the output at out2_5 of the inputs. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.MainRun.lean ====
/-
  The whole run of @main: three stretches of host operations, the first region, a stretch, the second region, a stretch,
  the third region. The buffers' contents at each boundary are a fold from the launch memory: a stretch applies its
  operations; a region leaves each of its arrays at what its write-backs fold to and every other buffer as entered. Every
  weakly fair execution terminates, faulting nowhere, and in every final state each unscoped buffer of each core holds
  the last boundary's contents; the six argument arrays are then read back through the fold to their launch contents.
-/
import proofs.«149551_j31903017074707_2_alg».proof.Proof.Gen.Kernel.Launch
import proofs.«149551_j31903017074707_2_alg».proof.Proof.Gen.Kernel.Skeleton
import proofs.«149551_j31903017074707_2_alg».proof.Proof.Gen.Kernel.Points
import proofs.«149551_j31903017074707_2_alg».proof.Proof.Gen.Kernel.Regions
import proofs.«149551_j31903017074707_2_alg».proof.Proof.K.Region0
import proofs.«149551_j31903017074707_2_alg».proof.Proof.K.Region1
import proofs.«149551_j31903017074707_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first, second and third stretch of host operations (the first region's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the stretch between the first two regions (the second region's entry). -/
abbrev W5 : Dev nD → Valuation τ sig (Elt F) := fun c => StableHlo.after hostOps1 (W4 m ρ c)
abbrev U5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the stretch between the last two regions (the third region's entry). -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-! The arguments end as launched: no host operation writes one, and a region reads one through an input window or not at all. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (U3 m ρ) c).arrAt_in 0 rfl _).trans (A_eq0 (U3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's owes, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at W3, left at W4. Its arrays are split out of
    the unscoped buffers and put back at the exit contents; the generator register goes into the region invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out of
    the unscoped buffers and put back at the exit contents; the generator register goes into the region invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]; refine (show (pdats m ρ 1 c).Φ (Fin.last _) ⊢ Pipeline.ΦA spec1 c from hout1 (U5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split out of
    the unscoped buffers and put back at the exit contents; the generator register goes into the region invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME, at any instance: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.Kernel.Hand

end
-- ==== Proof.KI.Region0.lean ====
/-
  Region 0 of @main: the row-block product. At grid point t the body multiplies the 5000 rows of the first operand
  that the point stages by the whole 128x128 second operand, scales row r of the product by the r-th entry of the
  staged 5000x1 column, and stores the 5000x128 result as the point's block of the output. The body keeps nothing
  between points; its one store covers the output's staging buffer whole.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0
abbrev rC0 : Rect S5000x1 := Rect.unit (s := S5000x1) ![0, 0] S5000x1.size inb_S5000x1_S5000x1_0_0

/-- The output's staging buffer after the body, from the three input blocks: its one store as a piece. -/
def out0_3 (x0 : Vec F S5000x128 .f32) (x1 : Vec F S128x128 .f32) (x2 : Vec F S5000x1 .f32) : Vec F S5000x128 .f32 :=
  View.canon [⟨rA0, k0_pay1 (View.ld x0 rA0) (View.ld x1 rB0) (View.ld x2 rC0)⟩]

/-- The one store covers the buffer. -/
theorem cover0_3 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The body on whole staging memrefs: the inputs at their contents, the output at anything, runs to the continuation
    with the inputs as they were and the output at out0_3 of the inputs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c at the entry contents V: the arrays as the region finds them; after the body
    each input's buffer at its block and the output's at out0_3 of the input blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Base.lean ====
/-
  Region 1 of @main, the shared part: the two conditions the body branches on (is this the first grid point? the last?),
  where the two row outputs are idle, the staging and scratch memrefs, and the blocks the point's input windows hold.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken when the grid coordinate is 0: there it zeroes the two scratch rows. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The body's second branch is taken when the grid coordinate is 9: there it copies the two scratch rows out. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The three inputs and the block output are live at every point; the two row outputs only at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem idleAt1_5 : ∀ t : Fin cfg1.N, ¬cond1_1 (grid1.coords t) → cfg1.idle 5 (grid1.coords t) = true := by decide +kernel
theorem noFlush1_4 : ∀ t : Fin cfg1.N, ¬cond1_1 (grid1.coords t) → (cfg1.win 4).flush t = false := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-- One staging buffer of each output window, through which its contents are stated. -/
abbrev VO1_3 : View sig .tc .vmem S5000x128 .f32 := (Memref.whole cc1_stg3_0 : Memref sig .tc .vmem S5000x128 .f32).view
abbrev VO1_4 : View sig .tc .vmem S1x128 .f32 := (Memref.whole cc1_stg4_0 : Memref sig .tc .vmem S1x128 .f32).view
abbrev VO1_5 : View sig .tc .vmem S1x128 .f32 := (Memref.whole cc1_stg5_0 : Memref sig .tc .vmem S1x128 .f32).view
/-- Each window's current staging memref at point t, spelt as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two scratch rows: whole scoped buffers of the kernel's own, carried from one point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- A scoped buffer of the core, whole, at some contents. -/
abbrev bufAny (c : Dev nD) (b : Ref sig .tc) : sProp 𝕄 :=
  iprop(∃ f : Buf (Elt F) ((c : Thread nD τ).loc b), ((c : Thread nD τ).loc b) ↦{fullShare} f)
/-- The staging buffers of the region after this one, each at some contents. -/
abbrev tail1 (c : Dev nD) : sProp 𝕄 :=
  iprop(bufAny (F := F) c cc2_stg0_0 ∗ bufAny (F := F) c cc2_stg0_1 ∗ bufAny (F := F) c cc2_stg1_0 ∗ bufAny (F := F) c cc2_stg2_0 ∗ bufAny (F := F) c cc2_stg3_0 ∗ bufAny (F := F) c cc2_stg4_0 ∗ bufAny (F := F) c cc2_stg5_0 ∗ bufAny (F := F) c cc2_stg5_1)
/-- The class invariant's shape with the two scratch rows' resources as parameters: the staging buffers of the region before
    this one, the two scratch rows, the staging buffers of the region after, and the generator register at some state. -/
def PhiWith (c : Dev nD) (S0 S1 : sProp 𝕄) : sProp 𝕄 :=
  iprop((bufAny (F := F) c cc0_stg0_0 ∗ bufAny (F := F) c cc0_stg0_1 ∗ bufAny (F := F) c cc0_stg1_0 ∗ bufAny (F := F) c cc0_stg2_0 ∗ bufAny (F := F) c cc0_stg2_1 ∗ bufAny (F := F) c cc0_stg3_0 ∗ bufAny (F := F) c cc0_stg3_1 ∗ S0 ∗ S1 ∗ tail1 (F := F) c) ∗ ∃ r, prngReg c r)
/-- Everything of that shape but the two scratch rows. -/
def restR (c : Dev nD) : sProp 𝕄 :=
  iprop((bufAny (F := F) c cc0_stg0_0 ∗ bufAny (F := F) c cc0_stg0_1 ∗ bufAny (F := F) c cc0_stg1_0 ∗ bufAny (F := F) c cc0_stg2_0 ∗ bufAny (F := F) c cc0_stg2_1 ∗ bufAny (F := F) c cc0_stg3_0 ∗ bufAny (F := F) c cc0_stg3_1 ∗ tail1 (F := F) c) ∗ ∃ r, prngReg c r)

theorem PhiWith_split (c : Dev nD) (S0 S1 : sProp 𝕄) : PhiWith (F := F) c S0 S1 ⊢ iprop(S0 ∗ S1 ∗ restR (F := F) c) := by
  unfold PhiWith restR
  iintro ⟨⟨B0, B1, B2, B3, B4, B5, B6, HS0, HS1, Ht⟩, Hg⟩
  isplitl [HS0]; · iexact HS0
  isplitl [HS1]; · iexact HS1
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact Ht
  iexact Hg

theorem PhiWith_join (c : Dev nD) (S0 S1 : sProp 𝕄) : iprop(S0 ∗ S1 ∗ restR (F := F) c) ⊢ PhiWith (F := F) c S0 S1 := by
  unfold PhiWith restR
  iintro ⟨HS0, HS1, ⟨B0, B1, B2, B3, B4, B5, B6, Ht⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [HS0]; · iexact HS0
    isplitl [HS1]; · iexact HS1
    iexact Ht
  iexact Hg

/-- The class invariant is that shape with each scratch row owned at some contents. -/
theorem PhiA1_eq (c : Dev nD) :
    (Pipeline.ΦA spec1 c : sProp 𝕄)
      = PhiWith (F := F) c (iprop(∃ d, owns (c : Thread nD τ) scM1_0 fullShare d)) (iprop(∃ d, owns (c : Thread nD τ) scM1_1 fullShare d)) := by
  unfold Pipeline.ΦA PhiWith; rw [scopedRest1_eq]; simp only [scM1_0, scM1_1, owns_whole]; try rfl

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KI.R1RunA.lean ====
/-
  Region 1 of @main, the body at the first grid point (the scratch rows are zeroed, then the point's column sums and sums of squares are added; the two row outputs are left alone): what its stores leave in each buffer, as pieces, with the proof that on
  whole memrefs holding the stated contents the body runs to the continuation with those pieces written.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i)
    (x0 : Vec F S5000x128 .f32) (x1 : Vec F S5000x1 .f32) (x2 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg5 fullShare xi4
            ∗ owns (c : Thread nD τ) arg6 fullShare xi5
            ∗ (∃ d, owns (c : Thread nD τ) arg7 fullShare d)
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ owns (c : Thread nD τ) arg5 fullShare xi4
                ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R1RunB.lean ====
/-
  Region 1 of @main, the body at a grid point that is neither first nor last (the point's column sums and sums of squares are added to the scratch rows; the two row outputs are left alone): what its stores leave in each buffer, as pieces, with the proof that on
  whole memrefs holding the stated contents the body runs to the continuation with those pieces written.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg5 fullShare xi4
            ∗ owns (c : Thread nD τ) arg6 fullShare xi5
            ∗ owns (c : Thread nD τ) arg7 fullShare xs0
            ∗ owns (c : Thread nD τ) arg8 fullShare xs1
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ owns (c : Thread nD τ) arg5 fullShare xi4
                ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, fun xi4 xi5 E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Hand

end
-- ==== Proof.KI.R1RunC.lean ====
/-
  Region 1 of @main, the body at the last grid point (the point's column sums and sums of squares are added to the scratch rows, which are then copied to the two row outputs): what its stores leave in each buffer, as pieces, with the proof that on
  whole memrefs holding the stated contents the body runs to the continuation with those pieces written.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i)
    (x0 : Vec F S5000x128 .f32) (x1 : Vec F S5000x1 .f32) (x2 : Vec F S1x128 .f32) (xs0 : Vec F S1x128 .f32) (xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ (∃ d, owns (c : Thread nD τ) arg5 fullShare d)
            ∗ (∃ d, owns (c : Thread nD τ) arg6 fullShare d)
            ∗ owns (c : Thread nD τ) arg7 fullShare xs0
            ∗ owns (c : Thread nD τ) arg8 fullShare xs1
            ∗ (iprop(owns (c : Thread nD τ) arg1 fullShare x0
                ∗ owns (c : Thread nD τ) arg2 fullShare x1
                ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc1__combine_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc1__combine_stats_kernel_eq_skeleton]; unfold cc1__combine_stats_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KI.Region1.lean ====
/-
  Region 1 of @main: the scaled sum plus bias, with the column statistics. At grid point t the body stores, as the point's
  block of the first output, a = (rows of the first operand) * (the staged 5000x1 column, broadcast along each row) +
  (the staged 1x128 row, broadcast down the columns), and keeps in two scratch rows the running column sums of a and of
  a * a over the points so far: zeroed at the first point, copied to the two 1x128 outputs at the last. What the two
  scratch rows hold after each point is defined by recursion on the point; the region invariant carries them from one
  point to the next.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.KI.R1RunA
import proofs.«149551_j31903017074707_2_alg».proof.Proof.KI.R1RunB
import proofs.«149551_j31903017074707_2_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S5000x128.Idx) :
    ∃ pc ∈ (kernelRun1_A c i arg1 harg1 arg2 harg2 arg3 harg3 arg4 harg4 arg5 harg5 arg6 harg6 arg7 harg7 arg8 harg8 hc0 hc1 x0 x1 x2).1, y ∈ pc.1.set :=
  View.cover_of_tiledL (kernelRun1_A c i arg1 harg1 arg2 harg2 arg3 harg3 arg4 harg4 arg5 harg5 arg6 harg6 arg7 harg7 arg8 harg8 hc0 hc1 x0 x1 x2).1 S5000x128.size (by sl_kernel_rfl) y
/-- What case A leaves in the block output's staging buffer: its pieces read back. -/
def out1_A_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S5000x128 .f32 :=
  VO1_3.read (Elt F) (VO1_3.writes (Elt F) VO1_3.junk (kernelRun1_A c i arg1 harg1 arg2 harg2 arg3 harg3 arg4 harg4 arg5 harg5 arg6 harg6 arg7 harg7 arg8 harg8 hc0 hc1 x0 x1 x2).1)

theorem scover1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.1, y ∈ pc.1.set :=
  View.cover_of_tiledL (kernelRun1_A c i arg1 harg1 arg2 harg2 arg3 harg3 arg4 harg4 arg5 harg5 arg6 harg6 arg7 harg7 arg8 harg8 hc0 hc1 x0 x1 x2).2.1 S1x128.size (by sl_kernel_rfl) y
/-- What case A leaves in the first scratch row. -/
def sout1_A_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 hc0 hc1 x0 x1 x2).2.1)

theorem scover1_A_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) (y : S1x128.Idx) :
    ∃ pc ∈ (kernelRun1_A c i arg1 harg1 arg2 harg2 arg3 harg3 arg4 harg4 arg5 harg5 arg6 harg6 arg7 harg7 arg8 harg8 hc0 hc1 x0 x1 x2).2.2.1, y ∈ pc.1.set :=
  View.cover_of_tiledL (kernelRun1_A c i arg1 harg1 arg2 harg2 arg3 harg3 arg4 harg4 arg5 harg5 arg6 harg6 arg7 harg7 arg8 harg8 hc0 hc1 x0 x1 x2).2.2.1 S1x128.size (by sl_kernel_rfl) y
/-- What case A leaves in the second scratch row. -/
def sout1_A_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 hc0 hc1 x0 x1 x2).2.2.1)

theorem cover1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).1 S5000x128.size (by sl_kernel_rfl) y
/-- What case B leaves in the block output's staging buffer: its pieces read back. -/
def out1_B_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_B c i arg1 harg1 arg2 harg2 arg3 harg3 arg4 harg4 arg5 harg5 arg6 harg6 arg7 harg7 arg8 harg8 hc0 hc1 x0 x1 x2 xs0 xs1).1)

theorem scover1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.1 S1x128.size (by sl_kernel_rfl) y
/-- What case B leaves in the first scratch row. -/
def sout1_B_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 hc0 hc1 x0 x1 x2 xs0 xs1).2.1)

theorem scover1_B_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 xs0 xs1).2.2.1 S1x128.size (by sl_kernel_rfl) y
/-- What case B leaves in the second scratch row. -/
def sout1_B_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 hc0 hc1 x0 x1 x2 xs0 xs1).2.2.1)

theorem cover1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S5000x128.Idx) :
    ∃ pc ∈ (kernelRun1_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).1 S5000x128.size (by sl_kernel_rfl) y
/-- What case C leaves in the block output's staging buffer: its pieces read back. -/
def out1_C_3 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S5000x128 .f32 :=
  VO1_3.read (Elt F) (VO1_3.writes (Elt F) VO1_3.junk (kernelRun1_C c i arg1 harg1 arg2 harg2 arg3 harg3 arg4 harg4 arg5 harg5 arg6 harg6 arg7 harg7 arg8 harg8 hc0 hc1 x0 x1 x2 xs0 xs1).1)

theorem cover1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.1 S1x128.size (by sl_kernel_rfl) y
/-- What the last point leaves in the first row output's staging buffer. -/
def out1_C_4 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VO1_4.read (Elt F) (VO1_4.writes (Elt F) VO1_4.junk (kernelRun1_C c i arg1 harg1 arg2 harg2 arg3 harg3 arg4 harg4 arg5 harg5 arg6 harg6 arg7 harg7 arg8 harg8 hc0 hc1 x0 x1 x2 xs0 xs1).2.1)

theorem cover1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.1 S1x128.size (by sl_kernel_rfl) y
/-- What the last point leaves in the second row output's staging buffer. -/
def out1_C_5 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VO1_5.read (Elt F) (VO1_5.writes (Elt F) VO1_5.junk (kernelRun1_C c i arg1 harg1 arg2 harg2 arg3 harg3 arg4 harg4 arg5 harg5 arg6 harg6 arg7 harg7 arg8 harg8 hc0 hc1 x0 x1 x2 xs0 xs1).2.2.1)

theorem scover1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.1 S1x128.size (by sl_kernel_rfl) y
/-- What case C leaves in the first scratch row. -/
def sout1_C_0 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 hc0 hc1 x0 x1 x2 xs0 xs1).2.2.2.1)

theorem scover1_C_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun1_C c i arg1 harg1 arg2 harg2 arg3 harg3 arg4 harg4 arg5 harg5 arg6 harg6 arg7 harg7 arg8 harg8 hc0 hc1 x0 x1 x2 xs0 xs1).2.2.2.2.1 S1x128.size (by sl_kernel_rfl) y
/-- What case C leaves in the second scratch row. -/
def sout1_C_1 (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 hc0 hc1 x0 x1 x2 xs0 xs1).2.2.2.2.1)

variable (V : (c : Dev nD) → (b : Ref sig .tc) → Buf (Elt F) ((c : Thread nD τ).loc b))

theorem N1_lt {n : ℕ} (hn : n < cfg1.N) : n < 10 := lt_of_lt_of_eq hn (show cfg1.N = 10 from N_1)
theorem c0_zero (hn : 0 < cfg1.N) : cond1_0 (grid1.coords ⟨0, hn⟩) := (hcond1_0 ⟨0, hn⟩).mpr (Nat.zero_mod _)
theorem nc1_zero (hn : 0 < cfg1.N) : ¬cond1_1 (grid1.coords ⟨0, hn⟩) := fun h => by
  have h' := (hcond1_1 ⟨0, hn⟩).mp h
  dsimp only at h'; omega
theorem nc0_succ (n : ℕ) (hn : n + 1 < cfg1.N) : ¬cond1_0 (grid1.coords ⟨n + 1, hn⟩) := fun h => by
  have h' := (hcond1_0 ⟨n + 1, hn⟩).mp h
  have hN := N1_lt hn
  dsimp only at h'; omega
theorem c1_of (t : Fin cfg1.N) (h : t.val % 10 = 9) : cond1_1 (grid1.coords t) := (hcond1_1 t).mpr h
theorem nc1_of (t : Fin cfg1.N) (h : ¬t.val % 10 = 9) : ¬cond1_1 (grid1.coords t) := fun h' => h ((hcond1_1 t).mp h')

/-- THE ACCUMULATION: what the three outputs' staging buffers and the two scratch rows hold after the body at position n
    (block output, first row output, second row output, first scratch row, second scratch row): at position 0 the
    first-point case; at a later position the last-point case when n = 9 and the middle case otherwise, each run on the
    scratch rows the position before left. A row output at a point that stores nothing into it is a placeholder. -/
def outsAt1 (c : Dev nD) : (n : ℕ) → n < cfg1.N → Vec F S5000x128 .f32 × Vec F S1x128 .f32 × Vec F S1x128 .f32 × Vec F S1x128 .f32 × Vec F S1x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), VO1_4.read (Elt F) VO1_4.junk, VO1_5.read (Elt F) VO1_5.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩))
  | n + 1, hn =>
    if h1 : (n + 1) % 10 = 9 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, VO1_4.read (Elt F) VO1_4.junk, VO1_5.read (Elt F) VO1_5.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.2.2.1 (outsAt1 c n (Nat.lt_of_succ_lt hn)).2.2.2.2)

theorem outsAt1_zero (c : Dev nD) (hn : 0 < cfg1.N) :
    outsAt1 V c 0 hn = (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), VO1_4.read (Elt F) VO1_4.junk, VO1_5.read (Elt F) VO1_5.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) (c0_zero hn) (nc1_zero hn) (iblk1 V c 0 ⟨0, hn⟩) (iblk1 V c 1 ⟨0, hn⟩) (iblk1 V c 2 ⟨0, hn⟩)) := rfl
theorem outsAt1_succ_C (c : Dev nD) (n : ℕ) (hn : n + 1 < cfg1.N) (h1 : (n + 1) % 10 = 9) :
    outsAt1 V c (n + 1) hn = (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (c1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2) := by
  rw [outsAt1]; exact dif_pos h1
theorem outsAt1_succ_B (c : Dev nD) (n : ℕ) (hn : n + 1 < cfg1.N) (h1 : ¬(n + 1) % 10 = 9) :
    outsAt1 V c (n + 1) hn = (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, VO1_4.read (Elt F) VO1_4.junk, VO1_5.read (Elt F) VO1_5.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (nc0_succ n hn) (nc1_of ⟨n + 1, hn⟩ h1) (iblk1 V c 0 ⟨n + 1, hn⟩) (iblk1 V c 1 ⟨n + 1, hn⟩) (iblk1 V c 2 ⟨n + 1, hn⟩) (outsAt1 V c n (Nat.lt_of_succ_lt hn)).2.2.2.1 (outsAt1 V c n (Nat.lt_of_succ_lt hn)).2.2.2.2) := by
  rw [outsAt1]; exact dif_neg h1

/-- outsAt1 at the first point: the first-point case's contents. -/
theorem outsAt1_A (c : Dev nD) (t : Fin cfg1.N) (h0 : t.val = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t), VO1_4.read (Elt F) VO1_4.junk, VO1_5.read (Elt F) VO1_5.junk, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr (by omega)) (fun h => by have := (hcond1_1 t).mp h; omega) (iblk1 V c 0 t) (iblk1 V c 1 t) (iblk1 V c 2 t)) := by
  obtain ⟨n, hn⟩ := t
  dsimp only at h0
  subst h0
  rfl
/-- outsAt1 at a middle point: the middle case's contents, on the scratch rows the point before left. -/
theorem outsAt1_B (c : Dev nD) (t : Fin cfg1.N) (h0 : ¬t.val = 0) (h1 : ¬t.val % 10 = 9) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, VO1_4.read (Elt F) VO1_4.junk, VO1_5.read (Elt F) VO1_5.junk, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) (fun h => h1 ((hcond1_1 t).mp h)) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact outsAt1_succ_B V c n hn h1
/-- outsAt1 at the last point: the last-point case's contents, on the scratch rows the point before left. -/
theorem outsAt1_C (c : Dev nD) (t : Fin cfg1.N) (h0 : ¬t.val = 0) (h1 : t.val % 10 = 9) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 (by have := (hcond1_0 t).mp h; have := N1_lt t.isLt; omega)) ((hcond1_1 t).mpr h1) (iblk1 V c 0 t) (iblk1 V c 1 t) (iblk1 V c 2 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact outsAt1_succ_C V c n hn h1

/-- The region invariant before position n: before the first point the class's (every scratch at anything); afterwards the
    two scratch rows at what the point before left in them, and the generator register at some state. -/
def PhiS1 (c : Dev nD) : (n : ℕ) → n ≤ cfg1.N → sProp 𝕄
  | 0, _ => Pipeline.ΦA spec1 c
  | n + 1, hn => PhiWith (F := F) c (owns (c : Thread nD τ) scM1_0 fullShare ((outsAt1 V c n hn).2.2.2.1)) (owns (c : Thread nD τ) scM1_1 fullShare ((outsAt1 V c n hn).2.2.2.2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith (F := F) c (owns (c : Thread nD τ) scM1_0 fullShare ((outsAt1 V c n hn).2.2.2.1)) (owns (c : Thread nD τ) scM1_1 fullShare ((outsAt1 V c n hn).2.2.2.2)) := rfl
theorem PhiS1_pos (c : Dev nD) (n : ℕ) (h : n ≤ cfg1.N) (hz : n ≠ 0) :
    PhiS1 V c n h = PhiWith (F := F) c (owns (c : Thread nD τ) scM1_0 fullShare ((outsAt1 V c (n - 1) (by omega)).2.2.2.1)) (owns (c : Thread nD τ) scM1_1 fullShare ((outsAt1 V c (n - 1) (by omega)).2.2.2.2)) := by
  cases n with
  | zero => exact absurd rfl hz
  | succ n => rfl

/-- The proof data of pipeline 1 on core c at the entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem Phi1_castSucc (c : Dev nD) (t : Fin cfg1.N) :
    (dat1 V c).Φ t.castSucc = PhiS1 V c t.val (Nat.le_of_lt t.isLt) := by
  dsimp only [dat1]; simp only [Fin.coe_castSucc]

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the two scratch rows at what the point before left (at anything at the first point) and takes
    them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 10 := N1_lt t.isLt
  by_cases h0 : t.val = 0
  ·
    rw [Dat.leavesExact_idle (dat1 V c) 4 t (idleAt1_4 t (fun h => by have := (hcond1_1 t).mp h; omega)) (noFlush1_4 t (fun h => by have := (hcond1_1 t).mp h; omega)),
      Dat.leavesExact_idle (dat1 V c) 5 t (idleAt1_5 t (fun h => by have := (hcond1_1 t).mp h; omega)) (noFlush1_5 t (fun h => by have := (hcond1_1 t).mp h; omega))]
    rw [outsAt1_A V c t h0]
    unfold out1_A_3 sout1_A_0 sout1_A_1; (try dsimp only)
    rw [Phi1_castSucc V c t, PhiS1_zero V c _ _ h0, PhiA1_eq]
    iintro ⟨HP, Ho, ⟨%d0, H0⟩, ⟨%d1, H1⟩, ⟨%d2, H2⟩, ⟨%d3, H3⟩, ⟨%d4, H4⟩, ⟨%d5, H5⟩⟩
    ihave HQ := (PhiWith_split (F := F) c _ _) $$ HP
    icases HQ with ⟨HS0, HS1, HR⟩
    iapply ((kernelRun1_A c (grid1.coords t) _ _ _ _ _ _ _ _ _ _ _ _ _ _ _ _ ((hcond1_0 t).mpr (by omega)) (fun h => by have := (hcond1_1 t).mp h; omega) (iblk1 V c 0 t) (iblk1 V c 1 t) (iblk1 V c 2 t)).2.2.2 _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [HS0 HS1 HR]
    · iapply (PhiWith_join (F := F) c _ _)
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _ _ _ _ _ _)
    isplitl [H4]; · iexists _; iexact H4
    iexists _; iexact H5
  · by_cases h1 : t.val % 10 = 9
    ·
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_3 out1_C_4 out1_C_5 sout1_C_0 sout1_C_1; (try dsimp only)
      rw [Phi1_castSucc V c t, PhiS1_pos V c _ _ h0]
      iintro ⟨HP, Ho, ⟨%d0, H0⟩, ⟨%d1, H1⟩, ⟨%d2, H2⟩, ⟨%d3, H3⟩, ⟨%d4, H4⟩, ⟨%d5, H5⟩⟩
      ihave HQ := (PhiWith_split (F := F) c _ _) $$ HP
      icases HQ with ⟨HS0, HS1, HR⟩
      iapply ((kernelRun1_C c (grid1.coords t) _ _ _ _ _ _ _ _ _ _ _ _ _ _ _ _ (fun h => h0 (by have := (hcond1_0 t).mp h; omega)) ((hcond1_1 t).mpr h1) (iblk1 V c 0 t) (iblk1 V c 1 t) (iblk1 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR]
      · iapply (PhiWith_join (F := F) c _ _)
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h))),
        Dat.leavesExact_idle (dat1 V c) 5 t (idleAt1_5 t (fun h => h1 ((hcond1_1 t).mp h))) (noFlush1_5 t (fun h => h1 ((hcond1_1 t).mp h)))]
      rw [outsAt1_B V c t h0 h1]
      unfold out1_B_3 sout1_B_0 sout1_B_1; (try dsimp only)
      rw [Phi1_castSucc V c t, PhiS1_pos V c _ _ h0]
      iintro ⟨HP, Ho, ⟨%d0, H0⟩, ⟨%d1, H1⟩, ⟨%d2, H2⟩, ⟨%d3, H3⟩, ⟨%d4, H4⟩, ⟨%d5, H5⟩⟩
      ihave HQ := (PhiWith_split (F := F) c _ _) $$ HP
      icases HQ with ⟨HS0, HS1, HR⟩
      iapply ((kernelRun1_B c (grid1.coords t) _ _ _ _ _ _ _ _ _ _ _ _ _ _ _ _ (fun h => h0 (by have := (hcond1_0 t).mp h; omega)) (fun h => h1 ((hcond1_1 t).mp h)) (iblk1 V c 0 t) (iblk1 V c 1 t) (iblk1 V c 2 t) _ _).2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, ⟨%es0, HS0⟩, ⟨%es1, HS1⟩⟩
      isplitl [HS0 HS1 HR]
      · iapply (PhiWith_join (F := F) c _ _)
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _ _ _ _ _)
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the class's back: the scratch rows' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro HP
  ihave HQ := (PhiWith_split (F := F) c _ _) $$ HP
  icases HQ with ⟨HS0, HS1, HR⟩
  iapply (PhiWith_join (F := F) c _ _)
  isplitl [HS0]; · iexists _; iexact HS0
  isplitl [HS1]; · iexists _; iexact HS1
  iexact HR

end Cert.KernelIdeal.Hand

end
-- ==== Proof.KI.Region2.lean ====
/-
  Region 2 of @main: normalisation and rectification. At grid point t the body reads the point's 5000 rows of the first
  operand and four 1x128 rows (a mean, a variance, a scale and a shift, each staged once), clamps the variance at zero
  from below, adds the small constant, takes the reciprocal square root, and stores
  max((a - mean) * rsqrt * scale + shift, 0) as the point's block of the output. Nothing is kept between points; the
  one store covers the output's staging buffer whole.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S5000x128 := Rect.unit (s := S5000x128) ![0, 0] S5000x128.size inb_S5000x128_S5000x128_0_0
abbrev rD2 : Rect S1x128 := Rect.unit (s := S1x128) ![0, 0] S1x128.size inb_S1x128_S1x128_0_0

/-- The output's staging buffer after the body, from the five input blocks: its one store as a piece (the body reads
    the variance row, window 2, before the mean row, window 1). -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨rA2, k2_pay1 (View.ld x0 rA2) (View.ld x2 rD2) (View.ld x1 rD2) (View.ld x3 rD2) (View.ld x4 rD2)⟩]

/-- The one store covers the buffer. -/
theorem cover2_5 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

set_option maxHeartbeats 1000000 in
/-- The body on whole staging memrefs: the inputs at their contents, the output at anything, runs to the continuation
    with the inputs as they were and the output at out2_5 of the inputs. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core c at the entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.MainRun.lean ====
/-
  The whole run of @main: three stretches of host operations, the first region, a stretch, the second region, a stretch,
  the third region. The buffers' contents at each boundary are a fold from the launch memory: a stretch applies its
  operations; a region leaves each of its arrays at what its write-backs fold to and every other buffer as entered. Every
  weakly fair execution terminates, faulting nowhere, and in every final state each unscoped buffer of each core holds
  the last boundary's contents; the six argument arrays are then read back through the fold to their launch contents.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.Gen.KernelIdeal.Regions
import proofs.«149551_j31903017074707_2_alg».proof.Proof.KI.Region0
import proofs.«149551_j31903017074707_2_alg».proof.Proof.KI.Region1
import proofs.«149551_j31903017074707_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first, second and third stretch of host operations (the first region's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev U3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the stretch between the first two regions (the second region's entry). -/
abbrev W5 : Dev nD → Valuation τ sig (Elt F) := fun c => StableHlo.after hostOps1 (W4 m ρ c)
abbrev U5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)

/-- After the stretch between the last two regions (the third region's entry). -/
abbrev W7 : Dev nD → Valuation τ sig (Elt F) := fun c => StableHlo.after hostOps2 (W6 m ρ c)
abbrev U7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of_ne m ρ c b fun w e => hb (Finset.mem_image.mpr ⟨w, Finset.mem_univ _, e⟩)

/-! The arguments end as launched: no host operation writes one, and a region reads one through an input window or not at all. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (U3 m ρ) c).arrAt_in 0 rfl _).trans (A_eq0 (U3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
  | ⟨2, _⟩ => fun c => dat2 (U7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's owes, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at W3, left at W4. Its arrays are split out of
    the unscoped buffers and put back at the exit contents; the generator register goes into the region invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out of
    the unscoped buffers and put back at the exit contents; the generator register goes into the region invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]; refine (show (pdats m ρ 1 c).Φ (Fin.last _) ⊢ Pipeline.ΦA spec1 c from hout1 (U5 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split out of
    the unscoped buffers and put back at the exit contents; the generator register goes into the region invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U7 m ρ c) (U8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME, at any instance: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_all m ρ)

end Cert.KernelIdeal.Hand

end
-- ==== Proof.Finite.lean ====
import proofs.«149551_j31903017074707_2_alg».proof.Pre_finite_inputs
import proofs.«149551_j31903017074707_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Cert.Pre_finite_inputs Cert.Pre_finite_inputs.Gen

/-- The f32 pattern `0x7F800000` (sign clear, exponent all ones, significand zero) denotes `+∞`. -/
theorem ofBits_inf : Ideal.ofBits .f32 0x7F800000#32 = (⊤ : EReal) := by
  simp [Ideal.ofBits, Ideal.ieee]

/-- On the extended reals `|x| = max x (-x)` is `⊤` at both infinities, so `|x| < +∞` holds only at a real `x`. -/
theorem real_of_abs_lt (x : EReal)
    (h : Ideal.cmp .olt (max x (-x)) (Ideal.ofBits .f32 0x7F800000#32) = 1#1) : ∃ r : ℝ, x = ((r : ℝ) : EReal) := by
  rw [ofBits_inf] at h
  induction x using EReal.rec with
  | bot => simp [Ideal.cmp] at h
  | coe r => exact ⟨r, rfl⟩
  | top => simp [Ideal.cmp] at h

/-- If the printed predicate (all |x| < +inf, conjoined over the five float inputs) is all ones, every entry of the first,
    third and fourth argument is a real number: the conjunction gives each `jnp.all` the value 1, a reduction by `and`
    that is 1 met a 1 at every index, and a 1 at index `i` says `|x i| < +∞`. -/
theorem real_of_pre (a0 : FVec Ideal S50000x128 .f32) (a1 : IVec S2x800000 32) (a2 : FVec Ideal S128x128 .f32) (a3 a4 a5 : FVec Ideal S128 .f32)
    (h : Cert.Pre_finite_inputs.fn (F := Ideal) a0 a1 a2 a3 a4 a5 = fun _ => 1#1) :
    (∀ i, ∃ r : ℝ, a0 i = ((r : ℝ) : EReal)) ∧ (∀ i, ∃ r : ℝ, a2 i = ((r : ℝ) : EReal)) ∧ (∀ i, ∃ r : ℝ, a3 i = ((r : ℝ) : EReal)) := by
  -- a rank-0 shape has exactly one index, so each reduction below is over every axis
  haveI : Subsingleton S_.Idx := ⟨fun a b => funext fun d => d.elim0⟩
  have h0 := congrFun h ValueIdx.ix0
  dsimp only [fn, fn_part1] at h0
  obtain ⟨h0123, _⟩ := IntOp.andi_eq_one.1 h0
  obtain ⟨h012, _⟩ := IntOp.andi_eq_one.1 h0123
  obtain ⟨h01, e3⟩ := IntOp.andi_eq_one.1 h012
  obtain ⟨e0, e2⟩ := IntOp.andi_eq_one.1 h01
  exact ⟨fun i => real_of_abs_lt (a0 i) (Host.reduce_andi_all _ _ _ _ _ e0 i),
    fun i => real_of_abs_lt (a2 i) (Host.reduce_andi_all _ _ _ _ _ e2 i),
    fun i => real_of_abs_lt (a3 i) (Host.reduce_andi_all _ _ _ _ _ e3 i)⟩

end Cert.FiniteInputs

end
-- ==== Proof.KI.HostDefs.lean ====
/-
  The host-side quantities of the program as functions of the edge list, at the exact instance: the source- and target-node
  lists (each edge-list row followed by every node once, the self loops), the in-degree, its guarded inverse square root,
  the source list with negative entries wrapped, and the gathered rows summed by target node.
-/
import proofs.«149551_j31903017074707_2_alg».proof.KernelIdeal
import proofs.«149551_j31903017074707_2_alg».proof.Proof.Gen.KernelIdeal
import Idealize.ShloMosaic.PureOps.Ideal
import Idealize.ShloMosaic.Lib.ValueIdx

noncomputable section

open Idealize.ShloMosaic Idealize.ShloMosaic.ValueIdx

namespace Cert.KernelIdeal.Val

open Cert.KernelIdeal Cert.KernelIdeal.Gen

/-- The source-node list: the first row of the edge list, then every node once (the self loops). -/
def rowK (e1 : S2x800000.Idx → BitVec 32) : S850000.Idx → BitVec 32 :=
  concatenate S850000 0 [⟨S800000, shapeCast S800000 (extractStridedSlice S1x800000 ![0, 0] e1 slices_S2x800000_S1x800000_0_0) shapeCasts_S1x800000_S800000⟩,
    ⟨S50000, iotaInDim S50000 32 0⟩] concatenates_S800000_S50000_S850000_d0
/-- The target-node list: the second row of the edge list, then every node once. -/
def colK (e1 : S2x800000.Idx → BitVec 32) : S850000.Idx → BitVec 32 :=
  concatenate S850000 0 [⟨S800000, shapeCast S800000 (extractStridedSlice S1x800000 ![1, 0] e1 slices_S2x800000_S1x800000_1_0) shapeCasts_S1x800000_S800000⟩,
    ⟨S50000, iotaInDim S50000 32 0⟩] concatenates_S800000_S50000_S850000_d0
/-- The in-degree: one per list entry, summed by target node. -/
def degK (e1 : S2x800000.Idx → BitVec 32) : FVec Ideal S50000 .f32 :=
  Host.scatterAdd (F := Ideal) scatter_S50000_S850000x1_S850000_n_0_0_1 (broadcastInDim S50000 ![] bcast_S_S50000 (constant (F := Ideal) S_ .f32 0x00000000#32))
    (broadcastInDim S850000x1 ![0] bcast_S850000_S850000x1_0 (colK e1)) (broadcastInDim S850000 ![] bcast_S_S850000 (constant (F := Ideal) S_ .f32 0x3F800000#32))
/-- Its inverse square root where positive, zero elsewhere. -/
def dinvK (e1 : S2x800000.Idx → BitVec 32) : FVec Ideal S50000 .f32 :=
  select (cmpf (F := Ideal) .ogt (degK e1) (broadcastInDim S50000 ![] bcast_S_S50000 (constant (F := Ideal) S_ .f32 0x00000000#32)))
    (Host.rsqrt (F := Ideal) (degK e1)) (broadcastInDim S50000 ![] bcast_S_S50000 (constant (F := Ideal) S_ .f32 0x00000000#32))
/-- The source-node list with negative entries wrapped by the node count. -/
def nrowK (e1 : S2x800000.Idx → BitVec 32) : S850000.Idx → BitVec 32 :=
  select (cmpi .slt (rowK e1) (broadcastInDim S850000 ![] bcast_S_S850000 (constantI S_ 32 0#32)))
    (addi (rowK e1) (broadcastInDim S850000 ![] bcast_S_S850000 (constantI S_ 32 50000#32))) (rowK e1)
/-- The rows of h gathered by source node and summed by target node. -/
def aggrawK (e1 : S2x800000.Idx → BitVec 32) (h : FVec Ideal S50000x128 .f32) : FVec Ideal S50000x128 .f32 :=
  Host.scatterAdd (F := Ideal) scatter_S50000x128_S850000x1_S850000x128_1_0_0_1 (broadcastInDim S50000x128 ![] bcast_S_S50000x128 (constant (F := Ideal) S_ .f32 0x00000000#32))
    (broadcastInDim S850000x1 ![0] bcast_S850000_S850000x1_0 (colK e1))
    (Host.gather gather_S50000x128_S850000x1_S850000x128_1_0_n_n_0_1_1128 h (broadcastInDim S850000x1 ![0] bcast_S850000_S850000x1_0 (nrowK e1)))

/-- The target-node list with negative entries wrapped by the node count. -/
def ncolK (e1 : S2x800000.Idx → BitVec 32) : S850000.Idx → BitVec 32 :=
  select (cmpi .slt (colK e1) (broadcastInDim S850000 ![] bcast_S_S850000 (constantI S_ 32 0#32)))
    (addi (colK e1) (broadcastInDim S850000 ![] bcast_S_S850000 (constantI S_ 32 50000#32))) (colK e1)

end Cert.KernelIdeal.Val

end
-- ==== Proof.KI.HostVal.lean ====
/-
  What the host operations of @main leave in the buffers the three regions read, at the exact instance, as functions of
  the argument arrays: the target-node list, the in-degree (with self loops), its guarded inverse square root as a column,
  the transposed weight; then, from the first region's output, the gathered rows summed by target node; then, from the
  second region's two row outputs, the mean and the mean of squares less the squared mean.
-/
import proofs.«149551_j31903017074707_2_alg».proof.Proof.KI.MainRun
import proofs.«149551_j31903017074707_2_alg».proof.Proof.KI.HostDefs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

open Idealize.ShloMosaic.StableHlo

variable (m : (ℓ : Loc nD τ sig) → Buf (Elt Ideal) ℓ) (ρ : Dev nD → PrngReg)

/-! ## The first region's entry -/

theorem U3_arg0 (c : Dev nD) : U3 m ρ c main_arg0 = m ((c : Thread nD τ).loc main_arg0) :=
  calc W3 m ρ c (Proc.devRef .tc main_arg0)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

set_option maxHeartbeats 2000000 in
theorem U3_v16 (c : Dev nD) : (U3 m ρ c main_v16 : S128x128.Idx → EReal)
    = transpose S128x128 [1, 0] (m ((c : Thread nD τ).loc main_arg2) : S128x128.Idx → EReal) transposes_S128x128_S128x128_1_0 := by
  show StableHlo.after hostOps0_2 _ (Proc.devRef .tc main_v16) = _
  after_results

/-- The guard and the inverse square root, as the first stretch leaves them. -/
theorem W1_v12 (c : Dev nD) : (W1 m ρ c (Proc.devRef .tc main_v12) : S50000.Idx → BitVec 1)
    = cmpf (F := Ideal) .ogt (degK (m ((c : Thread nD τ).loc main_arg1))) (broadcastInDim S50000 ![] bcast_S_S50000 (constant (F := Ideal) S_ .f32 0x00000000#32)) := by
  show StableHlo.after hostOps0 _ (Proc.devRef .tc main_v12) = _
  after_results
  unfold degK colK
  rfl
theorem W1_v13 (c : Dev nD) : (W1 m ρ c (Proc.devRef .tc main_v13) : S50000.Idx → EReal)
    = Host.rsqrt (F := Ideal) (degK (m ((c : Thread nD τ).loc main_arg1))) := by
  show StableHlo.after hostOps0 _ (Proc.devRef .tc main_v13) = _
  after_results
  unfold degK colK
  rfl
theorem W1_cst2 (c : Dev nD) : (W1 m ρ c (Proc.devRef .tc main_cst_2) : S_.Idx → EReal) = constant (F := Ideal) S_ .f32 0x00000000#32 := by
  show StableHlo.after hostOps0 _ (Proc.devRef .tc main_cst_2) = _
  after_results
/-- The guarded selection, over any contents the second stretch starts from. -/
theorem after1_v14 (X : Valuation τ sig (Elt Ideal)) :
    (StableHlo.after hostOps0_1 X (Proc.devRef .tc main_v14) : S50000.Idx → EReal)
      = select (X (Proc.devRef .tc main_v12) : S50000.Idx → BitVec 1) (X (Proc.devRef .tc main_v13) : S50000.Idx → EReal)
          (broadcastInDim S50000 ![] bcast_S_S50000 (X (Proc.devRef .tc main_cst_2) : S_.Idx → EReal)) := by
  after_results
  rfl
/-- The column, over any contents the third stretch starts from. -/
theorem after2_v15 (X : Valuation τ sig (Elt Ideal)) :
    (StableHlo.after hostOps0_2 X (Proc.devRef .tc main_v15) : S50000x1.Idx → EReal)
      = shapeCast S50000x1 (X (Proc.devRef .tc main_v14) : S50000.Idx → EReal) shapeCasts_S50000_S50000x1 := by
  after_results
  rfl
theorem U3_v15 (c : Dev nD) : (U3 m ρ c main_v15 : S50000x1.Idx → EReal)
    = shapeCast S50000x1 (dinvK (m ((c : Thread nD τ).loc main_arg1))) shapeCasts_S50000_S50000x1 := by
  show StableHlo.after hostOps0_2 (W2 m ρ c) (Proc.devRef .tc main_v15) = _
  rw [after2_v15]
  show shapeCast S50000x1 (StableHlo.after hostOps0_1 (W1 m ρ c) (Proc.devRef .tc main_v14) : S50000.Idx → EReal) shapeCasts_S50000_S50000x1 = _
  rw [after1_v14, W1_v12, W1_v13, W1_cst2]
  rfl

/-! ## Between the first two regions -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

set_option maxHeartbeats 4000000 in
theorem W3_v6 (c : Dev nD) : (W3 m ρ c (Proc.devRef .tc main_v6) : S850000.Idx → BitVec 32) = colK (m ((c : Thread nD τ).loc main_arg1)) := by
  show StableHlo.after hostOps0_2 _ (Proc.devRef .tc main_v6) = _
  after_results
  rfl
set_option maxHeartbeats 4000000 in
theorem W3_v3 (c : Dev nD) : (W3 m ρ c (Proc.devRef .tc main_v3) : S850000.Idx → BitVec 32) = rowK (m ((c : Thread nD τ).loc main_arg1)) := by
  show StableHlo.after hostOps0_2 _ (Proc.devRef .tc main_v3) = _
  after_results
  rfl
theorem W4_v6 (c : Dev nD) : (W4 m ρ c (Proc.devRef .tc main_v6) : S850000.Idx → BitVec 32) = colK (m ((c : Thread nD τ).loc main_arg1)) :=
  (W4_of_ne m ρ c main_v6 (by decide)).trans (W3_v6 m ρ c)
theorem W4_v3 (c : Dev nD) : (W4 m ρ c (Proc.devRef .tc main_v3) : S850000.Idx → BitVec 32) = rowK (m ((c : Thread nD τ).loc main_arg1)) :=
  (W4_of_ne m ρ c main_v3 (by decide)).trans (W3_v3 m ρ c)
/-- The first region's output array as the second stretch finds it. -/
theorem W4_v17 (c : Dev nD) : W4 m ρ c (Proc.devRef .tc main_v17) = (dat0 (U3 m ρ) c).arrAt 3 cfg0.N := W4_arr m ρ c 3
/-- The degree column passes through the first region unchanged (it is one of its inputs). -/
theorem W4_v15 (c : Dev nD) : W4 m ρ c (Proc.devRef .tc main_v15) = W3 m ρ c (Proc.devRef .tc main_v15) :=
  (W4_arr m ρ c 2).trans (((dat0 (U3 m ρ) c).arrAt_in 2 rfl _).trans (A_eq0 (U3 m ρ) c 2))

/-! ## The second region's entry -/

set_option maxHeartbeats 4000000 in
theorem U5_v27 (c : Dev nD) : (U5 m ρ c main_v27 : S50000x128.Idx → EReal)
    = aggrawK (m ((c : Thread nD τ).loc main_arg1)) ((dat0 (U3 m ρ) c).arrAt 3 cfg0.N) := by
  show StableHlo.after hostOps1 (W4 m ρ c) (Proc.devRef .tc main_v27) = _
  after_results
  rw [W4_v6, W4_v3, W4_v17]
  rfl
theorem U5_v15 (c : Dev nD) : (U5 m ρ c main_v15 : S50000x1.Idx → EReal)
    = shapeCast S50000x1 (dinvK (m ((c : Thread nD τ).loc main_arg1))) shapeCasts_S50000_S50000x1 :=
  ((StableHlo.after_of_writes_sub hostOps1 _ hostOps1_writes (by decide)).trans (W4_v15 m ρ c)).trans (U3_v15 m ρ c)
set_option maxHeartbeats 4000000 in
theorem U5_v28 (c : Dev nD) : (U5 m ρ c main_v28 : S1x128.Idx → EReal)
    = shapeCast S1x128 (m ((c : Thread nD τ).loc main_arg3) : S128.Idx → EReal) shapeCasts_S128_S1x128 := by
  show StableHlo.after hostOps1 (W4 m ρ c) (Proc.devRef .tc main_v28) = _
  after_results
  rw [W4_arg3]
  rfl

/-! ## The third region's entry -/

theorem W6_v31_0 (c : Dev nD) : W6 m ρ c (Proc.devRef .tc main_v31_0) = (dat1 (U5 m ρ) c).arrAt 3 cfg1.N := W6_arr m ρ c 3
theorem W6_v31_1 (c : Dev nD) : W6 m ρ c (Proc.devRef .tc main_v31_1) = (dat1 (U5 m ρ) c).arrAt 4 cfg1.N := W6_arr m ρ c 4
theorem W6_v31_2 (c : Dev nD) : W6 m ρ c (Proc.devRef .tc main_v31_2) = (dat1 (U5 m ρ) c).arrAt 5 cfg1.N := W6_arr m ρ c 5
theorem U7_v31_0 (c : Dev nD) : U7 m ρ c main_v31_0 = (dat1 (U5 m ρ) c).arrAt 3 cfg1.N :=
  (StableHlo.after_of_writes_sub hostOps2 _ hostOps2_writes (by decide)).trans (W6_v31_0 m ρ c)
set_option maxHeartbeats 4000000 in
theorem U7_v33 (c : Dev nD) : (U7 m ρ c main_v33 : S1x128.Idx → EReal)
    = Host.divf (F := Ideal) ((dat1 (U5 m ρ) c).arrAt 4 cfg1.N : S1x128.Idx → EReal) (broadcastInDim S1x128 ![] bcast_S_S1x128 (constant (F := Ideal) S_ .f32 0x47435000#32)) := by
  show StableHlo.after hostOps2 (W6 m ρ c) (Proc.devRef .tc main_v33) = _
  after_results
  rw [W6_v31_1]

set_option maxHeartbeats 4000000 in
theorem U7_v37 (c : Dev nD) : (U7 m ρ c main_v37 : S1x128.Idx → EReal)
    = subf (F := Ideal) (Host.divf (F := Ideal) ((dat1 (U5 m ρ) c).arrAt 5 cfg1.N : S1x128.Idx → EReal) (broadcastInDim S1x128 ![] bcast_S_S1x128 (constant (F := Ideal) S_ .f32 0x47435000#32)))
        (mulf (F := Ideal) (Host.divf (F := Ideal) ((dat1 (U5 m ρ) c).arrAt 4 cfg1.N : S1x128.Idx → EReal) (broadcastInDim S1x128 ![] bcast_S_S1x128 (constant (F := Ideal) S_ .f32 0x47435000#32)))
          (Host.divf (F := Ideal) ((dat1 (U5 m ρ) c).arrAt 4 cfg1.N : S1x128.Idx → EReal) (broadcastInDim S1x128 ![] bcast_S_S1x128 (constant (F := Ideal) S_ .f32 0x47435000#32)))) := by
  show StableHlo.after hostOps2 (W6 m ρ c) (Proc.devRef .tc main_v37) = _
  after_results
  rw [W6_v31_1, W6_v31_2]

set_option maxHeartbeats 4000000 in
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

set_option maxHeartbeats 4000000 in
theorem W5_v29 (c : Dev nD) : (W5 m ρ c (Proc.devRef .tc main_v29) : S1x128.Idx → EReal)
    = shapeCast S1x128 (m ((c : Thread nD τ).loc main_arg4) : S128.Idx → EReal) shapeCasts_S128_S1x128 := by
  show StableHlo.after hostOps1 (W4 m ρ c) (Proc.devRef .tc main_v29) = _
  after_results
  rw [W4_arg4]
  rfl
set_option maxHeartbeats 4000000 in
theorem W5_v30 (c : Dev nD) : (W5 m ρ c (Proc.devRef .tc main_v30) : S1x128.Idx → EReal)
    = shapeCast S1x128 (m ((c : Thread nD τ).loc main_arg5) : S128.Idx → EReal) shapeCasts_S128_S1x128 := by
  show StableHlo.after hostOps1 (W4 m ρ c) (Proc.devRef .tc main_v30) = _
  after_results
  rw [W4_arg5]
  rfl
theorem U7_v29 (c : Dev nD) : (U7 m ρ c main_v29 : S1x128.Idx → EReal)
    = shapeCast S1x128 (m ((c : Thread nD τ).loc main_arg4) : S128.Idx → EReal) shapeCasts_S128_S1x128 :=
  ((StableHlo.after_of_writes_sub hostOps2 _ hostOps2_writes (by decide)).trans (W6_of_ne m ρ c main_v29 (by decide))).trans (W5_v29 m ρ c)
theorem U7_v30 (c : Dev nD) : (U7 m ρ c main_v30 : S1x128.Idx → EReal)
    = shapeCast S1x128 (m ((c : Thread nD τ).loc main_arg5) : S128.Idx → EReal) shapeCasts_S128_S1x128 :=
  ((StableHlo.after_of_writes_sub hostOps2 _ hostOps2_writes (by decide)).trans (W6_of_ne m ρ c main_v30 (by decide))).trans (W5_v30 m ρ c)

/-- The result array at the end: the third region's output. -/
theorem W8_v38 (c : Dev nD) : W8 m ρ c (Proc.devRef .tc main_v38) = (dat2 (U7 m ρ) c).arrAt 5 cfg2.N := W8_arr m ρ c 5

end Cert.KernelIdeal.Val

end
-- ==== Proof.LibPlainDot.lean ====
/-
  Two general facts about finite sums, used to read a matrix product and a blocked sum index by index.

  A plain product of an `[M, K]` array with a `[K, N]` array — one contracted axis, no batch axis — read at the
  output position `(r, c)` is the sum over `k : Fin K` of the left operand at `(r, k)` times the right operand at
  `(k, c)`: the contraction index of such a product is its one coordinate. The four coordinate facts of the
  dimension numbers are hypotheses, so the statement applies to any record of this form.

  A sum over `N = A * B` positions is the sum over `A` consecutive blocks of the sums over the `B` positions of
  each block, in any commutative monoid: position `e` is `t * B + r` for exactly one block `t` and offset `r`.
-/
import Idealize.ShloMosaic.Lib.ValueIdx
import Idealize.ShloMosaic.PureOps.Ideal.Laws

noncomputable section

namespace Idealize.ShloMosaic.ValueIdx

/-- The sum over the one-axis contraction index of a plain `[M, K] × [K, N]` product, at output position `(r, c)`,
    is the sum over `k : Fin K` of `lhs (r, k) * rhs (k, c)`. -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (r : Fin M) (c : Fin N) :
    ∑ q : d.contr.Idx, lhs (d.lhsIdx (ix2 r c) q) * rhs (d.rhsIdx (ix2 r c) q)
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-- A sum over `N = A * B` positions is the sum over the `A` blocks of the sums over each block's `B` positions. -/
theorem sum_fin_blocks {M : Type*} [AddCommMonoid M] {N : ℕ} (A B : ℕ) (hN : N = A * B) (g : Fin N → M) :
    ∑ e : Fin N, g e
      = ∑ t : Fin A, ∑ r : Fin B, g ⟨t.val * B + r.val, by
          have h1 : t.val * B + r.val < t.val * B + B := Nat.add_lt_add_left r.isLt _
          have h3 : (t.val + 1) * B ≤ A * B := Nat.mul_le_mul_right B t.isLt
          rw [Nat.add_mul, Nat.one_mul] at h3
          rw [hN]; exact Nat.lt_of_lt_of_le h1 h3⟩ := by
  subst hN
  rw [← Equiv.sum_comp finProdFinEquiv g, Fintype.sum_prod_type]
  refine Finset.sum_congr rfl fun t _ => Finset.sum_congr rfl fun r _ => ?_
  refine congrArg g (Fin.ext ?_)
  show r.val + B * t.val = t.val * B + r.val
  rw [Nat.mul_comm, Nat.add_comm]

end Idealize.ShloMosaic.ValueIdx

end
-- ==== Proof.KI.Val0.lean ====
/-
  What region 0 leaves in its output array, at the exact instance: entry (r, f) is the sum over k of
  x (r, k) * wt (k, f), times d (r, 0) — x the [50000,128] first operand, wt the [128,128] second, d the [50000,1] column.
  Point t's block is rows 5000 t .. 5000 t + 4999; the ten blocks cover the array.
-/
import proofs.«149551_j31903017074707_2_alg».proof.Proof.KI.Region0
import proofs.«149551_j31903017074707_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

theorem hz2 : (![0, 0] : Fin 2 → Nat) = fun _ => 0 := funext fun a => by fin_cases a <;> rfl

/-- The scaled product, index by index. -/
def G0 (x : S50000x128.Idx → EReal) (wt : S128x128.Idx → EReal) (d : S50000x1.Idx → EReal) : S50000x128.Idx → EReal :=
  fun i => (∑ k : Fin 128, x (ix2 (⟨(i 0).val, idx2_lt0 i⟩ : Fin 50000) k) * wt (ix2 k (⟨(i 1).val, idx2_lt1 i⟩ : Fin 128)))
    * d (ix2 (⟨(i 0).val, idx2_lt0 i⟩ : Fin 50000) (0 : Fin 1))

theorem G0_at (x : S50000x128.Idx → EReal) (wt : S128x128.Idx → EReal) (d : S50000x1.Idx → EReal) (i : S50000x128.Idx)
    (r : Fin 50000) (f : Fin 128) (hr : (i 0).val = r.val) (hf : (i 1).val = f.val) :
    G0 x wt d i = (∑ k : Fin 128, x (ix2 r k) * wt (ix2 k f)) * d (ix2 r (0 : Fin 1)) := by
  unfold G0
  have e0 : (⟨(i 0).val, idx2_lt0 i⟩ : Fin 50000) = r := Fin.ext hr
  have e1 : (⟨(i 1).val, idx2_lt1 i⟩ : Fin 128) = f := Fin.ext hf
  rw [e0, e1]

/-! The matrix unit's operand indices at an output position. -/
theorem dot_l0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem dot_r0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem dot_r1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The column [5000,1] broadcast along each row, read at (p, q): the column's p-th entry. -/
theorem bcast_col_apply (y : FVec Ideal S5000x1 .f32) (p : Fin 5000) (q : Fin 128) :
    broadcastTo S5000x128 y broadcasts_S5000x1_S5000x128 (ix2 p q) = y (ix2 p (0 : Fin 1)) :=
  broadcastTo_apply y broadcasts_S5000x1_S5000x128 (ix2 p q) (ix2 p (0 : Fin 1)) (fun a => by
    match a with
    | ⟨0, _⟩ => rfl
    | ⟨1, _⟩ => rfl)

/-- The body's payload at (p, q): row p of the first block times column q of the second, scaled by the p-th entry of the third. -/
theorem pay0_apply (x0 : FVec Ideal S5000x128 .f32) (x1 : FVec Ideal S128x128 .f32) (x2 : FVec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ?_ ?_
  · refine (Ideal.matmul_constant_zero_apply dot_S5000x128_S128x128_S5000x128_1_0_0_1_n_n none _ _ (ix2 p q)).trans ?_
    refine (plain_dot_sum dot_S5000x128_S128x128_S5000x128_1_0_0_1_n_n rfl rfl dot_l0 dot_l1 dot_r0 dot_r1 _ _ p q).trans ?_
    refine Finset.sum_congr rfl fun k _ => ?_
    exact congrArg (x0 (ix2 p k) * ·) (congrFun (shapeCast_self x1 shapeCasts_S128x128_S128x128) (ix2 k q))
  · refine (bcast_col_apply _ p q).trans ?_
    exact congrFun (shapeCast_self x2 shapeCasts_S5000x1_S5000x1) (ix2 p (0 : Fin 1))

/-- The printed index maps over the grid: the row-blocked windows sit at block row t, the whole 128x128 operand at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first window's block at point t is rows 5000 t .. of the first operand. -/
theorem iblk0_0_apply (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The second window's block is the whole second operand. -/
theorem iblk0_1_apply (c : Dev nD) (t : Fin cfg0.N) (k : Fin 128) (q : Fin 128) :
    (iblk0 V c 1 t : Vec Ideal S128x128 .f32) (ix2 k q) = (V c main_v16 : S128x128.Idx → EReal) (ix2 k q) := by
  obtain ⟨-, -, e0, e1, -⟩ := idx_facts0 t
  unfold iblk0
  rw [View.read_apply]
  show V c main_v16 _ = V c main_v16 _
  congr 1
  funext a
  apply Fin.ext
  match a with
  | ⟨0, _⟩ => show win0_1.index t 0 * 128 + 1 * k.val = k.val; rw [e0]; omega
  | ⟨1, _⟩ => show win0_1.index t 1 * 128 + 1 * q.val = q.val; rw [e1]; omega

/-- The third window's block at point t is entries 5000 t .. of the column. -/
theorem iblk0_2_apply (c : Dev nD) (t : Fin cfg0.N) (p : Fin 5000) (r : Fin 50000) (hr : r.val = t.val * 5000 + p.val) :
    (iblk0 V c 2 t : Vec Ideal S5000x1 .f32) (ix2 p (0 : Fin 1)) = (V c main_v15 : S50000x1.Idx → EReal) (ix2 r (0 : Fin 1)) := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t 0 * 5000 + 1 * p.val = r.val; rw [e0, hr]; omega
  | ⟨1, _⟩ => show win0_2.index t 1 * 1 + 1 * 0 = 0; rw [e1]

/-- WHAT POINT t WRITES BACK is block t of G0 of the region-entry arrays. -/
theorem flushed0_eq (c : Dev nD) (t : Fin cfg0.N) :
    (dat0 V c).flushed 3 t = ((cfg0.win 3).blk t).view.read (Elt Ideal) (G0 (V c main_arg0) (V c main_v16) (V c main_v15)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S5000x1) hz2]
  obtain ⟨-, -, -, -, -, -, e0, e1⟩ := idx_facts0 t
  have hN : t.val < 10 := lt_of_lt_of_eq t.isLt N_0
  funext j
  obtain ⟨p, q, rfl⟩ : ∃ (p : Fin 5000) (q : Fin 128), j = ix2 p q := ⟨j 0, j 1, eq_ix2 j⟩
  have hrlt : t.val * 5000 + p.val < 50000 := by have := p.isLt; omega
  refine (pay0_apply _ _ _ p q).trans ?_
  rw [View.read_apply]
  rw [G0_at _ _ _ _ ⟨t.val * 5000 + p.val, hrlt⟩ q
    (by show win0_3.index t 0 * 5000 + 1 * p.val = t.val * 5000 + p.val; rw [e0]; omega)
    (by show win0_3.index t 1 * 128 + 1 * q.val = q.val; rw [e1]; omega)]
  rw [iblk0_2_apply V c t p ⟨t.val * 5000 + p.val, hrlt⟩ rfl]
  refine congrArg₂ (· * ·) (Finset.sum_congr rfl fun k _ => ?_) rfl
  rw [iblk0_0_apply V c t p k ⟨t.val * 5000 + p.val, hrlt⟩ rfl, iblk0_1_apply V c t k q]

/-- An index of the output array is in point t's block iff its row is among the block's 5000. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- THE ARRAY after the region: G0 of the region-entry arrays (the block of row r is point r / 5000's). -/
theorem final0 (c : Dev nD) : (dat0 V c).arrAt 3 cfg0.N = G0 (V c main_arg0) (V c main_v16) (V c main_v15) :=
  (dat0 V c).arrAt_eq_of_cover 3 _ (fun t _ => flushed0_eq V c t) fun i => by
    have hi0 : (i 0).val < 50000 := idx2_lt0 i
    have hi1 : (i 1).val < 128 := idx2_lt1 i
    have hN : cfg0.N = 10 := N_0
    refine ⟨⟨(i 0).val / 5000, by rw [hN]; omega⟩, flush0_3 _, ?_⟩
    rw [mem_blk0]
    obtain ⟨-, -, -, -, -, -, e0, e1⟩ := idx_facts0 ⟨(i 0).val / 5000, by rw [hN]; omega⟩
    intro a
    match a with
    | ⟨0, _⟩ => show win0_3.index _ (0 : Fin 2) * 5000 ≤ (i 0).val ∧ (i 0).val < win0_3.index _ (0 : Fin 2) * 5000 + 5000; rw [e0]; dsimp only; omega
    | ⟨1, _⟩ => show win0_3.index _ (1 : Fin 2) * 128 ≤ (i 1).val ∧ (i 1).val < win0_3.index _ (1 : Fin 2) * 128 + 128; rw [e1]; omega

end Cert.KernelIdeal.Val

end
-- ==== Proof.KI.Pieces1.lean ====
/-
  Region 1: what each case of the body leaves in each buffer, as the body's own arithmetic of the point's blocks and of
  what the scratch rows held. The block output is a = x * d + b whatever the case; the first scratch row becomes its
  column-sum update (from the zero row at the first point, from what it held otherwise), the second likewise with
  squares; at the last point the two row outputs take the scratch rows' new contents.
-/
import proofs.«149551_j31903017074707_2_alg».proof.Proof.Gen.KernelIdeal.Launch
import proofs.«149551_j31903017074707_2_alg».proof.Proof.Gen.KernelIdeal.Skeleton
import proofs.«149551_j31903017074707_2_alg».proof.Proof.Gen.KernelIdeal.Points
import proofs.«149551_j31903017074707_2_alg».proof.Proof.KI.Region1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzV : (![0, 0] : Fin 2 → Nat) = fun _ => 0 := funext fun a => by fin_cases a <;> rfl

theorem out1_A_3_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) :
    out1_A_3 c i arg1 harg1 arg2 harg2 arg3 harg3 arg4 harg4 arg5 harg5 arg6 harg6 arg7 harg7 arg8 harg8 hc0 hc1 x0 x1 x2 = k1_pay3 x0 x1 x2 := by
  unfold out1_A_3
  rw [View.read_writes_eq_canon _ _ _ (cover1_A_3 c i arg1 harg1 arg2 harg2 arg3 harg3 arg4 harg4 arg5 harg5 arg6 harg6 arg7 harg7 arg8 harg8 hc0 hc1 x0 x1 x2)]
  unfold kernelRun1_A
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_A_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) :
    sout1_A_0 c i arg1 harg1 arg2 harg2 arg3 harg3 arg4 harg4 arg5 harg5 arg6 harg6 arg7 harg7 arg8 harg8 hc0 hc1 x0 x1 x2 = k1_pay4 x0 x1 x2 (k1_pay1 (F := F)) := by
  unfold sout1_A_0
  rw [View.read_writes_eq_canon _ _ _ (scover1_A_0 c i arg1 harg1 arg2 harg2 arg3 harg3 arg4 harg4 arg5 harg5 arg6 harg6 arg7 harg7 arg8 harg8 hc0 hc1 x0 x1 x2)]
  unfold kernelRun1_A
  dsimp only
  try sl_unfold_words
  rw [View.canon_cons_unit_zero hzV, View.readCov_unit_zero (S := S1x128) _ hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_A_1_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond1_0 i) (hc1 : ¬cond1_1 i) (x0 : Vec F S5000x128 .f32) (x1 : Vec F S5000x1 .f32) (x2 : Vec F S1x128 .f32) :
    sout1_A_1 c i arg1 harg1 arg2 harg2 arg3 harg3 arg4 harg4 arg5 harg5 arg6 harg6 arg7 harg7 arg8 harg8 hc0 hc1 x0 x1 x2 = k1_pay5 x0 x1 x2 (k1_pay2 (F := F)) := by
  unfold sout1_A_1
  rw [View.read_writes_eq_canon _ _ _ (scover1_A_1 c i arg1 harg1 arg2 harg2 arg3 harg3 arg4 harg4 arg5 harg5 arg6 harg6 arg7 harg7 arg8 harg8 hc0 hc1 x0 x1 x2)]
  unfold kernelRun1_A
  dsimp only
  try sl_unfold_words
  rw [View.canon_cons_unit_zero hzV, View.readCov_unit_zero (S := S1x128) _ hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem out1_B_3_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) :
    out1_B_3 c i arg1 harg1 arg2 harg2 arg3 harg3 arg4 harg4 arg5 harg5 arg6 harg6 arg7 harg7 arg8 harg8 hc0 hc1 x0 x1 x2 xs0 xs1 = k1_pay3 x0 x1 x2 := by
  unfold out1_B_3
  rw [View.read_writes_eq_canon _ _ _ (cover1_B_3 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_B_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) :
    sout1_B_0 c i arg1 harg1 arg2 harg2 arg3 harg3 arg4 harg4 arg5 harg5 arg6 harg6 arg7 harg7 arg8 harg8 hc0 hc1 x0 x1 x2 xs0 xs1 = k1_pay4 x0 x1 x2 xs0 := by
  unfold sout1_B_0
  rw [View.read_writes_eq_canon _ _ _ (scover1_B_0 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_B_1_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : ¬cond1_1 i) (x0 : Vec F S5000x128 .f32) (x1 : Vec F S5000x1 .f32) (x2 : Vec F S1x128 .f32) (xs0 : Vec F S1x128 .f32) (xs1 : Vec F S1x128 .f32) :
    sout1_B_1 c i arg1 harg1 arg2 harg2 arg3 harg3 arg4 harg4 arg5 harg5 arg6 harg6 arg7 harg7 arg8 harg8 hc0 hc1 x0 x1 x2 xs0 xs1 = k1_pay5 x0 x1 x2 xs1 := by
  unfold sout1_B_1
  rw [View.read_writes_eq_canon _ _ _ (scover1_B_1 c i arg1 harg1 arg2 harg2 arg3 harg3 arg4 harg4 arg5 harg5 arg6 harg6 arg7 harg7 arg8 harg8 hc0 hc1 x0 x1 x2 xs0 xs1)]
  unfold kernelRun1_B
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem out1_C_3_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) :
    out1_C_3 c i arg1 harg1 arg2 harg2 arg3 harg3 arg4 harg4 arg5 harg5 arg6 harg6 arg7 harg7 arg8 harg8 hc0 hc1 x0 x1 x2 xs0 xs1 = k1_pay3 x0 x1 x2 := by
  unfold out1_C_3
  rw [View.read_writes_eq_canon _ _ _ (cover1_C_3 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_C_0_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) :
    sout1_C_0 c i arg1 harg1 arg2 harg2 arg3 harg3 arg4 harg4 arg5 harg5 arg6 harg6 arg7 harg7 arg8 harg8 hc0 hc1 x0 x1 x2 xs0 xs1 = k1_pay4 x0 x1 x2 xs0 := by
  unfold sout1_C_0
  rw [View.read_writes_eq_canon _ _ _ (scover1_C_0 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem sout1_C_1_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) :
    sout1_C_1 c i arg1 harg1 arg2 harg2 arg3 harg3 arg4 harg4 arg5 harg5 arg6 harg6 arg7 harg7 arg8 harg8 hc0 hc1 x0 x1 x2 xs0 xs1 = k1_pay5 x0 x1 x2 xs1 := by
  unfold sout1_C_1
  rw [View.read_writes_eq_canon _ _ _ (scover1_C_1 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  rw [View.canon_unit_zero hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem out1_C_4_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) :
    out1_C_4 c i arg1 harg1 arg2 harg2 arg3 harg3 arg4 harg4 arg5 harg5 arg6 harg6 arg7 harg7 arg8 harg8 hc0 hc1 x0 x1 x2 xs0 xs1 = k1_pay4 x0 x1 x2 xs0 := by
  unfold out1_C_4
  rw [View.read_writes_eq_canon _ _ _ (cover1_C_4 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  rw [View.canon_unit_zero hzV, View.readCov_unit_zero (S := S1x128) _ hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

theorem out1_C_5_eq (c : Dev nD) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (hc1 : cond1_1 i) (x0 : Vec F S5000x128 .f32) (x1 : Vec F S5000x1 .f32) (x2 : Vec F S1x128 .f32) (xs0 : Vec F S1x128 .f32) (xs1 : Vec F S1x128 .f32) :
    out1_C_5 c i arg1 harg1 arg2 harg2 arg3 harg3 arg4 harg4 arg5 harg5 arg6 harg6 arg7 harg7 arg8 harg8 hc0 hc1 x0 x1 x2 xs0 xs1 = k1_pay5 x0 x1 x2 xs1 := by
  unfold out1_C_5
  rw [View.read_writes_eq_canon _ _ _ (cover1_C_5 c i arg1 harg1 arg2 harg2 arg3 harg3 arg4 harg4 arg5 harg5 arg6 harg6 arg7 harg7 arg8 harg8 hc0 hc1 x0 x1 x2 xs0 xs1)]
  unfold kernelRun1_C
  dsimp only
  try sl_unfold_words
  rw [View.canon_unit_zero hzV, View.readCov_unit_zero (S := S1x128) _ hzV]
  simp only [View.readAt_eq_ld, harg1.read_unread, harg2.read_unread, harg3.read_unread, harg7.read_unread, harg8.read_unread,
    View.ld_unit_zero (S := S5000x128) hzV, View.ld_unit_zero (S := S5000x1) hzV, View.ld_unit_zero (S := S1x128) hzV]

end Cert.KernelIdeal.Hand

end
-- ==== Proof.KI.Pay1.lean ====
/-
  Region 1's body arithmetic at an index, at the exact instance. With x the point's 5000x128 block, d its 5000x1 column and
  b the 1x128 row: the stored block is a (p, q) = x (p, q) * d (p, 0) + b (0, q); the first scratch row becomes what it held
  plus the column sums of a; the second what it held plus the column sums of a * a; both start from the zero row.
-/
import proofs.«149551_j31903017074707_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Val

open Cert.KernelIdeal Cert.KernelIdeal.Gen

/-- The [5000,1] column broadcast along each row, read at (p, q). -/
theorem bcast_col1_apply (y : FVec Ideal S5000x1 .f32) (p : Fin 5000) (q : Fin 128) :
    broadcastTo S5000x128 y broadcasts_S5000x1_S5000x128 (ix2 p q) = y (ix2 p (0 : Fin 1)) :=
  broadcastTo_apply y broadcasts_S5000x1_S5000x128 (ix2 p q) (ix2 p (0 : Fin 1)) (fun a => by
    match a with
    | ⟨0, _⟩ => rfl
    | ⟨1, _⟩ => rfl)

/-- The [1,128] row broadcast down the rows, read at (p, q). -/
theorem bcast_row1_apply (y : FVec Ideal S1x128 .f32) (p : Fin 5000) (q : Fin 128) :
    broadcastTo S5000x128 y broadcasts_S1x128_S5000x128 (ix2 p q) = y (ix2 (0 : Fin 1) q) :=
  broadcastTo_apply y broadcasts_S1x128_S5000x128 (ix2 p q) (ix2 (0 : Fin 1) q) (fun a => by
    match a with
    | ⟨0, _⟩ => rfl
    | ⟨1, _⟩ => rfl)

/-- The stored block at (p, q). -/
theorem pay1_3_apply (v3 : FVec Ideal S5000x128 .f32) (v5 : FVec Ideal S5000x1 .f32) (v9 : FVec Ideal S1x128 .f32) (p : Fin 5000) (q : Fin 128) :
    k1_pay3 (F := Ideal) v3 v5 v9 (ix2 p q) = v3 (ix2 p q) * v5 (ix2 p (0 : Fin 1)) + v9 (ix2 (0 : Fin 1) q) := by
  unfold k1_pay3
  simp only [shapeCast_self]
  refine (addf_apply _ _ _).trans ?_
  refine congrArg₂ (· + ·) ?_ (bcast_row1_apply v9 p q)
  refine (mulf_apply _ _ _).trans ?_
  exact congrArg (v3 (ix2 p q) * ·) (bcast_col1_apply v5 p q)

/-- The column sums of a [5000,128] block, as a [1,128] row, at (0, q). -/
theorem colsum_apply (src : FVec Ideal S5000x128 .f32) (hφ : FKind.Formats .f32) (hacc : (0x00000000#32 : BitVec 32) = FKind.add.neutral .f32 hφ) (q : Fin 128) :
    shapeCast S1x128 (multiReduction .add [0] S128 src 0x00000000#32 reduces_S5000x128_S128 hφ hacc) shapeCasts_S128_S1x128 (ix2 (0 : Fin 1) q)
      = ∑ p : Fin 5000, src (ix2 p q) := by
  refine (shapeCast_a_1a_apply _ shapeCasts_S128_S1x128 (0 : Fin 1) q).trans ?_
  refine (Ideal.multiReduction_add_single src 0x00000000#32 reduces_S5000x128_S128 hφ hacc (ix1 q)).trans ?_
  refine Finset.sum_congr rfl fun p _ => ?_
  refine congrArg src ?_
  funext a
  refine Fin.ext ?_
  match a with
  | ⟨0, _⟩ => rfl
  | ⟨1, _⟩ => rfl

/-- The first scratch row after the body, at (0, q): what it held plus the column sum of the stored block. -/
theorem pay1_4_apply (v3 : FVec Ideal S5000x128 .f32) (v5 : FVec Ideal S5000x1 .f32) (v9 v14 : FVec Ideal S1x128 .f32) (q : Fin 128) :
    k1_pay4 (F := Ideal) v3 v5 v9 v14 (ix2 (0 : Fin 1) q) = v14 (ix2 (0 : Fin 1) q) + ∑ p : Fin 5000, k1_pay3 (F := Ideal) v3 v5 v9 (ix2 p q) := by
  unfold k1_pay4
  simp only [shapeCast_self]
  refine (addf_apply _ _ _).trans ?_
  exact congrArg (v14 (ix2 (0 : Fin 1) q) + ·) (colsum_apply _ _ _ q)

/-- The second scratch row after the body, at (0, q): what it held plus the column sum of the squares. -/
theorem pay1_5_apply (v3 : FVec Ideal S5000x128 .f32) (v5 : FVec Ideal S5000x1 .f32) (v9 v21 : FVec Ideal S1x128 .f32) (q : Fin 128) :
    k1_pay5 (F := Ideal) v3 v5 v9 v21 (ix2 (0 : Fin 1) q)
      = v21 (ix2 (0 : Fin 1) q) + ∑ p : Fin 5000, k1_pay3 (F := Ideal) v3 v5 v9 (ix2 p q) * k1_pay3 (F := Ideal) v3 v5 v9 (ix2 p q) := by
  unfold k1_pay5
  simp only [shapeCast_self]
  refine (addf_apply _ _ _).trans ?_
  refine congrArg (v21 (ix2 (0 : Fin 1) q) + ·) ?_
  refine (colsum_apply _ _ _ q).trans ?_
  rfl

/-- The zero rows the first point stores. -/
theorem pay1_1_apply (j : S1x128.Idx) : k1_pay1 (F := Ideal) j = Ideal.ofBits .f32 0x00000000#32 := by
  unfold k1_pay1
  simp only [shapeCast_self]
  rfl
theorem pay1_2_apply (j : S1x128.Idx) : k1_pay2 (F := Ideal) j = Ideal.ofBits .f32 0x00000000#32 := by
  unfold k1_pay2
  simp only [shapeCast_self]
  rfl

end Cert.KernelIdeal.Val

end
-- ==== Proof.Spec.lean ====
/-
  The mathematics the two programs differ by, over the extended reals, with no program in sight.
  (1) A reciprocal square root is one over the square root wherever the argument is positive, so the two guarded forms
      of the inverse square-root degree are one function.
  (2) A running sum over ten blocks of 5000 rows is the sum over the 50000 rows.
  (3) For finitely many real numbers the mean of the squared deviations from the mean is the mean of the squares less the
      square of the mean, and it is not negative: so clamping the second form at zero from below changes nothing.
  (4) A common factor moves out of a sum of real numbers.
-/
import Idealize.ShloMosaic.PureOps.Ideal
import Idealize.ShloMosaic.PureOps.Ideal.Laws

noncomputable section

namespace Cert.Spec

open Idealize.ShloMosaic

/-! ## The constants the programs spell -/

theorem ofBits_one : Ideal.ofBits .f32 0x3F800000#32 = ((1 : ℝ) : EReal) := by
  simp [Ideal.ofBits, Ideal.ieee, -EReal.coe_mul]; norm_num
theorem ofBits_50000 : Ideal.ofBits .f32 0x47435000#32 = ((50000 : ℝ) : EReal) := by
  simp [Ideal.ofBits, Ideal.ieee, -EReal.coe_mul]; norm_num

/-! ## Sums of coerced reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## (1) the inverse square root, guarded -/

/-- On a positive extended real the reciprocal square root is one over the square root. -/
theorem rsqrt_eq_one_div_sqrt (x : EReal) (hx : 0 < x) : Ideal.rsqrt x = Ideal.div ((1 : ℝ) : EReal) (Ideal.sqrt x) := by
  induction x using EReal.rec with
  | bot => exact absurd hx (by simp)
  | top =>
    show (0 : EReal) = Ideal.div ((1 : ℝ) : EReal) ⊤
    unfold Ideal.div
    rw [if_neg (by simp), EReal.inv_top, mul_zero]
  | coe r =>
    have hr : 0 < r := by exact_mod_cast hx
    have hs : Real.sqrt r ≠ 0 := (Real.sqrt_pos.mpr hr).ne'
    show Ideal.rsqrt (r : EReal) = Ideal.div ((1 : ℝ) : EReal) (Ideal.sqrt (r : EReal))
    rw [Ideal.rsqrt_coe, if_neg (not_lt.mpr hr.le), if_neg hr.ne']
    show _ = Ideal.div ((1 : ℝ) : EReal) (if r < 0 then ⊥ else ((Real.sqrt r : ℝ) : EReal))
    rw [if_neg (not_lt.mpr hr.le), Ideal.div_coe hs, ← EReal.coe_mul, one_mul, one_div]

/-- The two guarded forms agree: where the argument is positive by (the lemma above), elsewhere both are the fallback. -/
theorem guarded_rsqrt (x z o w : EReal) (hz : z = 0) (ho : o = ((1 : ℝ) : EReal)) :
    Scalar.select (Ideal.cmp .ogt x z) (Ideal.rsqrt x) w = Scalar.select (Ideal.cmp .ogt x z) (Ideal.div o (Ideal.sqrt x)) w := by
  subst hz; subst ho
  unfold Scalar.select Ideal.cmp
  by_cases h : (0 : EReal) < x
  · simp only [h, decide_true, BitVec.ofBool_true, if_true]
    exact rsqrt_eq_one_div_sqrt x h
  · simp only [h, decide_false, BitVec.ofBool_false]
    rfl

/-- A guarded inverse square root of a natural-number count is a real number. -/
theorem guarded_rsqrt_real (n : ℕ) (z w : EReal) (hz : z = 0) (hw : w = 0) :
    ∃ r : ℝ, Scalar.select (Ideal.cmp .ogt ((n : ℝ) : EReal) z) (Ideal.rsqrt ((n : ℝ) : EReal)) w = (r : EReal) := by
  subst hz; subst hw
  unfold Scalar.select Ideal.cmp
  by_cases h : (0 : EReal) < ((n : ℝ) : EReal)
  · simp only [h, decide_true, BitVec.ofBool_true, if_true]
    have hr : (0 : ℝ) < n := by exact_mod_cast h
    refine ⟨(Real.sqrt n)⁻¹, ?_⟩
    rw [Ideal.rsqrt_coe, if_neg (not_lt.mpr hr.le), if_neg hr.ne']
  · simp only [h, decide_false, BitVec.ofBool_false]
    exact ⟨0, rfl⟩

/-! ## (2) a running sum over blocks -/

/-- The running sum: start, plus the first block's sum, plus the second's, and so on. -/
def runSum (z : EReal) (s : ℕ → EReal) : ℕ → EReal
  | 0 => z + s 0
  | n + 1 => runSum z s n + s (n + 1)

theorem runSum_eq (z : EReal) (s : ℕ → EReal) (n : ℕ) : runSum z s n = z + ∑ t ∈ Finset.range (n + 1), s t := by
  induction n with
  | zero => simp [runSum]
  | succ n ih => rw [runSum, ih, Finset.sum_range_succ _ (n + 1), add_assoc]

/-! ## (3) the variance, two ways -/

theorem var_identity {N : ℕ} (a : Fin N → ℝ) (hN : (N : ℝ) ≠ 0) :
    (∑ r, (a r - (∑ r, a r) / N) * (a r - (∑ r, a r) / N)) / N
      = (∑ r, a r * a r) / N - ((∑ r, a r) / N) * ((∑ r, a r) / N) := by
  set μ := (∑ r, a r) / N with hμ
  have hs : ∑ r, a r = N * μ := by rw [hμ]; field_simp
  have h1 : ∑ r, (a r - μ) * (a r - μ) = ∑ r, a r * a r - 2 * μ * ∑ r, a r + N * (μ * μ) := by
    have : ∀ r, (a r - μ) * (a r - μ) = a r * a r - 2 * μ * a r + μ * μ := fun r => by ring
    simp only [this, Finset.sum_add_distrib, Finset.sum_sub_distrib, ← Finset.mul_sum, Finset.sum_const, Finset.card_univ,
      Fintype.card_fin, nsmul_eq_mul]
    ring
  rw [h1, hs]
  field_simp
  ring

theorem var_nonneg {N : ℕ} (a : Fin N → ℝ) (μ : ℝ) : 0 ≤ (∑ r, (a r - μ) * (a r - μ)) / N :=
  div_nonneg (Finset.sum_nonneg fun r _ => mul_self_nonneg _) (Nat.cast_nonneg N)

/-- THE BATCH STATISTICS, two ways, on real data: with the mean the sum over 50000 (an extended-real quotient by the word
    for 50000), the mean of the squares less the squared mean, clamped at zero from below, is the mean of the squared
    deviations. -/
theorem stats_agree {N : ℕ} (hN : (N : ℝ) ≠ 0) (a : Fin N → ℝ) (z cN : EReal) (hz : z = 0) (hc : cN = ((N : ℝ) : EReal)) :
    max (Ideal.div (z + ∑ r, ((a r : ℝ) : EReal) * (a r : EReal)) cN
          - Ideal.div (z + ∑ r, ((a r : ℝ) : EReal)) cN * Ideal.div (z + ∑ r, ((a r : ℝ) : EReal)) cN) z
      = Ideal.div (z + ∑ r, (((a r : ℝ) : EReal) - Ideal.div (z + ∑ r, ((a r : ℝ) : EReal)) cN)
          * (((a r : ℝ) : EReal) - Ideal.div (z + ∑ r, ((a r : ℝ) : EReal)) cN)) cN := by
  subst hz; subst hc
  have hmean : Ideal.div (0 + ∑ r, ((a r : ℝ) : EReal)) ((N : ℝ) : EReal) = (((∑ r, a r) / N : ℝ) : EReal) := by
    rw [zero_add, ← coe_sum, Ideal.div_coe hN, ← EReal.coe_mul, mul_one_div]
  have hsq : Ideal.div (0 + ∑ r, ((a r : ℝ) : EReal) * (a r : EReal)) ((N : ℝ) : EReal) = (((∑ r, a r * a r) / N : ℝ) : EReal) := by
    rw [zero_add]
    simp only [← EReal.coe_mul]
    rw [← coe_sum, Ideal.div_coe hN, ← EReal.coe_mul, mul_one_div]
  rw [hmean, hsq]
  have hdev : Ideal.div (0 + ∑ r, (((a r : ℝ) : EReal) - (((∑ r, a r) / N : ℝ) : EReal)) * (((a r : ℝ) : EReal) - (((∑ r, a r) / N : ℝ) : EReal))) ((N : ℝ) : EReal)
      = (((∑ r, (a r - (∑ r, a r) / N) * (a r - (∑ r, a r) / N)) / N : ℝ) : EReal) := by
    rw [zero_add]
    simp only [← EReal.coe_sub, ← EReal.coe_mul]
    rw [← coe_sum, Ideal.div_coe hN, ← EReal.coe_mul, mul_one_div]
  rw [hdev, ← EReal.coe_mul, ← EReal.coe_sub, var_identity a hN]
  rw [← var_identity a hN]
  exact max_eq_left (by exact_mod_cast var_nonneg a _)

/-! ## (4) a common real factor out of a sum -/

theorem sum_mul_real {ι : Type*} (s : Finset ι) (f : ι → ℝ) (d : ℝ) :
    ∑ j ∈ s, ((f j : ℝ) : EReal) * (d : EReal) = (∑ j ∈ s, ((f j : ℝ) : EReal)) * (d : EReal) := by
  simp only [← EReal.coe_mul]
  rw [← coe_sum, ← coe_sum, ← EReal.coe_mul, Finset.sum_mul]

end Cert.Spec

end
-- ==== Proof.KI.Val1.lean ====
/-
  What region 1 leaves in its three output arrays, at the exact instance. With x the [50000,128] first operand, d the
  [50000,1] column and b the [1,128] row as the region finds them, and a (r, f) = x (r, f) * d (r, 0) + b (0, f):
  the first output is a; the second, at (0, f), is zero plus the ten blocks' column sums of a in order, which is zero plus
  the sum of a (r, f) over the 50000 rows; the third is the same with a * a.
-/
import proofs.«149551_j31903017074707_2_alg».proof.Proof.KI.Pieces1
import proofs.«149551_j31903017074707_2_alg».proof.Proof.KI.Pay1
import proofs.«149551_j31903017074707_2_alg».proof.Proof.LibPlainDot
import proofs.«149551_j31903017074707_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The scaled operand plus the bias row, index by index. -/
def G1a (x : S50000x128.Idx → EReal) (d : S50000x1.Idx → EReal) (b : S1x128.Idx → EReal) : S50000x128.Idx → EReal :=
  fun i => x i * d (ix2 (⟨(i 0).val, idx2_lt0 i⟩ : Fin 50000) (0 : Fin 1)) + b (ix2 (0 : Fin 1) (⟨(i 1).val, idx2_lt1 i⟩ : Fin 128))

theorem G1a_ix (x : S50000x128.Idx → EReal) (d : S50000x1.Idx → EReal) (b : S1x128.Idx → EReal) (r : Fin 50000) (f : Fin 128) :
    G1a x d b (ix2 r f) = x (ix2 r f) * d (ix2 r (0 : Fin 1)) + b (ix2 (0 : Fin 1) f) := rfl

variable (V : (c : Dev nD) → (b : Ref sig .tc) → Buf (Elt Ideal) ((c : Thread nD τ).loc b))

theorem iblk1_0_apply (c : Dev nD) (t : Fin cfg1.N) (p : Fin 5000) (q : Fin 128) (r : Fin 50000) (hr : r.val = t.val * 5000 + p.val) :
    (iblk1 V c 0 t : Vec Ideal S5000x128 .f32) (ix2 p q) = (V c main_v27 : S50000x128.Idx → EReal) (ix2 r q) := by
  obtain ⟨e0, e1, -⟩ := idx_facts1 t
  unfold iblk1
  rw [View.read_apply]
  show V c main_v27 _ = V c main_v27 _
  congr 1
  funext a
  apply Fin.ext
  match a with
  | ⟨0, _⟩ => show win1_0.index t 0 * 5000 + 1 * p.val = r.val; rw [e0, hr]; omega
  | ⟨1, _⟩ => show win1_0.index t 1 * 128 + 1 * q.val = q.val; rw [e1]; omega

theorem iblk1_1_apply (c : Dev nD) (t : Fin cfg1.N) (p : Fin 5000) (r : Fin 50000) (hr : r.val = t.val * 5000 + p.val) :
    (iblk1 V c 1 t : Vec Ideal S5000x1 .f32) (ix2 p (0 : Fin 1)) = (V c main_v15 : S50000x1.Idx → EReal) (ix2 r (0 : Fin 1)) := by
  obtain ⟨-, -, e0, e1, -⟩ := idx_facts1 t
  unfold iblk1
  rw [View.read_apply]
  show V c main_v15 _ = V c main_v15 _
  congr 1
  funext a
  apply Fin.ext
  match a with
  | ⟨0, _⟩ => show win1_1.index t 0 * 5000 + 1 * p.val = r.val; rw [e0, hr]; omega
  | ⟨1, _⟩ => show win1_1.index t 1 * 1 + 1 * 0 = 0; rw [e1]

theorem iblk1_2_apply (c : Dev nD) (t : Fin cfg1.N) (q : Fin 128) :
    (iblk1 V c 2 t : Vec Ideal S1x128 .f32) (ix2 (0 : Fin 1) q) = (V c main_v28 : S1x128.Idx → EReal) (ix2 (0 : Fin 1) q) := by
  obtain ⟨-, -, -, -, e0, e1, -⟩ := idx_facts1 t
  unfold iblk1
  rw [View.read_apply]
  show V c main_v28 _ = V c main_v28 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- The body's stored block at point t, entry (p, q), is a at row 5000 t + p. -/
theorem blk_apply (c : Dev nD) (t : Fin cfg1.N) (p : Fin 5000) (q : Fin 128) (r : Fin 50000) (hr : r.val = t.val * 5000 + p.val) :
    k1_pay3 (F := Ideal) (iblk1 V c 0 t) (iblk1 V c 1 t) (iblk1 V c 2 t) (ix2 p q)
      = G1a (V c main_v27) (V c main_v15) (V c main_v28) (ix2 r q) := by
  refine (pay1_3_apply _ _ _ p q).trans ?_
  rw [iblk1_0_apply V c t p q r hr, iblk1_1_apply V c t p r hr, iblk1_2_apply V c t q, G1a_ix]

set_option maxHeartbeats 1000000 in
/-- The block output's staging buffer after every point: the body's stored block. -/
theorem out3_eq (c : Dev nD) (t : Fin cfg1.N) :
    (outsAt1 V c t.val t.isLt).1 = k1_pay3 (F := Ideal) (iblk1 V c 0 t) (iblk1 V c 1 t) (iblk1 V c 2 t) := by
  by_cases h0 : t.val = 0
  · rw [outsAt1_A V c t h0]
    dsimp only
    exact out1_A_3_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) _ _ (iblk1 V c 0 t) (iblk1 V c 1 t) (iblk1 V c 2 t)
  · by_cases h1 : t.val % 10 = 9
    · rw [outsAt1_C V c t h0 h1]
      dsimp only
      exact out1_C_3_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) _ _ (iblk1 V c 0 t) (iblk1 V c 1 t) (iblk1 V c 2 t) _ _
    · rw [outsAt1_B V c t h0 h1]
      dsimp only
      exact out1_B_3_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) _ _ (iblk1 V c 0 t) (iblk1 V c 1 t) (iblk1 V c 2 t) _ _

/-- WHAT POINT t WRITES BACK into the first output is block t of a. -/
theorem flushed1_3_eq (c : Dev nD) (t : Fin cfg1.N) :
    (dat1 V c).flushed 3 t = ((cfg1.win 3).blk t).view.read (Elt Ideal) (G1a (V c main_v27) (V c main_v15) (V c main_v28)) := by
  show (cfg1.win 3).cut (grid1.coords t) ((dat1 V c).after 3 t) = _
  rw [after1_3, out3_eq]
  obtain ⟨-, -, -, -, -, -, e0, e1, -⟩ := idx_facts1 t
  have hN : t.val < 10 := lt_of_lt_of_eq t.isLt N_1
  funext j
  obtain ⟨p, q, rfl⟩ : ∃ (p : Fin 5000) (q : Fin 128), j = ix2 p q := ⟨j 0, j 1, eq_ix2 j⟩
  have hrlt : t.val * 5000 + p.val < 50000 := by have := p.isLt; omega
  refine (blk_apply V c t p q ⟨t.val * 5000 + p.val, hrlt⟩ rfl).trans ?_
  rw [View.read_apply]
  refine congrArg (G1a (V c main_v27) (V c main_v15) (V c main_v28)) ?_
  funext a
  apply Fin.ext
  match a with
  | ⟨0, _⟩ => show t.val * 5000 + p.val = win1_3.index t 0 * 5000 + 1 * p.val; rw [e0]; omega
  | ⟨1, _⟩ => show q.val = win1_3.index t 1 * 128 + 1 * q.val; rw [e1]; omega

theorem mem_blk1_3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31_0).slice (win1_3.rect t)).set ↔ _
  rw [View.set_slice_whole, Rect.mem_set_unit]
  exact Iff.rfl

/-- THE FIRST OUTPUT after the region: a. -/
theorem final1_3 (c : Dev nD) : (dat1 V c).arrAt 3 cfg1.N = G1a (V c main_v27) (V c main_v15) (V c main_v28) :=
  (dat1 V c).arrAt_eq_of_cover 3 _ (fun t _ => flushed1_3_eq V c t) fun i => by
    have hi0 : (i 0).val < 50000 := idx2_lt0 i
    have hi1 : (i 1).val < 128 := idx2_lt1 i
    have hN : cfg1.N = 10 := N_1
    refine ⟨⟨(i 0).val / 5000, by rw [hN]; omega⟩, flush1_3 _, ?_⟩
    rw [mem_blk1_3]
    obtain ⟨-, -, -, -, -, -, e0, e1, -⟩ := idx_facts1 ⟨(i 0).val / 5000, by rw [hN]; omega⟩
    intro a
    match a with
    | ⟨0, _⟩ => show win1_3.index _ (0 : Fin 2) * 5000 ≤ (i 0).val ∧ (i 0).val < win1_3.index _ (0 : Fin 2) * 5000 + 5000; rw [e0]; dsimp only; omega
    | ⟨1, _⟩ => show win1_3.index _ (1 : Fin 2) * 128 ≤ (i 1).val ∧ (i 1).val < win1_3.index _ (1 : Fin 2) * 128 + 128; rw [e1]; omega

/-! ## The two running rows -/

/-- Point n's column sum of a, at column q (zero past the grid). -/
def bsum (c : Dev nD) (q : Fin 128) (n : ℕ) : EReal :=
  if h : n < cfg1.N then ∑ p : Fin 5000, k1_pay3 (F := Ideal) (iblk1 V c 0 ⟨n, h⟩) (iblk1 V c 1 ⟨n, h⟩) (iblk1 V c 2 ⟨n, h⟩) (ix2 p q) else 0
/-- Point n's column sum of a * a, at column q. -/
def bsq (c : Dev nD) (q : Fin 128) (n : ℕ) : EReal :=
  if h : n < cfg1.N then ∑ p : Fin 5000, k1_pay3 (F := Ideal) (iblk1 V c 0 ⟨n, h⟩) (iblk1 V c 1 ⟨n, h⟩) (iblk1 V c 2 ⟨n, h⟩) (ix2 p q)
    * k1_pay3 (F := Ideal) (iblk1 V c 0 ⟨n, h⟩) (iblk1 V c 1 ⟨n, h⟩) (iblk1 V c 2 ⟨n, h⟩) (ix2 p q) else 0

/-- The scratch rows after point n are the running sums from zero of the points' column sums. -/
theorem scratch_eq (c : Dev nD) (q : Fin 128) : ∀ (n : ℕ) (hn : n < cfg1.N),
    (outsAt1 V c n hn).2.2.2.1 (ix2 (0 : Fin 1) q) = Cert.Spec.runSum (Ideal.ofBits .f32 0x00000000#32) (bsum V c q) n
    ∧ (outsAt1 V c n hn).2.2.2.2 (ix2 (0 : Fin 1) q) = Cert.Spec.runSum (Ideal.ofBits .f32 0x00000000#32) (bsq V c q) n
  | 0, hn => by
    rw [outsAt1_zero]
    dsimp only
    rw [sout1_A_0_eq, sout1_A_1_eq]
    constructor
    · refine (pay1_4_apply _ _ _ _ q).trans ?_
      rw [pay1_1_apply]
      rw [Cert.Spec.runSum]; unfold bsum
      rw [dif_pos hn]
    · refine (pay1_5_apply _ _ _ _ q).trans ?_
      rw [pay1_2_apply]
      rw [Cert.Spec.runSum]; unfold bsq
      rw [dif_pos hn]
  | n + 1, hn => by
    obtain ⟨ih0, ih1⟩ := scratch_eq c q n (Nat.lt_of_succ_lt hn)
    by_cases h1 : (n + 1) % 10 = 9
    · rw [outsAt1_succ_C V c n hn h1]
      dsimp only
      rw [sout1_C_0_eq, sout1_C_1_eq]
      constructor
      · refine (pay1_4_apply _ _ _ _ q).trans ?_
        rw [ih0]
        rw [Cert.Spec.runSum]
        rw [show bsum V c q (n + 1) = _ from dif_pos hn]
      · refine (pay1_5_apply _ _ _ _ q).trans ?_
        rw [ih1]
        rw [Cert.Spec.runSum]
        rw [show bsq V c q (n + 1) = _ from dif_pos hn]
    · rw [outsAt1_succ_B V c n hn h1]
      dsimp only
      rw [sout1_B_0_eq, sout1_B_1_eq]
      constructor
      · refine (pay1_4_apply _ _ _ _ q).trans ?_
        rw [ih0]
        rw [Cert.Spec.runSum]
        rw [show bsum V c q (n + 1) = _ from dif_pos hn]
      · refine (pay1_5_apply _ _ _ _ q).trans ?_
        rw [ih1]
        rw [Cert.Spec.runSum]
        rw [show bsq V c q (n + 1) = _ from dif_pos hn]

/-- At the last point the two row outputs take the scratch rows' new contents. -/
theorem out45_eq (c : Dev nD) (t : Fin cfg1.N) (h0 : ¬t.val = 0) (h1 : t.val % 10 = 9) :
    (outsAt1 V c t.val t.isLt).2.1 = (outsAt1 V c t.val t.isLt).2.2.2.1 ∧ (outsAt1 V c t.val t.isLt).2.2.1 = (outsAt1 V c t.val t.isLt).2.2.2.2 := by
  rw [outsAt1_C V c t h0 h1]
  dsimp only
  rw [out1_C_4_eq, out1_C_5_eq, sout1_C_0_eq, sout1_C_1_eq]
  exact ⟨rfl, rfl⟩

/-- The one write-back of output 4, at the last point, writes the staging buffer's contents there. -/
theorem flushed1_4_eq (c : Dev nD) (t : Fin cfg1.N) (hf : (cfg1.win 4).flush t = true) :
    (dat1 V c).flushed 4 t = ((cfg1.win 4).blk t).view.read (Elt Ideal) ((outsAt1 V c t1_9.val t1_9.isLt).2.1) := by
  have hN : cfg1.N = 10 := N_1
  have h1 : t.val = 9 := by have := (flush1_4 t).mp hf; have := t.isLt; omega
  obtain rfl : t = t1_9 := Fin.ext h1
  show (cfg1.win 4).cut (grid1.coords t1_9) ((dat1 V c).after 4 t1_9) = _
  rw [after1_4]
  have hz' : (fun a => win1_4.index t1_9 a * main_v31_1.ty.shape.size a) = fun _ => 0 := funext fun a => by fin_cases a <;> decide
  exact (Memref.read_access_unit_zero (Elt Ideal) main_v31_1 hz' (fun a => by rw [congrFun hz' a]; simp) _).symm

/-- So output 4's array ends holding what its staging buffer held after the last point. -/
theorem final1_4 (c : Dev nD) : (dat1 V c).arrAt 4 cfg1.N = (outsAt1 V c t1_9.val t1_9.isLt).2.1 :=
  (dat1 V c).arrAt_eq_of_cover 4 _ (flushed1_4_eq V c) fun i =>
    ⟨t1_9, (flush1_4 t1_9).mpr rfl, by
      show i ∈ ((View.whole main_v31_1).slice (win1_4.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 1 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 128 from by decide +kernel]; omega⟩

/-- Output 4 at (0, q): zero plus the sum over the 50000 rows of a (r, q). -/
theorem S4_apply (c : Dev nD) (q : Fin 128) :
    ((dat1 V c).arrAt 4 cfg1.N : S1x128.Idx → EReal) (ix2 (0 : Fin 1) q)
      = Ideal.ofBits .f32 0x00000000#32 + ∑ r : Fin 50000, G1a (V c main_v27) (V c main_v15) (V c main_v28) (ix2 r q) := by
  rw [final1_4]
  rw [(out45_eq V c t1_9 (by decide) (by decide)).1]
  rw [(scratch_eq V c q t1_9.val t1_9.isLt).1, Cert.Spec.runSum_eq, show t1_9.val + 1 = 10 from rfl]
  refine congrArg (Ideal.ofBits .f32 0x00000000#32 + ·) ?_
  rw [Finset.sum_range, sum_fin_blocks 10 5000 rfl (fun r : Fin 50000 => G1a (V c main_v27) (V c main_v15) (V c main_v28) (ix2 r q))]
  refine Finset.sum_congr rfl fun t _ => ?_
  have ht : t.val < cfg1.N := by rw [show cfg1.N = 10 from N_1]; exact t.isLt
  unfold bsum
  rw [dif_pos ht]
  refine Finset.sum_congr rfl fun p _ => ?_
  have hb := blk_apply V c ⟨t.val, ht⟩ p q ⟨t.val * 5000 + p.val, by have := t.isLt; have := p.isLt; omega⟩ rfl
  exact hb

/-- The one write-back of output 5, at the last point, writes the staging buffer's contents there. -/
theorem flushed1_5_eq (c : Dev nD) (t : Fin cfg1.N) (hf : (cfg1.win 5).flush t = true) :
    (dat1 V c).flushed 5 t = ((cfg1.win 5).blk t).view.read (Elt Ideal) ((outsAt1 V c t1_9.val t1_9.isLt).2.2.1) := by
  have hN : cfg1.N = 10 := N_1
  have h1 : t.val = 9 := by have := (flush1_5 t).mp hf; have := t.isLt; omega
  obtain rfl : t = t1_9 := Fin.ext h1
  show (cfg1.win 5).cut (grid1.coords t1_9) ((dat1 V c).after 5 t1_9) = _
  rw [after1_5]
  have hz' : (fun a => win1_5.index t1_9 a * main_v31_2.ty.shape.size a) = fun _ => 0 := funext fun a => by fin_cases a <;> decide
  exact (Memref.read_access_unit_zero (Elt Ideal) main_v31_2 hz' (fun a => by rw [congrFun hz' a]; simp) _).symm

/-- So output 5's array ends holding what its staging buffer held after the last point. -/
theorem final1_5 (c : Dev nD) : (dat1 V c).arrAt 5 cfg1.N = (outsAt1 V c t1_9.val t1_9.isLt).2.2.1 :=
  (dat1 V c).arrAt_eq_of_cover 5 _ (flushed1_5_eq V c) fun i =>
    ⟨t1_9, (flush1_5 t1_9).mpr rfl, by
      show i ∈ ((View.whole main_v31_2).slice (win1_5.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_5.index t1_9 0 * win1_5.size 0 ≤ (i 0 : Nat) ∧ (i 0 : Nat) < win1_5.index t1_9 0 * win1_5.size 0 + win1_5.xsize (grid1.coords t1_9) 0
                  rw [show win1_5.index t1_9 0 * win1_5.size 0 = 0 from by decide +kernel, show win1_5.xsize (grid1.coords t1_9) 0 = 1 from by decide +kernel]; omega
      | ⟨1, _⟩ => show win1_5.index t1_9 1 * win1_5.size 1 ≤ (i 1 : Nat) ∧ (i 1 : Nat) < win1_5.index t1_9 1 * win1_5.size 1 + win1_5.xsize (grid1.coords t1_9) 1
                  rw [show win1_5.index t1_9 1 * win1_5.size 1 = 0 from by decide +kernel, show win1_5.xsize (grid1.coords t1_9) 1 = 128 from by decide +kernel]; omega⟩

/-- Output 5 at (0, q): zero plus the sum over the 50000 rows of a (r, q) * a (r, q). -/
theorem S5_apply (c : Dev nD) (q : Fin 128) :
    ((dat1 V c).arrAt 5 cfg1.N : S1x128.Idx → EReal) (ix2 (0 : Fin 1) q)
      = Ideal.ofBits .f32 0x00000000#32 + ∑ r : Fin 50000, G1a (V c main_v27) (V c main_v15) (V c main_v28) (ix2 r q) * G1a (V c main_v27) (V c main_v15) (V c main_v28) (ix2 r q) := by
  rw [final1_5]
  rw [(out45_eq V c t1_9 (by decide) (by decide)).2]
  rw [(scratch_eq V c q t1_9.val t1_9.isLt).2, Cert.Spec.runSum_eq, show t1_9.val + 1 = 10 from rfl]
  refine congrArg (Ideal.ofBits .f32 0x00000000#32 + ·) ?_
  rw [Finset.sum_range, sum_fin_blocks 10 5000 rfl (fun r : Fin 50000 => G1a (V c main_v27) (V c main_v15) (V c main_v28) (ix2 r q) * G1a (V c main_v27) (V c main_v15) (V c main_v28) (ix2 r q))]
  refine Finset.sum_congr rfl fun t _ => ?_
  have ht : t.val < cfg1.N := by rw [show cfg1.N = 10 from N_1]; exact t.isLt
  unfold bsq
  rw [dif_pos ht]
  refine Finset.sum_congr rfl fun p _ => ?_
  have hb := blk_apply V c ⟨t.val, ht⟩ p q ⟨t.val * 5000 + p.val, by have := t.isLt; have := p.isLt; omega⟩ rfl
  rw [hb]

end Cert.KernelIdeal.Val

end
-- ==== Proof.KI.Val2.lean ====
/-
  What region 2 leaves in its output array, at the exact instance: entry (r, f) is
  max (((a (r, f) - mean (0, f)) * rsqrt (max (var (0, f)) 0 + eps)) * scale (0, f) + shift (0, f)) 0,
  a the [50000,128] first operand and the other four the [1,128] rows. Point t's block is rows 5000 t .. 5000 t + 4999;
  the ten blocks cover the array.
-/
import proofs.«149551_j31903017074707_2_alg».proof.Proof.KI.Region2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

theorem hz2' : (![0, 0] : Fin 2 → Nat) = fun _ => 0 := funext fun a => by fin_cases a <;> rfl

/-- The normalised, rectified array, index by index. -/
def G2 (a : S50000x128.Idx → EReal) (mean var scale shift : S1x128.Idx → EReal) : S50000x128.Idx → EReal :=
  fun i => max (((a i - mean (ix2 (0 : Fin 1) (⟨(i 1).val, idx2_lt1 i⟩ : Fin 128)))
      * Ideal.rsqrt (max (var (ix2 (0 : Fin 1) (⟨(i 1).val, idx2_lt1 i⟩ : Fin 128))) (Ideal.ofBits .f32 0x00000000#32) + Ideal.ofBits .f32 0x3727C5AC#32))
      * scale (ix2 (0 : Fin 1) (⟨(i 1).val, idx2_lt1 i⟩ : Fin 128)) + shift (ix2 (0 : Fin 1) (⟨(i 1).val, idx2_lt1 i⟩ : Fin 128)))
    (Ideal.ofBits .f32 0x00000000#32)

theorem G2_at (a : S50000x128.Idx → EReal) (mean var scale shift : S1x128.Idx → EReal) (i : S50000x128.Idx)
    (f : Fin 128) (hf : (i 1).val = f.val) :
    G2 a mean var scale shift i = max (((a i - mean (ix2 (0 : Fin 1) f))
      * Ideal.rsqrt (max (var (ix2 (0 : Fin 1) f)) (Ideal.ofBits .f32 0x00000000#32) + Ideal.ofBits .f32 0x3727C5AC#32))
      * scale (ix2 (0 : Fin 1) f) + shift (ix2 (0 : Fin 1) f)) (Ideal.ofBits .f32 0x00000000#32) := by
  unfold G2
  have e1 : (⟨(i 1).val, idx2_lt1 i⟩ : Fin 128) = f := Fin.ext hf
  rw [e1]

/-- A [1,128] row broadcast down the 5000 rows, read at (p, q): the row's q-th entry. -/
theorem bcast_row_apply (y : FVec Ideal S1x128 .f32) (p : Fin 5000) (q : Fin 128) :
    broadcastTo S5000x128 y broadcasts_S1x128_S5000x128 (ix2 p q) = y (ix2 (0 : Fin 1) q) :=
  broadcastTo_apply y broadcasts_S1x128_S5000x128 (ix2 p q) (ix2 (0 : Fin 1) q) (fun a => by
    match a with
    | ⟨0, _⟩ => rfl
    | ⟨1, _⟩ => rfl)

/-- The body's payload at (p, q). -/
theorem pay2_apply (v0 : FVec Ideal S5000x128 .f32) (v2 v9 v15 v19 : FVec Ideal S1x128 .f32) (p : Fin 5000) (q : Fin 128) :
    k2_pay1 (F := Ideal) v0 v2 v9 v15 v19 (ix2 p q)
      = max (((v0 (ix2 p q) - v9 (ix2 (0 : Fin 1) q))
          * Ideal.rsqrt (max (v2 (ix2 (0 : Fin 1) q)) (Ideal.ofBits .f32 0x00000000#32) + Ideal.ofBits .f32 0x3727C5AC#32))
          * v15 (ix2 (0 : Fin 1) q) + v19 (ix2 (0 : Fin 1) q)) (Ideal.ofBits .f32 0x00000000#32) := by
  unfold k2_pay1
  simp only [shapeCast_self]
  refine (maximumf_apply _ _ _).trans ?_
  refine congrArg₂ max ?_ rfl
  refine (addf_apply _ _ _).trans ?_
  refine congrArg₂ (· + ·) ?_ (bcast_row_apply v19 p q)
  refine (mulf_apply _ _ _).trans ?_
  refine congrArg₂ (· * ·) ?_ (bcast_row_apply v15 p q)
  refine (mulf_apply _ _ _).trans ?_
  refine congrArg₂ (· * ·) ?_ ?_
  · refine (subf_apply _ _ _).trans ?_
    exact congrArg (v0 (ix2 p q) - ·) (bcast_row_apply v9 p q)
  · refine (bcast_row_apply _ p q).trans ?_
    rfl

/-- The printed index maps over the grid: the row-blocked windows sit at block row t, the four rows at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The first window's block at point t is rows 5000 t .. of the first operand. -/
theorem iblk2_0_apply (c : Dev nD) (t : Fin cfg2.N) (p : Fin 5000) (q : Fin 128) (r : Fin 50000) (hr : r.val = t.val * 5000 + p.val) :
    (iblk2 V c 0 t : Vec Ideal S5000x128 .f32) (ix2 p q) = (V c main_v31_0 : S50000x128.Idx → EReal) (ix2 r q) := by
  obtain ⟨e0, e1, -⟩ := idx_facts2 t
  unfold iblk2
  rw [View.read_apply]
  show V c main_v31_0 _ = V c main_v31_0 _
  congr 1
  funext a
  apply Fin.ext
  match a with
  | ⟨0, _⟩ => show win2_0.index t 0 * 5000 + 1 * p.val = r.val; rw [e0, hr]; omega
  | ⟨1, _⟩ => show win2_0.index t 1 * 128 + 1 * q.val = q.val; rw [e1]; omega

/-- Window 1's block is the whole [1,128] row. -/
theorem iblk2_1_apply (c : Dev nD) (t : Fin cfg2.N) (q : Fin 128) :
    (iblk2 V c 1 t : Vec Ideal S1x128 .f32) (ix2 (0 : Fin 1) q) = (V c main_v33 : S1x128.Idx → EReal) (ix2 (0 : Fin 1) q) := by
  obtain ⟨-, -, ea, eb, -⟩ := idx_facts2 t
  unfold iblk2
  rw [View.read_apply]
  show V c main_v33 _ = V c main_v33 _
  congr 1
  funext a
  apply Fin.ext
  match a with
  | ⟨0, _⟩ => show win2_1.index t 0 * 1 + 1 * 0 = 0; rw [ea]
  | ⟨1, _⟩ => show win2_1.index t 1 * 128 + 1 * q.val = q.val; rw [eb]; omega

/-- Window 2's block is the whole [1,128] row. -/
theorem iblk2_2_apply (c : Dev nD) (t : Fin cfg2.N) (q : Fin 128) :
    (iblk2 V c 2 t : Vec Ideal S1x128 .f32) (ix2 (0 : Fin 1) q) = (V c main_v37 : S1x128.Idx → EReal) (ix2 (0 : Fin 1) q) := by
  obtain ⟨-, -, -, -, ea, eb, -⟩ := idx_facts2 t
  unfold iblk2
  rw [View.read_apply]
  show V c main_v37 _ = V c main_v37 _
  congr 1
  funext a
  apply Fin.ext
  match a with
  | ⟨0, _⟩ => show win2_2.index t 0 * 1 + 1 * 0 = 0; rw [ea]
  | ⟨1, _⟩ => show win2_2.index t 1 * 128 + 1 * q.val = q.val; rw [eb]; omega

/-- Window 3's block is the whole [1,128] row. -/
theorem iblk2_3_apply (c : Dev nD) (t : Fin cfg2.N) (q : Fin 128) :
    (iblk2 V c 3 t : Vec Ideal S1x128 .f32) (ix2 (0 : Fin 1) q) = (V c main_v29 : S1x128.Idx → EReal) (ix2 (0 : Fin 1) q) := by
  obtain ⟨-, -, -, -, -, -, ea, eb, -⟩ := idx_facts2 t
  unfold iblk2
  rw [View.read_apply]
  show V c main_v29 _ = V c main_v29 _
  congr 1
  funext a
  apply Fin.ext
  match a with
  | ⟨0, _⟩ => show win2_3.index t 0 * 1 + 1 * 0 = 0; rw [ea]
  | ⟨1, _⟩ => show win2_3.index t 1 * 128 + 1 * q.val = q.val; rw [eb]; omega

/-- Window 4's block is the whole [1,128] row. -/
theorem iblk2_4_apply (c : Dev nD) (t : Fin cfg2.N) (q : Fin 128) :
    (iblk2 V c 4 t : Vec Ideal S1x128 .f32) (ix2 (0 : Fin 1) q) = (V c main_v30 : S1x128.Idx → EReal) (ix2 (0 : Fin 1) q) := by
  obtain ⟨-, -, -, -, -, -, -, -, ea, eb, -⟩ := idx_facts2 t
  unfold iblk2
  rw [View.read_apply]
  show V c main_v30 _ = V c main_v30 _
  congr 1
  funext a
  apply Fin.ext
  match a with
  | ⟨0, _⟩ => show win2_4.index t 0 * 1 + 1 * 0 = 0; rw [ea]
  | ⟨1, _⟩ => show win2_4.index t 1 * 128 + 1 * q.val = q.val; rw [eb]; omega

/-- WHAT POINT t WRITES BACK is block t of G2 of the region-entry arrays. -/
theorem flushed2_eq (c : Dev nD) (t : Fin cfg2.N) :
    (dat2 V c).flushed 5 t = ((cfg2.win 5).blk t).view.read (Elt Ideal) (G2 (V c main_v31_0) (V c main_v33) (V c main_v37) (V c main_v29) (V c main_v30)) := by
  show (cfg2.win 5).cut (grid2.coords t) ((dat2 V c).after 5 t) = _
  rw [after2_5]
  unfold out2_5
  rw [View.canon_unit_zero hz2']
  simp only [View.ld_unit_zero (S := S5000x128) hz2', View.ld_unit_zero (S := S1x128) hz2']
  obtain ⟨-, -, -, -, -, -, -, -, -, -, e0, e1⟩ := idx_facts2 t
  have hN : t.val < 10 := lt_of_lt_of_eq t.isLt N_2
  funext j
  obtain ⟨p, q, rfl⟩ : ∃ (p : Fin 5000) (q : Fin 128), j = ix2 p q := ⟨j 0, j 1, eq_ix2 j⟩
  have hrlt : t.val * 5000 + p.val < 50000 := by have := p.isLt; omega
  refine (pay2_apply _ _ _ _ _ p q).trans ?_
  rw [View.read_apply]
  rw [G2_at _ _ _ _ _ _ q (by show win2_5.index t 1 * 128 + 1 * q.val = q.val; rw [e1]; omega)]
  rw [iblk2_0_apply V c t p q ⟨t.val * 5000 + p.val, hrlt⟩ rfl, iblk2_1_apply V c t q, iblk2_2_apply V c t q, iblk2_3_apply V c t q, iblk2_4_apply V c t q]
  refine congrArg₂ max (congrArg₂ (· + ·) (congrArg₂ (· * ·) (congrArg₂ (· * ·) (congrArg₂ (· - ·) (congrArg (V c main_v31_0) ?_) rfl) rfl) rfl) rfl) rfl
  funext a
  apply Fin.ext
  match a with
  | ⟨0, _⟩ => show t.val * 5000 + p.val = win2_5.index t 0 * 5000 + 1 * p.val; rw [e0]; omega
  | ⟨1, _⟩ => show q.val = win2_5.index t 1 * 128 + 1 * q.val; rw [e1]; omega

/-- An index of the output array is in point t's block iff its row is among the block's 5000. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v38).slice (win2_5.rect t)).set ↔ _
  rw [View.set_slice_whole, Rect.mem_set_unit]
  exact Iff.rfl

/-- THE ARRAY after the region: G2 of the region-entry arrays. -/
theorem final2 (c : Dev nD) : (dat2 V c).arrAt 5 cfg2.N = G2 (V c main_v31_0) (V c main_v33) (V c main_v37) (V c main_v29) (V c main_v30) :=
  (dat2 V c).arrAt_eq_of_cover 5 _ (fun t _ => flushed2_eq V c t) fun i => by
    have hi0 : (i 0).val < 50000 := idx2_lt0 i
    have hi1 : (i 1).val < 128 := idx2_lt1 i
    have hN : cfg2.N = 10 := N_2
    refine ⟨⟨(i 0).val / 5000, by rw [hN]; omega⟩, flush2_5 _, ?_⟩
    rw [mem_blk2]
    obtain ⟨-, -, -, -, -, -, -, -, -, -, e0, e1⟩ := idx_facts2 ⟨(i 0).val / 5000, by rw [hN]; omega⟩
    intro a
    match a with
    | ⟨0, _⟩ => show win2_5.index _ (0 : Fin 2) * 5000 ≤ (i 0).val ∧ (i 0).val < win2_5.index _ (0 : Fin 2) * 5000 + 5000; rw [e0]; dsimp only; omega
    | ⟨1, _⟩ => show win2_5.index _ (1 : Fin 2) * 128 ≤ (i 1).val ∧ (i 1).val < win2_5.index _ (1 : Fin 2) * 128 + 128; rw [e1]; omega

end Cert.KernelIdeal.Val

end
-- ==== Proof.LibColumnCast.lean ====
/-
  Two small general facts.

  A vector of `a` entries reshaped into a column `[a, 1]` reads, at `(i, u)`, the vector at `i`: both row-major
  positions are `i`. And a sum over `m + n` positions is the sum over the first `m` plus the sum over the last `n`, in
  any commutative monoid; it is stated over an index type `Fin N` with `N = m + n` given as an equation, so that it
  applies to a literal extent.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over `N = m + n` positions splits into the first `m` and the last `n`. -/
theorem sum_fin_split {M : Type*} [AddCommMonoid M] {N : ℕ} (m n : ℕ) (hN : N = m + n) (g : Fin N → M) :
    ∑ k : Fin N, g k
      = ∑ k : Fin m, g ⟨k.val, by have := k.isLt; omega⟩ + ∑ k : Fin n, g ⟨m + k.val, by have := k.isLt; omega⟩ := by
  subst hN
  rw [Fin.sum_univ_add]
  rfl

end Idealize.ShloMosaic.ValueIdx

end
-- ==== Proof.KI.Idx.lean ====
/-
  The index-dependent host operations of this program read at an index.
  A gather along axis 0 by a column of start indices reads its operand at the start index, taken signed and clamped into
  [0, 49999]; a scatter-add along axis 0 lands update row e at row (start index of e), taken signed and NOT clamped, and
  drops it when that is outside [0, 49999]. So an update that lands at row r has start index exactly r.
-/
import proofs.«149551_j31903017074707_2_alg».proof.KernelIdeal
import proofs.«149551_j31903017074707_2_alg».proof.Proof.Gen.KernelIdeal
import Idealize.ShloMosaic.Lib.Pipeline.Value
import Idealize.ShloMosaic.Lib.ValueIdx

noncomputable section

open Idealize.ShloMosaic Idealize.ShloMosaic.ValueIdx

namespace Cert.KernelIdeal.Val

open Cert.KernelIdeal Cert.KernelIdeal.Gen

variable {α : Type}

/-- The start-indices index (e, 0) of row e. -/
abbrev colIdx (e : Fin 850000) : S850000x1.Idx := ix2 e (0 : Fin 1)

/-- The gather of rows of a [50000,128] operand by a [850000,1] column of start indices, at (e, f). -/
theorem gather2_apply {w : Nat} (x : S50000x128.Idx → α) (idx : IVec S850000x1 w) (e : Fin 850000) (f : Fin 128) :
    Host.gather gather_S50000x128_S850000x1_S850000x128_1_0_n_n_0_1_1128 x idx (ix2 e f)
      = x (ix2 (⟨min (idx (colIdx e)).toInt.toNat (50000 - 1), by omega⟩ : Fin 50000) f) := by
  unfold Host.gather
  congr 1
  funext a
  refine Fin.ext ?_
  show gather_S50000x128_S850000x1_S850000x128_1_0_n_n_0_1_1128.start (ix2 e f) idx a + gather_S50000x128_S850000x1_S850000x128_1_0_n_n_0_1_1128.batchCoord (ix2 e f) a + gather_S50000x128_S850000x1_S850000x128_1_0_n_n_0_1_1128.offCoord (ix2 e f) a = _
  rw [GatherDims.batchCoord_eq_zero _ _ _ (show a ∉ gather_S50000x128_S850000x1_S850000x128_1_0_n_n_0_1_1128.operandBatchingDims from List.not_mem_nil)]
  simp only [Nat.add_zero]
  have ha : a = 0 ∨ a = 1 := by
    rcases a with ⟨_ | _ | n, hn⟩
    · left; rfl
    · right; rfl
    · exact absurd hn (by show ¬ n + 2 < 2; omega)
  rcases ha with rfl | rfl
  · rw [GatherDims.offCoord_eq_zero _ _ _ (fun h => ((GatherDims.mem_sKept _ _).mp h).1 (show (0 : Fin S50000x128.rank) ∈ gather_S50000x128_S850000x1_S850000x128_1_0_n_n_0_1_1128.collapsedSliceDims from List.mem_singleton.mpr rfl))]
    simp only [Nat.add_zero]
    unfold GatherDims.start
    rw [dif_pos (show (0 : Fin S50000x128.rank) ∈ gather_S50000x128_S850000x1_S850000x128_1_0_n_n_0_1_1128.startIndexMap from List.mem_singleton.mpr rfl)]
    have hsi : gather_S50000x128_S850000x1_S850000x128_1_0_n_n_0_1_1128.siIdx (ix2 e f) ⟨List.idxOf (0 : Fin S50000x128.rank) gather_S50000x128_S850000x1_S850000x128_1_0_n_n_0_1_1128.startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  · unfold GatherDims.start
    rw [dif_neg (show (1 : Fin S50000x128.rank) ∉ gather_S50000x128_S850000x1_S850000x128_1_0_n_n_0_1_1128.startIndexMap by decide)]
    rw [Nat.zero_add]
    rfl

/-- Where row e of the updates lands under the row scatter-add: if update (e, f) lands at i, then the start index of e,
    taken signed, is i's row, and f is i's column. -/
theorem scatter2_lands {w : Nat} (idx : IVec S850000x1 w) (e : Fin 850000) (f : Fin 128) (i : S50000x128.Idx)
    (h : scatter_S50000x128_S850000x1_S850000x128_1_0_0_1.resultIdx? (ix2 e f) idx = some i) :
    (idx (colIdx e)).toInt = ((i 0).val : Int) ∧ (i 1).val = f.val := by
  unfold ScatterDims.resultIdx? at h
  split at h
  · rename_i hall
    have hi := Option.some.inj h
    have hs0 : scatter_S50000x128_S850000x1_S850000x128_1_0_0_1.start (ix2 e f) idx 0 = (idx (colIdx e)).toInt := by
      unfold ScatterDims.start
      rw [dif_pos (show (0 : Fin S50000x128.rank) ∈ scatter_S50000x128_S850000x1_S850000x128_1_0_0_1.scatterDimsToOperandDims from List.mem_singleton.mpr rfl)]
      have hsi : scatter_S50000x128_S850000x1_S850000x128_1_0_0_1.siIdx (ix2 e f) ⟨List.idxOf (0 : Fin S50000x128.rank) scatter_S50000x128_S850000x1_S850000x128_1_0_0_1.scatterDimsToOperandDims,
          List.idxOf_lt_length_iff.2 (List.mem_singleton.mpr rfl)⟩ = colIdx e := by
        funext b; refine Fin.ext ?_
        match b with
        | ⟨0, _⟩ => rfl
        | ⟨1, _⟩ => rfl
      rw [hsi]
    have hw0 : scatter_S50000x128_S850000x1_S850000x128_1_0_0_1.window (ix2 e f) 0 = 0 := by
      unfold ScatterDims.window
      rw [dif_neg (show (0 : Fin S50000x128.rank) ∉ scatter_S50000x128_S850000x1_S850000x128_1_0_0_1.sKept by decide)]
    have hs1 : scatter_S50000x128_S850000x1_S850000x128_1_0_0_1.start (ix2 e f) idx 1 = 0 := by
      unfold ScatterDims.start
      rw [dif_neg (show (1 : Fin S50000x128.rank) ∉ scatter_S50000x128_S850000x1_S850000x128_1_0_0_1.scatterDimsToOperandDims by decide)]
    have hw1 : scatter_S50000x128_S850000x1_S850000x128_1_0_0_1.window (ix2 e f) 1 = f.val := by
      unfold ScatterDims.window
      rw [dif_pos (show (1 : Fin S50000x128.rank) ∈ scatter_S50000x128_S850000x1_S850000x128_1_0_0_1.sKept by decide)]
      rfl
    have h0 := hall 0
    have e0 : (i 0).val = (scatter_S50000x128_S850000x1_S850000x128_1_0_0_1.start (ix2 e f) idx 0 + scatter_S50000x128_S850000x1_S850000x128_1_0_0_1.window (ix2 e f) 0).toNat := by
      rw [← hi]
    have e1 : (i 1).val = (scatter_S50000x128_S850000x1_S850000x128_1_0_0_1.start (ix2 e f) idx 1 + scatter_S50000x128_S850000x1_S850000x128_1_0_0_1.window (ix2 e f) 1).toNat := by
      rw [← hi]
    rw [hs0, hw0] at h0 e0
    rw [hs1, hw1] at e1
    constructor
    · omega
    · omega
  · exact absurd h (by simp)

end Cert.KernelIdeal.Val

end
-- ==== Proof.KI.KForm.lean ====
/-
  The kernel side's pre-normalisation array a, read at (r, f), at the exact instance:
  a (r, f) = (0 + the sum, over the list entries e whose target node is r, of hs (src e, f)) * d (r) + b (f), with
  hs (n, f) = (sum over k of x (n, k) * w (f, k)) * d (n), d the guarded inverse square root of the in-degree, and src e the
  source node of entry e wrapped and clamped into the node range.
-/
import proofs.«149551_j31903017074707_2_alg».proof.Proof.KI.HostDefs
import proofs.«149551_j31903017074707_2_alg».proof.Proof.KI.Val0
import proofs.«149551_j31903017074707_2_alg».proof.Proof.KI.Val1
import proofs.«149551_j31903017074707_2_alg».proof.Proof.KI.Idx
import proofs.«149551_j31903017074707_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

/-- The degree column. -/
abbrev dcolK (e1 : S2x800000.Idx → BitVec 32) : S50000x1.Idx → EReal := shapeCast S50000x1 (dinvK e1) shapeCasts_S50000_S50000x1
/-- The scaled product the first region stores. -/
abbrev hsK (x0 : S50000x128.Idx → EReal) (e1 : S2x800000.Idx → BitVec 32) (w : S128x128.Idx → EReal) : S50000x128.Idx → EReal :=
  G0 x0 (transpose S128x128 [1, 0] w transposes_S128x128_S128x128_1_0) (dcolK e1)
/-- The second region's block output. -/
abbrev aK (x0 : S50000x128.Idx → EReal) (e1 : S2x800000.Idx → BitVec 32) (w : S128x128.Idx → EReal) (b : S128.Idx → EReal) : S50000x128.Idx → EReal :=
  G1a (aggrawK e1 (hsK x0 e1 w)) (dcolK e1) (shapeCast S1x128 b shapeCasts_S128_S1x128)

/-- The source node of list entry e: the wrapped source list's entry, taken signed and clamped into the node range. -/
def srcK (e1 : S2x800000.Idx → BitVec 32) (e : Fin 850000) : Fin 50000 :=
  ⟨min (nrowK e1 (ix1 e)).toInt.toNat (50000 - 1), by omega⟩

theorem dcolK_apply (e1 : S2x800000.Idx → BitVec 32) (n : Fin 50000) : dcolK e1 (ix2 n (0 : Fin 1)) = dinvK e1 (ix1 n) :=
  shapeCast_a_a1_apply (dinvK e1) shapeCasts_S50000_S50000x1 n (0 : Fin 1)

/-- The scaled product at (n, f). -/
theorem hsK_apply (x0 : S50000x128.Idx → EReal) (e1 : S2x800000.Idx → BitVec 32) (w : S128x128.Idx → EReal) (n : Fin 50000) (f : Fin 128) :
    hsK x0 e1 w (ix2 n f) = (∑ k : Fin 128, x0 (ix2 n k) * w (ix2 f k)) * dinvK e1 (ix1 n) := by
  unfold hsK
  rw [G0_at _ _ _ (ix2 n f) n f rfl rfl, dcolK_apply]
  refine congrArg (· * dinvK e1 (ix1 n)) (Finset.sum_congr rfl fun k _ => ?_)
  rw [transpose_ix2_apply]

/-- The column of start indices (e, 0) ↦ list e, read at (e, 0). -/
theorem bcol_apply (v : S850000.Idx → BitVec 32) (e : Fin 850000) :
    broadcastInDim S850000x1 ![0] bcast_S850000_S850000x1_0 v (colIdx e) = v (ix1 e) :=
  broadcastInDim_apply _ bcast_S850000_S850000x1_0 v (colIdx e) (ix1 e) (fun a => by
    match a with
    | ⟨0, _⟩ => rfl)

/-- The gathered row of the scaled product for list entry e, at column f. -/
theorem msgs_apply (x0 : S50000x128.Idx → EReal) (e1 : S2x800000.Idx → BitVec 32) (w : S128x128.Idx → EReal) (e : Fin 850000) (f : Fin 128) :
    Host.gather gather_S50000x128_S850000x1_S850000x128_1_0_n_n_0_1_1128 (hsK x0 e1 w) (broadcastInDim S850000x1 ![0] bcast_S850000_S850000x1_0 (nrowK e1)) (ix2 e f)
      = (∑ k : Fin 128, x0 (ix2 (srcK e1 e) k) * w (ix2 f k)) * dinvK e1 (ix1 (srcK e1 e)) := by
  rw [gather2_apply]
  have hsrc : (⟨min ((broadcastInDim S850000x1 ![0] bcast_S850000_S850000x1_0 (nrowK e1)) (colIdx e)).toInt.toNat (50000 - 1), by omega⟩ : Fin 50000) = srcK e1 e :=
    Fin.ext (by
      show min ((broadcastInDim S850000x1 ![0] bcast_S850000_S850000x1_0 (nrowK e1)) (colIdx e)).toInt.toNat (50000 - 1) = min (nrowK e1 (ix1 e)).toInt.toNat (50000 - 1)
      rw [bcol_apply])
  rw [hsrc]
  exact hsK_apply x0 e1 w (srcK e1 e) f

/-- The accumulating scatter at an index, at the exact instance: the operand element plus the sum of the updates that land there. -/
theorem scatterAddK_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- a at (r, f). -/
theorem aK_apply (x0 : S50000x128.Idx → EReal) (e1 : S2x800000.Idx → BitVec 32) (w : S128x128.Idx → EReal) (b : S128.Idx → EReal) (r : Fin 50000) (f : Fin 128) :
    aK x0 e1 w b (ix2 r f)
      = (Ideal.ofBits .f32 0x00000000#32 + ∑ j ∈ Finset.univ.filter (fun j : S850000x128.Idx =>
            scatter_S50000x128_S850000x1_S850000x128_1_0_0_1.resultIdx? j (broadcastInDim S850000x1 ![0] bcast_S850000_S850000x1_0 (colK e1)) = some (ix2 r f)),
          Host.gather gather_S50000x128_S850000x1_S850000x128_1_0_n_n_0_1_1128 (hsK x0 e1 w) (broadcastInDim S850000x1 ![0] bcast_S850000_S850000x1_0 (nrowK e1)) j)
        * dinvK e1 (ix1 r) + b (ix1 f) := by
  unfold aK
  rw [G1a_ix, dcolK_apply, shapeCast_a_1a_apply _ shapeCasts_S128_S1x128 (0 : Fin 1) f]
  unfold aggrawK
  rw [scatterAddK_apply]
  rw [show (broadcastInDim S50000x128 ![] bcast_S_S50000x128 (constant (F := Ideal) S_ .f32 0x00000000#32)) (ix2 r f) = Ideal.ofBits .f32 0x00000000#32 from rfl]

end Cert.KernelIdeal.Val

end
-- ==== Proof.KI.KFinal.lean ====
/-
  The kernel program's result array as one function of the argument arrays, at the exact instance. With
  hs (r, f) = (sum over k of x (r, k) * w (f, k)) * d (r), d the guarded inverse square root of the in-degree, the rows of hs
  gathered by source node and summed by target node, a (r, f) = that sum * d (r) + b (f), mean (f) the sum of a (., f) over
  50000, var (f) the sum of a (., f) squared over 50000 less mean (f) squared: the result at (r, f) is
  max (((a (r, f) - mean f) * rsqrt (max (var f) 0 + eps)) * scale f + shift f) 0.
-/
import proofs.«149551_j31903017074707_2_alg».proof.Proof.KI.HostVal
import proofs.«149551_j31903017074707_2_alg».proof.Proof.KI.Val0
import proofs.«149551_j31903017074707_2_alg».proof.Proof.KI.Val1
import proofs.«149551_j31903017074707_2_alg».proof.Proof.KI.Val2
import proofs.«149551_j31903017074707_2_alg».proof.Proof.LibColumnCast
import proofs.«149551_j31903017074707_2_alg».proof.Proof.KI.KForm
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Hand

variable (m : (ℓ : Loc nD τ sig) → Buf (Elt Ideal) ℓ) (ρ : Dev nD → PrngReg)

/-- The second region's entry arrays give a. -/
theorem G1a_entry (c : Dev nD) :
    G1a (U5 m ρ c main_v27) (U5 m ρ c main_v15) (U5 m ρ c main_v28)
      = aK (m ((c : Thread nD τ).loc main_arg0)) (m ((c : Thread nD τ).loc main_arg1)) (m ((c : Thread nD τ).loc main_arg2)) (m ((c : Thread nD τ).loc main_arg3)) := by
  rw [U5_v27, U5_v15, U5_v28, final0 (U3 m ρ) c, U3_arg0, U3_v16, U3_v15]

/-- THE KERNEL'S RESULT at (r, f). -/
theorem kernel_out (c : Dev nD) (r : Fin 50000) (f : Fin 128) :
    (W8 m ρ c (Proc.devRef .tc main_v38) : S50000x128.Idx → EReal) (ix2 r f)
      = max (((aK (m ((c : Thread nD τ).loc main_arg0)) (m ((c : Thread nD τ).loc main_arg1)) (m ((c : Thread nD τ).loc main_arg2)) (m ((c : Thread nD τ).loc main_arg3)) (ix2 r f)
            - Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f)) (Ideal.ofBits .f32 0x47435000#32))
          * Ideal.rsqrt (max (Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f) * aK (m ((c : Thread nD τ).loc main_arg0)) (m ((c : Thread nD τ).loc main_arg1)) (m ((c : Thread nD τ).loc main_arg2)) (m ((c : Thread nD τ).loc main_arg3)) (ix2 k f)) (Ideal.ofBits .f32 0x47435000#32)
              - Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f)) (Ideal.ofBits .f32 0x47435000#32)
                * Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f)) (Ideal.ofBits .f32 0x47435000#32))
              (Ideal.ofBits .f32 0x00000000#32) + Ideal.ofBits .f32 0x3727C5AC#32))
          * (m ((c : Thread nD τ).loc main_arg4) : S128.Idx → EReal) (ix1 f) + (m ((c : Thread nD τ).loc main_arg5) : S128.Idx → EReal) (ix1 f))
        (Ideal.ofBits .f32 0x00000000#32) := by
  rw [W8_v38, final2 (U7 m ρ) c, G2_at _ _ _ _ _ _ f rfl]
  rw [U7_v31_0, U7_v33, U7_v37, U7_v29, U7_v30, final1_3 (U5 m ρ) c]
  have hS4 := S4_apply (U5 m ρ) c f
  have hS5 := S5_apply (U5 m ρ) c f
  rw [G1a_entry] at hS4 hS5 ⊢
  have hmean : (Host.divf (F := Ideal) ((dat1 (U5 m ρ) c).arrAt 4 cfg1.N : S1x128.Idx → EReal) (broadcastInDim S1x128 ![] bcast_S_S1x128 (constant (F := Ideal) S_ .f32 0x47435000#32))) (ix2 (0 : Fin 1) f)
      = Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f)) (Ideal.ofBits .f32 0x47435000#32) := by
    rw [← hS4]; rfl
  have hsq : (Host.divf (F := Ideal) ((dat1 (U5 m ρ) c).arrAt 5 cfg1.N : S1x128.Idx → EReal) (broadcastInDim S1x128 ![] bcast_S_S1x128 (constant (F := Ideal) S_ .f32 0x47435000#32))) (ix2 (0 : Fin 1) f)
      = Ideal.div (Ideal.ofBits .f32 0x00000000#32 + ∑ k : Fin 50000, aK (m ((c : Thread nD τ).loc main_arg0)) (m ((c : Thread nD τ).loc main_arg1)) (m ((c : Thread nD τ).loc main_arg2)) (m ((c : Thread nD τ).loc main_arg3)) (ix2 k f) * aK (m ((c : Thread nD τ).loc main_arg0)) (m ((c : Thread nD τ).loc main_arg1)) (m ((c : Thread nD τ).loc main_arg2)) (m ((c : Thread nD τ).loc main_arg3)) (ix2 k f)) (Ideal.ofBits .f32 0x47435000#32) := by
    rw [← hS5]; rfl
  rw [subf_apply, mulf_apply, hmean, hsq]
  rw [shapeCast_a_1a_apply _ shapeCasts_S128_S1x128 (0 : Fin 1) f, shapeCast_a_1a_apply _ shapeCasts_S128_S1x128 (0 : Fin 1) f]

end Cert.KernelIdeal.Val

end
-- ==== Proof.KI.DegReal.lean ====
import proofs.«149551_j31903017074707_2_alg».proof.Proof.KI.HostDefs
import proofs.«149551_j31903017074707_2_alg».proof.Proof.RefRead
import proofs.«149551_j31903017074707_2_alg».proof.Proof.Spec
import Idealize.ShloMosaic.Lib.ValueIdx

noncomputable section

namespace Cert.KernelIdeal.Val

open Cert.KernelIdeal Cert.KernelIdeal.Gen Idealize.ShloMosaic Idealize.ShloMosaic.ValueIdx

/-! ## The two programs' host quantities are the same terms -/

theorem row_eq (e1 : S2x800000.Idx → BitVec 32) : Cert.ReferenceIdeal.Read.val_main_v3 (F := Ideal) e1 = rowK e1 := rfl
theorem col_eq (e1 : S2x800000.Idx → BitVec 32) : Cert.ReferenceIdeal.Read.val_main_v6 (F := Ideal) e1 = colK e1 := rfl
theorem nrow_eq (e1 : S2x800000.Idx → BitVec 32) : Cert.ReferenceIdeal.Read.val_main_v38 (F := Ideal) e1 = nrowK e1 := rfl
theorem nrow_eq' (e1 : S2x800000.Idx → BitVec 32) : Cert.ReferenceIdeal.Read.val_main_v21 (F := Ideal) e1 = nrowK e1 := rfl
theorem ncol_eq (e1 : S2x800000.Idx → BitVec 32) : Cert.ReferenceIdeal.Read.val_main_v28 (F := Ideal) e1 = ncolK e1 := rfl
theorem deg_eq (e1 : S2x800000.Idx → BitVec 32) :
    (Cert.ReferenceIdeal.Read.val_main_v10 (F := Ideal) e1 : (⟨1, ![50000]⟩ : Shape).Idx → EReal) = degK e1 := rfl

/-! ## Reading the host operations at an index, over the extended reals -/

/-- A scalar constant broadcast to any shape reads, at every index, the value its word denotes. -/
theorem bcast_const {t : Shape} (dims : Fin S_.rank → Fin t.rank) (h : S_.BroadcastsInDim t dims) (b : BitVec 32) (j : t.Idx) :
    broadcastInDim t dims h (constant (F := Ideal) S_ .f32 b) j = Ideal.ofBits .f32 b := rfl

/-- The host's reciprocal square root at an index is the extended reals' of the element. -/
theorem rsqrt_apply {s : Shape} (x : FVec Ideal s .f32) (i : s.Idx) : Host.rsqrt (F := Ideal) x i = Ideal.rsqrt (x i) := rfl

/-- Over the extended reals the host's accumulating scatter is, at each index, the operand's entry plus the sum of the
    updates that land there. -/
theorem scatterAdd_apply {s si su : Shape} {w : Nat} (d : ScatterDims s si su) (x : FVec Ideal s .f32) (idx : IVec si w)
    (upd : FVec Ideal su .f32) (i : s.Idx) :
    Host.scatterAdd (F := Ideal) d x idx upd i = x i + ∑ j ∈ Finset.univ.filter (fun j => d.resultIdx? j idx = some i), upd j := rfl

/-! ## The in-degree is a count -/

/-- The word for zero plus a sum of words for one over a finite set is the set's cardinality. -/
theorem zero_add_sum_ones {ι : Type} (s : Finset ι) :
    Ideal.ofBits .f32 0x00000000#32 + ∑ _j ∈ s, Ideal.ofBits .f32 0x3F800000#32 = (((s.card : ℕ) : ℝ) : EReal) := by
  rw [Ideal.ofBits_zero_f32, zero_add, Cert.Spec.ofBits_one, ← Cert.Spec.coe_sum, Finset.sum_const, nsmul_eq_mul, mul_one]

/-- The in-degree of a node is the number of list entries that land on it: the scatter-add starts from a zero at every
    node and adds a one per such entry (a broadcast scalar constant reads as its value at every index). -/
theorem degK_nat (e1 : S2x800000.Idx → BitVec 32) (i : S50000.Idx) : ∃ n : ℕ, degK e1 i = ((n : ℝ) : EReal) := by
  unfold degK
  rw [scatterAdd_apply]
  exact ⟨_, zero_add_sum_ones _⟩

/-- The guarded inverse square root of a count is a real number: `1 / √n` at a positive count, zero at zero. -/
theorem dinvK_real (e1 : S2x800000.Idx → BitVec 32) (i : S50000.Idx) : ∃ d : ℝ, dinvK e1 i = ((d : ℝ) : EReal) := by
  obtain ⟨n, hn⟩ := degK_nat e1 i
  rw [dinvK, select_apply, cmpf_apply, rsqrt_apply, bcast_const, hn, Ideal.cmpf_def]
  exact Cert.Spec.guarded_rsqrt_real n _ _ Ideal.ofBits_zero_f32 Ideal.ofBits_zero_f32

/-! ## The two guarded forms of the inverse square-root degree -/

/-- One program writes `where(deg > 0, 1 / sqrt deg, 0)`, the other `where(deg > 0, rsqrt deg, 0)`, of the same degree:
    read both at the index, name the degree there `x`, and the two are the two sides of the guarded identity. -/
theorem dinv_eq (e1 : S2x800000.Idx → BitVec 32) (i : S50000.Idx) :
    Cert.ReferenceIdeal.Read.val_main_v16 (F := Ideal) e1 i = dinvK e1 i := by
  rw [Cert.ReferenceIdeal.Read.val_main_v16_apply, Cert.ReferenceIdeal.Read.val_main_v12_apply,
    Cert.ReferenceIdeal.Read.val_main_v15_apply, Cert.ReferenceIdeal.Read.val_main_v13_apply, deg_eq,
    dinvK, select_apply, cmpf_apply, rsqrt_apply]
  generalize degK e1 i = x
  rw [Ideal.cmpf_def, Ideal.cmpf_def, Ideal.hostDivf_def, Ideal.hostUnary_sqrt_def]
  exact (Cert.Spec.guarded_rsqrt x _ _ _ Ideal.ofBits_zero_f32 Cert.Spec.ofBits_one).symm

end Cert.KernelIdeal.Val

end
-- ==== Proof.RefForm.lean ====
/-
  The reference program's result read at an index, as closed formulas.
  The reference is one graph-convolution layer followed by a batch normalisation and a rectifier:
    h   = x · Wᵀ                                   (a [50000,128] by [128,128] product),
    a   = (sum of the scaled rows of h that land at a row) + b,
    mean f = (0 + ∑ₖ a(k,f)) / 50000,
    var  f = (0 + ∑ₖ (a(k,f) - mean f)²) / 50000,
    out (r,f) = max (((a(r,f) - mean f) · rsqrt (var f + ε)) · γ f + β f) 0.
  Each statement chains the one-operation-at-an-index lemmas of the Read module and identifies the index functions
  they produce with an index written by its coordinates.
-/
import proofs.«149551_j31903017074707_2_alg».proof.Proof.RefRead
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

variable (x0 : S50000x128.Idx → EReal) (x1 : S2x800000.Idx → BitVec 32) (x2 : S128x128.Idx → EReal) (x3 x4 x5 : S128.Idx → EReal)

/-- h = x · Wᵀ: the product's second operand is the transposed weight, so its (k, f) element is W (f, k). -/
theorem ref_h (r : Fin 50000) (f : Fin 128) :
    val_main_v33 (F := Ideal) x0 x2 (ix2 r f) = ∑ k : Fin 128, x0 (ix2 r k) * x2 (ix2 f k) := by
  rw [val_main_v33_apply]
  refine Finset.sum_congr rfl fun k _ => ?_
  rw [val_main_v32_apply]
  have el : lidx_main_v33 (ix2 r f) k = ix2 r k :=
    funext fun a => Fin.ext (by match a with | ⟨0, _⟩ => rfl | ⟨1, _⟩ => rfl)
  have er : idx_main_v32 (ridx_main_v33 (ix2 r f) k) = ix2 f k :=
    funext fun a => Fin.ext (by match a with | ⟨0, _⟩ => rfl | ⟨1, _⟩ => rfl)
  rw [el, er]

/-- The column of a feature: the summation index of a reduction over the rows is the row. -/
theorem idx_col (f : Fin 128) (k : Fin 50000) : idx_main_v50 (ix1 f) k = ix2 k f :=
  funext fun a => Fin.ext (by match a with | ⟨0, _⟩ => rfl | ⟨1, _⟩ => rfl)

/-- A per-feature vector broadcast over the rows reads, at (r, f), its element f. -/
theorem idx_feat (r : Fin 50000) (f : Fin 128) : idx_main_v53 (idx_main_v54 (ix2 r f)) = ix1 f :=
  funext fun a => Fin.ext (by match a with | ⟨0, _⟩ => rfl)

/-- The batch mean of feature f: the sum over the rows, from zero, divided by the row count. -/
theorem ref_mean (f : Fin 128) :
    val_main_v52 (F := Ideal) x0 x1 x2 x3 (ix1 f)
      = Ideal.div (Ideal.ofBits .f32 0x00000000#32 + ∑ k : Fin 50000, val_main_v49 (F := Ideal) x0 x1 x2 x3 (ix2 k f))
          (Ideal.ofBits .f32 0x47435000#32) := by
  rw [val_main_v52_apply, val_main_v50_apply, val_main_v51_apply, val_main_cst_10_apply, val_main_cst_11_apply]
  have hs : (∑ k : Fin 50000, val_main_v49 (F := Ideal) x0 x1 x2 x3 (idx_main_v50 (ix1 f) k))
      = ∑ k : Fin 50000, val_main_v49 (F := Ideal) x0 x1 x2 x3 (ix2 k f) :=
    Finset.sum_congr rfl fun k _ => by rw [idx_col]
  rw [hs]
  rfl

/-- The mean broadcast over the rows, at (r, f), is the mean of feature f. -/
theorem ref_mean_bcast (r : Fin 50000) (f : Fin 128) :
    val_main_v54 (F := Ideal) x0 x1 x2 x3 (ix2 r f) = val_main_v52 (F := Ideal) x0 x1 x2 x3 (ix1 f) := by
  rw [val_main_v54_apply, val_main_v53_apply, idx_feat]

/-- The (biased) batch variance of feature f: the sum over the rows of the squared deviations from the mean, from zero,
    divided by the row count. -/
theorem ref_var (f : Fin 128) :
    val_main_v59 (F := Ideal) x0 x1 x2 x3 (ix1 f)
      = Ideal.div (Ideal.ofBits .f32 0x00000000#32 + ∑ k : Fin 50000,
            (val_main_v49 (F := Ideal) x0 x1 x2 x3 (ix2 k f) - val_main_v52 (F := Ideal) x0 x1 x2 x3 (ix1 f))
              * (val_main_v49 (F := Ideal) x0 x1 x2 x3 (ix2 k f) - val_main_v52 (F := Ideal) x0 x1 x2 x3 (ix1 f)))
          (Ideal.ofBits .f32 0x47435000#32) := by
  rw [val_main_v59_apply, val_main_v57_apply, val_main_v58_apply, val_main_cst_12_apply, val_main_cst_13_apply]
  have hs : (∑ k : Fin 50000, val_main_v56 (F := Ideal) x0 x1 x2 x3 (idx_main_v57 (ix1 f) k))
      = ∑ k : Fin 50000,
          (val_main_v49 (F := Ideal) x0 x1 x2 x3 (ix2 k f) - val_main_v52 (F := Ideal) x0 x1 x2 x3 (ix1 f))
            * (val_main_v49 (F := Ideal) x0 x1 x2 x3 (ix2 k f) - val_main_v52 (F := Ideal) x0 x1 x2 x3 (ix1 f)) :=
    Finset.sum_congr rfl fun k _ => by
      have e : idx_main_v57 (ix1 f) k = ix2 k f :=
        funext fun a => Fin.ext (by match a with | ⟨0, _⟩ => rfl | ⟨1, _⟩ => rfl)
      rw [e, val_main_v56_apply, val_main_v55_apply, ref_mean_bcast]
      rfl
  rw [hs]
  rfl

/-- The result at (r, f): the deviation from the mean, scaled by the reciprocal square root of the variance plus ε and by γ,
    shifted by β, and cut off below at zero. -/
theorem ref_out (r : Fin 50000) (f : Fin 128) :
    val_main_v75 (F := Ideal) x0 x1 x2 x3 x4 x5 (ix2 r f)
      = max (((val_main_v49 (F := Ideal) x0 x1 x2 x3 (ix2 r f) - val_main_v52 (F := Ideal) x0 x1 x2 x3 (ix1 f))
              * Ideal.rsqrt (val_main_v59 (F := Ideal) x0 x1 x2 x3 (ix1 f) + Ideal.ofBits .f32 0x3727C5AC#32))
            * x4 (ix1 f) + x5 (ix1 f)) (Ideal.ofBits .f32 0x00000000#32) := by
  have e61 : idx_main_v60 (idx_main_v61 (ix2 r f)) = ix1 f :=
    funext fun a => Fin.ext (by match a with | ⟨0, _⟩ => rfl)
  have e67 : idx_main_v66 (idx_main_v67 (ix2 r f)) = ix1 f :=
    funext fun a => Fin.ext (by match a with | ⟨0, _⟩ => rfl)
  have e70 : idx_main_v69 (idx_main_v70 (ix2 r f)) = ix1 f :=
    funext fun a => Fin.ext (by match a with | ⟨0, _⟩ => rfl)
  have e73 : idx_main_v72 (idx_main_v73 (ix2 r f)) = ix1 f :=
    funext fun a => Fin.ext (by match a with | ⟨0, _⟩ => rfl)
  rw [val_main_v75_apply, val_main_v74_apply, val_main_v71_apply, val_main_v68_apply, val_main_v62_apply,
    val_main_v61_apply, val_main_v60_apply, e61,
    val_main_v67_apply, val_main_v66_apply, e67, val_main_v65_apply, val_main_v64_apply, val_main_v63_apply, val_main_cst_14_apply,
    val_main_v70_apply, val_main_v69_apply, e70,
    val_main_v73_apply, val_main_v72_apply, e73,
    val_main_call1_v0_apply, val_main_call1_cst_apply]
  rfl

/-- The accumulating scatter at an index, at the exact instance: the operand element plus the sum of the updates that land
    there. -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- The bias broadcast over the rows reads, at (r, f), its element f. -/
theorem idx_bias (r : Fin 50000) (f : Fin 128) : idx_main_v47 (idx_main_v48 (ix2 r f)) = ix1 f :=
  funext fun a => Fin.ext (by match a with | ⟨0, _⟩ => rfl)

/-- The per-edge coefficient broadcast over the features reads, at an update index j, the coefficient of j's edge. -/
theorem idx_edge (j : S850000x128.Idx) : idx_main_v41 (idx_main_v42 j) = ix1 ⟨(j 0).val, idx2_lt0 j⟩ :=
  funext fun a => Fin.ext (by match a with | ⟨0, _⟩ => rfl)

/-- Update j of the aggregation: the gathered row element times the edge's coefficient, which is the product of the two
    gathered inverse square-root degrees of the edge's end points. -/
theorem ref_upd (j : S850000x128.Idx) :
    val_main_v43 (F := Ideal) x0 x1 x2 j
      = val_main_v40 (F := Ideal) x0 x1 x2 j
          * (val_main_v23 (F := Ideal) x1 (ix1 ⟨(j 0).val, idx2_lt0 j⟩) * val_main_v30 (F := Ideal) x1 (ix1 ⟨(j 0).val, idx2_lt0 j⟩)) := by
  rw [val_main_v43_apply, val_main_v42_apply, val_main_v41_apply, idx_edge, val_main_v31_apply, Ideal.mulf_def, Ideal.mulf_def]

/-- The scattered sum at (r, f): from zero, the sum of the updates that land at (r, f). -/
theorem ref_scatter (r : Fin 50000) (f : Fin 128) :
    val_main_v46 (F := Ideal) x0 x1 x2 (ix2 r f)
      = Ideal.ofBits .f32 0x00000000#32
        + ∑ j ∈ Finset.univ.filter (fun j : S850000x128.Idx =>
            scatter_S50000x128_S850000x1_S850000x128_1_0_0_1.resultIdx? j (val_main_v45 (F := Ideal) x1) = some (ix2 r f)),
          val_main_v40 (F := Ideal) x0 x1 x2 j
            * (val_main_v23 (F := Ideal) x1 (ix1 ⟨(j 0).val, idx2_lt0 j⟩) * val_main_v30 (F := Ideal) x1 (ix1 ⟨(j 0).val, idx2_lt0 j⟩)) := by
  unfold val_main_v46
  rw [scatterAdd_apply, val_main_v44_apply, val_main_cst_9_apply, Ideal.ofBits_def]
  exact congrArg (_ + ·) (Finset.sum_congr rfl fun j _ => ref_upd x0 x1 x2 j)

/-- The aggregate at (r, f): from zero, the sum of the updates that land at (r, f) — update j is the gathered row element
    times the edge's coefficient, itself the product of the two gathered inverse square-root degrees — plus the bias. -/
theorem ref_a (r : Fin 50000) (f : Fin 128) :
    val_main_v49 (F := Ideal) x0 x1 x2 x3 (ix2 r f)
      = (Ideal.ofBits .f32 0x00000000#32
          + ∑ j ∈ Finset.univ.filter (fun j : S850000x128.Idx =>
              scatter_S50000x128_S850000x1_S850000x128_1_0_0_1.resultIdx? j (val_main_v45 (F := Ideal) x1) = some (ix2 r f)),
            val_main_v40 (F := Ideal) x0 x1 x2 j
              * (val_main_v23 (F := Ideal) x1 (ix1 ⟨(j 0).val, idx2_lt0 j⟩) * val_main_v30 (F := Ideal) x1 (ix1 ⟨(j 0).val, idx2_lt0 j⟩)))
        + x3 (ix1 f) := by
  rw [val_main_v49_apply, val_main_v48_apply, val_main_v47_apply, idx_bias, ref_scatter, Ideal.addf_def]

end Cert.ReferenceIdeal.RefVal

end
-- ==== Proof.RefIdx.lean ====
/-
  The index-dependent host operations of this program read at an index.
  A gather along axis 0 by a column of start indices reads its operand at the start index, taken signed and clamped into
  [0, 49999]; a scatter-add along axis 0 lands update row e at row (start index of e), taken signed and NOT clamped, and
  drops it when that is outside [0, 49999]. So an update that lands at row r has start index exactly r.
-/
import proofs.«149551_j31903017074707_2_alg».proof.ReferenceIdeal
import proofs.«149551_j31903017074707_2_alg».proof.Proof.Gen.ReferenceIdeal
import Idealize.ShloMosaic.Lib.Pipeline.Value
import Idealize.ShloMosaic.Lib.ValueIdx

noncomputable section

open Idealize.ShloMosaic Idealize.ShloMosaic.ValueIdx

namespace Cert.ReferenceIdeal.RefVal

open Cert.ReferenceIdeal Cert.ReferenceIdeal.Gen

variable {α : Type}

/-- The start-indices index (e, 0) of row e. -/
abbrev colIdx (e : Fin 850000) : S850000x1.Idx := ix2 e (0 : Fin 1)

/-- The gather of a [50000] operand by a [850000,1] column of start indices, at e. -/
theorem gather1_apply {w : Nat} (x : S50000.Idx → α) (idx : IVec S850000x1 w) (e : Fin 850000) :
    Host.gather gather_S50000_S850000x1_S850000_n_0_n_n_0_1_1 x idx (ix1 e)
      = x (ix1 (⟨min (idx (colIdx e)).toInt.toNat (50000 - 1), by omega⟩ : Fin 50000)) := by
  unfold Host.gather
  congr 1
  funext a
  obtain rfl : a = 0 := Subsingleton.elim _ _
  refine Fin.ext ?_
  show gather_S50000_S850000x1_S850000_n_0_n_n_0_1_1.start (ix1 e) idx 0 + gather_S50000_S850000x1_S850000_n_0_n_n_0_1_1.batchCoord (ix1 e) 0 + gather_S50000_S850000x1_S850000_n_0_n_n_0_1_1.offCoord (ix1 e) 0 = _
  rw [GatherDims.batchCoord_eq_zero _ _ _ (show (0 : Fin S50000.rank) ∉ gather_S50000_S850000x1_S850000_n_0_n_n_0_1_1.operandBatchingDims from List.not_mem_nil),
    GatherDims.offCoord_eq_zero _ _ _ (fun h => ((GatherDims.mem_sKept _ _).mp h).1 (show (0 : Fin S50000.rank) ∈ gather_S50000_S850000x1_S850000_n_0_n_n_0_1_1.collapsedSliceDims from List.mem_singleton.mpr rfl))]
  simp only [Nat.add_zero]
  unfold GatherDims.start
  rw [dif_pos (show (0 : Fin S50000.rank) ∈ gather_S50000_S850000x1_S850000_n_0_n_n_0_1_1.startIndexMap from List.mem_singleton.mpr rfl)]
  have hsi : gather_S50000_S850000x1_S850000_n_0_n_n_0_1_1.siIdx (ix1 e) ⟨List.idxOf (0 : Fin S50000.rank) gather_S50000_S850000x1_S850000_n_0_n_n_0_1_1.startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-- The gather of rows of a [50000,128] operand by a [850000,1] column of start indices, at (e, f). -/
theorem gather2_apply {w : Nat} (x : S50000x128.Idx → α) (idx : IVec S850000x1 w) (e : Fin 850000) (f : Fin 128) :
    Host.gather gather_S50000x128_S850000x1_S850000x128_1_0_n_n_0_1_1128 x idx (ix2 e f)
      = x (ix2 (⟨min (idx (colIdx e)).toInt.toNat (50000 - 1), by omega⟩ : Fin 50000) f) := by
  unfold Host.gather
  congr 1
  funext a
  refine Fin.ext ?_
  show gather_S50000x128_S850000x1_S850000x128_1_0_n_n_0_1_1128.start (ix2 e f) idx a + gather_S50000x128_S850000x1_S850000x128_1_0_n_n_0_1_1128.batchCoord (ix2 e f) a + gather_S50000x128_S850000x1_S850000x128_1_0_n_n_0_1_1128.offCoord (ix2 e f) a = _
  rw [GatherDims.batchCoord_eq_zero _ _ _ (show a ∉ gather_S50000x128_S850000x1_S850000x128_1_0_n_n_0_1_1128.operandBatchingDims from List.not_mem_nil)]
  simp only [Nat.add_zero]
  have ha : a = 0 ∨ a = 1 := by
    rcases a with ⟨_ | _ | n, hn⟩
    · left; rfl
    · right; rfl
    · exact absurd hn (by show ¬ n + 2 < 2; omega)
  rcases ha with rfl | rfl
  · rw [GatherDims.offCoord_eq_zero _ _ _ (fun h => ((GatherDims.mem_sKept _ _).mp h).1 (show (0 : Fin S50000x128.rank) ∈ gather_S50000x128_S850000x1_S850000x128_1_0_n_n_0_1_1128.collapsedSliceDims from List.mem_singleton.mpr rfl))]
    simp only [Nat.add_zero]
    unfold GatherDims.start
    rw [dif_pos (show (0 : Fin S50000x128.rank) ∈ gather_S50000x128_S850000x1_S850000x128_1_0_n_n_0_1_1128.startIndexMap from List.mem_singleton.mpr rfl)]
    have hsi : gather_S50000x128_S850000x1_S850000x128_1_0_n_n_0_1_1128.siIdx (ix2 e f) ⟨List.idxOf (0 : Fin S50000x128.rank) gather_S50000x128_S850000x1_S850000x128_1_0_n_n_0_1_1128.startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  · unfold GatherDims.start
    rw [dif_neg (show (1 : Fin S50000x128.rank) ∉ gather_S50000x128_S850000x1_S850000x128_1_0_n_n_0_1_1128.startIndexMap by decide)]
    rw [Nat.zero_add]
    rfl

/-- Where row e of the updates lands under the row scatter-add: if update (e, f) lands at i, then the start index of e,
    taken signed, is i's row, and f is i's column. -/
theorem scatter2_lands {w : Nat} (idx : IVec S850000x1 w) (e : Fin 850000) (f : Fin 128) (i : S50000x128.Idx)
    (h : scatter_S50000x128_S850000x1_S850000x128_1_0_0_1.resultIdx? (ix2 e f) idx = some i) :
    (idx (colIdx e)).toInt = ((i 0).val : Int) ∧ (i 1).val = f.val := by
  unfold ScatterDims.resultIdx? at h
  split at h
  · rename_i hall
    have hi := Option.some.inj h
    have hs0 : scatter_S50000x128_S850000x1_S850000x128_1_0_0_1.start (ix2 e f) idx 0 = (idx (colIdx e)).toInt := by
      unfold ScatterDims.start
      rw [dif_pos (show (0 : Fin S50000x128.rank) ∈ scatter_S50000x128_S850000x1_S850000x128_1_0_0_1.scatterDimsToOperandDims from List.mem_singleton.mpr rfl)]
      have hsi : scatter_S50000x128_S850000x1_S850000x128_1_0_0_1.siIdx (ix2 e f) ⟨List.idxOf (0 : Fin S50000x128.rank) scatter_S50000x128_S850000x1_S850000x128_1_0_0_1.scatterDimsToOperandDims,
          List.idxOf_lt_length_iff.2 (List.mem_singleton.mpr rfl)⟩ = colIdx e := by
        funext b; refine Fin.ext ?_
        match b with
        | ⟨0, _⟩ => rfl
        | ⟨1, _⟩ => rfl
      rw [hsi]
    have hw0 : scatter_S50000x128_S850000x1_S850000x128_1_0_0_1.window (ix2 e f) 0 = 0 := by
      unfold ScatterDims.window
      rw [dif_neg (show (0 : Fin S50000x128.rank) ∉ scatter_S50000x128_S850000x1_S850000x128_1_0_0_1.sKept by decide)]
    have hs1 : scatter_S50000x128_S850000x1_S850000x128_1_0_0_1.start (ix2 e f) idx 1 = 0 := by
      unfold ScatterDims.start
      rw [dif_neg (show (1 : Fin S50000x128.rank) ∉ scatter_S50000x128_S850000x1_S850000x128_1_0_0_1.scatterDimsToOperandDims by decide)]
    have hw1 : scatter_S50000x128_S850000x1_S850000x128_1_0_0_1.window (ix2 e f) 1 = f.val := by
      unfold ScatterDims.window
      rw [dif_pos (show (1 : Fin S50000x128.rank) ∈ scatter_S50000x128_S850000x1_S850000x128_1_0_0_1.sKept by decide)]
      rfl
    have h0 := hall 0
    have e0 : (i 0).val = (scatter_S50000x128_S850000x1_S850000x128_1_0_0_1.start (ix2 e f) idx 0 + scatter_S50000x128_S850000x1_S850000x128_1_0_0_1.window (ix2 e f) 0).toNat := by
      rw [← hi]
    have e1 : (i 1).val = (scatter_S50000x128_S850000x1_S850000x128_1_0_0_1.start (ix2 e f) idx 1 + scatter_S50000x128_S850000x1_S850000x128_1_0_0_1.window (ix2 e f) 1).toNat := by
      rw [← hi]
    rw [hs0, hw0] at h0 e0
    rw [hs1, hw1] at e1
    constructor
    · omega
    · omega
  · exact absurd h (by simp)

end Cert.ReferenceIdeal.RefVal

end
-- ==== Proof.RefGather.lean ====
/-
  The reference program's three gathers and the landing condition of its scatter-add, read at an index.
  Every edge list entry e (the 800000 edges followed by the 50000 self-loops) has a source and a target node. A gather
  reads its operand at the entry's node, taken signed, wrapped once if negative, and clamped into [0, 49999]; the
  scatter-add lands entry e at the row its target names, taken signed and not clamped, and drops it when that is outside
  [0, 49999]. So an entry that lands at row r has target exactly r, the wrap does nothing to it, and the clamp neither.
-/
import proofs.«149551_j31903017074707_2_alg».proof.Proof.RefForm
import proofs.«149551_j31903017074707_2_alg».proof.Proof.RefIdx
import proofs.«149551_j31903017074707_2_alg».proof.Proof.RefRead
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

variable (x0 : S50000x128.Idx → EReal) (x1 : S2x800000.Idx → BitVec 32) (x2 : S128x128.Idx → EReal)

/-- Entry e's source node: the wrapped source list's entry, taken signed and clamped into [0, 49999]. -/
def srcR (e : Fin 850000) : Fin 50000 :=
  ⟨min (val_main_v38 (F := Ideal) x1 (ix1 e)).toInt.toNat (50000 - 1), by omega⟩

/-- A list broadcast to a one-column array reads, at (e, 0), its entry e. -/
theorem idx_colIdx (e : Fin 850000) : idx_main_v39 (colIdx e) = ix1 e :=
  funext fun a => Fin.ext (by match a with | ⟨0, _⟩ => rfl)

/-- The wrapped source column (the row gather's start indices) at (e, 0). -/
theorem bcol39 (e : Fin 850000) : val_main_v39 (F := Ideal) x1 (colIdx e) = val_main_v38 (F := Ideal) x1 (ix1 e) := by
  rw [val_main_v39_apply]
  exact congrArg _ (idx_colIdx e)

/-- The wrapped source column (the degree gather's start indices) at (e, 0). -/
theorem bcol22 (e : Fin 850000) : val_main_v22 (F := Ideal) x1 (colIdx e) = val_main_v21 (F := Ideal) x1 (ix1 e) := by
  rw [val_main_v22_apply]
  exact congrArg _ (idx_colIdx e)

/-- The wrapped target column (the degree gather's start indices) at (e, 0). -/
theorem bcol29 (e : Fin 850000) : val_main_v29 (F := Ideal) x1 (colIdx e) = val_main_v28 (F := Ideal) x1 (ix1 e) := by
  rw [val_main_v29_apply]
  exact congrArg _ (idx_colIdx e)

/-- The target column (the scatter-add's indices, not wrapped) at (e, 0). -/
theorem bcol45 (e : Fin 850000) : val_main_v45 (F := Ideal) x1 (colIdx e) = val_main_v6 (F := Ideal) x1 (ix1 e) := by
  rw [val_main_v45_apply]
  exact congrArg _ (idx_colIdx e)

/-- The inverse square-root degree gathered for entry e's source: the degree vector at the wrapped source, clamped. -/
theorem ref_dsrc (e : Fin 850000) :
    val_main_v23 (F := Ideal) x1 (ix1 e)
      = val_main_v16 (F := Ideal) x1 (ix1 (⟨min (val_main_v21 (F := Ideal) x1 (ix1 e)).toInt.toNat (50000 - 1), by omega⟩ : Fin 50000)) := by
  unfold val_main_v23
  rw [gather1_apply]
  refine congrArg (fun t : Fin 50000 => val_main_v16 (F := Ideal) x1 (ix1 t)) (Fin.ext ?_)
  show min (val_main_v22 (F := Ideal) x1 (colIdx e)).toInt.toNat (50000 - 1)
    = min (val_main_v21 (F := Ideal) x1 (ix1 e)).toInt.toNat (50000 - 1)
  rw [bcol22]

/-- The inverse square-root degree gathered for entry e's target: the degree vector at the wrapped target, clamped. -/
theorem ref_dtgt (e : Fin 850000) :
    val_main_v30 (F := Ideal) x1 (ix1 e)
      = val_main_v16 (F := Ideal) x1 (ix1 (⟨min (val_main_v28 (F := Ideal) x1 (ix1 e)).toInt.toNat (50000 - 1), by omega⟩ : Fin 50000)) := by
  unfold val_main_v30
  rw [gather1_apply]
  refine congrArg (fun t : Fin 50000 => val_main_v16 (F := Ideal) x1 (ix1 t)) (Fin.ext ?_)
  show min (val_main_v29 (F := Ideal) x1 (colIdx e)).toInt.toNat (50000 - 1)
    = min (val_main_v28 (F := Ideal) x1 (ix1 e)).toInt.toNat (50000 - 1)
  rw [bcol29]

/-- If update (e, f') of the scatter-add lands at (r, f), entry e's target, taken signed, is r, and the columns agree. -/
theorem ref_lands (e : Fin 850000) (f' : Fin 128) (r : Fin 50000) (f : Fin 128)
    (h : scatter_S50000x128_S850000x1_S850000x128_1_0_0_1.resultIdx? (ix2 e f') (val_main_v45 (F := Ideal) x1) = some (ix2 r f)) :
    (val_main_v6 (F := Ideal) x1 (ix1 e)).toInt = (r.val : Int) ∧ f.val = f'.val := by
  have h' := scatter2_lands (val_main_v45 (F := Ideal) x1) e f' (ix2 r f) h
  rw [bcol45] at h'
  exact h'

/-- A target that, taken signed, is a row number is not negative, so wrapping it does nothing. -/
theorem ref_wrap_id (e : Fin 850000) (r : Fin 50000) (h : (val_main_v6 (F := Ideal) x1 (ix1 e)).toInt = (r.val : Int)) :
    val_main_v28 (F := Ideal) x1 (ix1 e) = val_main_v6 (F := Ideal) x1 (ix1 e) := by
  rw [val_main_v28_apply, val_main_v25_apply, val_main_v24_apply, val_main_c_5_apply]
  have hs : (val_main_v6 (F := Ideal) x1 (ix1 e)).slt 0#32 = false := by
    unfold BitVec.slt
    rw [h]
    exact decide_eq_false (by have h0 : (0#32 : BitVec 32).toInt = 0 := rfl; omega)
  have hc : IntOp.cmpi .slt (val_main_v6 (F := Ideal) x1 (ix1 e)) 0#32 = 0#1 := by
    show BitVec.ofBool ((val_main_v6 (F := Ideal) x1 (ix1 e)).slt 0#32) = 0#1
    rw [hs]
    rfl
  rw [hc, select_zero]

/-- The degree gathered for the target of an entry that lands at row r is the degree vector at r. -/
theorem ref_dtgt_lands (e : Fin 850000) (r : Fin 50000) (h : (val_main_v6 (F := Ideal) x1 (ix1 e)).toInt = (r.val : Int)) :
    val_main_v30 (F := Ideal) x1 (ix1 e) = val_main_v16 (F := Ideal) x1 (ix1 r) := by
  rw [ref_dtgt]
  refine congrArg (fun t : Fin 50000 => val_main_v16 (F := Ideal) x1 (ix1 t)) (Fin.ext ?_)
  show min (val_main_v28 (F := Ideal) x1 (ix1 e)).toInt.toNat (50000 - 1) = r.val
  rw [ref_wrap_id x1 e r h, h]
  have := r.isLt
  omega

/-- The two printed copies of the wrapped source list are one list. -/
theorem v21_eq_v38 : val_main_v21 (F := Ideal) x1 = val_main_v38 (F := Ideal) x1 := rfl

/-- The clamped wrapped source read off the first copy is the entry's source node. -/
theorem srcR_eq (e : Fin 850000) :
    (⟨min (val_main_v21 (F := Ideal) x1 (ix1 e)).toInt.toNat (50000 - 1), by omega⟩ : Fin 50000) = srcR x1 e := by
  refine Fin.ext ?_
  show min (val_main_v21 (F := Ideal) x1 (ix1 e)).toInt.toNat (50000 - 1) = min (val_main_v38 (F := Ideal) x1 (ix1 e)).toInt.toNat (50000 - 1)
  rw [v21_eq_v38]

/-- The message row gathered for entry e, at feature f: row (source of e) of h = x · Wᵀ. -/
theorem ref_msg (e : Fin 850000) (f : Fin 128) :
    val_main_v40 (F := Ideal) x0 x1 x2 (ix2 e f) = ∑ k : Fin 128, x0 (ix2 (srcR x1 e) k) * x2 (ix2 f k) := by
  unfold val_main_v40
  rw [gather2_apply]
  have hrow : (⟨min (val_main_v39 (F := Ideal) x1 (colIdx e)).toInt.toNat (50000 - 1), by omega⟩ : Fin 50000) = srcR x1 e := by
    refine Fin.ext ?_
    show min (val_main_v39 (F := Ideal) x1 (colIdx e)).toInt.toNat (50000 - 1)
      = min (val_main_v38 (F := Ideal) x1 (ix1 e)).toInt.toNat (50000 - 1)
    rw [bcol39]
  exact (congrArg (fun t : Fin 50000 => val_main_v33 (F := Ideal) x0 x2 (ix2 t f)) hrow).trans (ref_h x0 x2 (srcR x1 e) f)

end Cert.ReferenceIdeal.RefVal

end
-- ==== Proof.Bridge.lean ====
/-
  The two programs' pre-normalisation arrays agree, and so do their results, at the exact instance, on real-valued inputs.
  Both sum, over the list entries e whose target node is r, a message built from row src e of x W^T and the guarded inverse
  square roots d of the in-degrees: the kernel program sums hs (src e, f) = h (src e, f) * d (src e) and multiplies the sum by
  d (r); the reference sums h (src e, f) * (d (src e) * d (tgt e)), where for an entry that lands at row r the wrapped and
  clamped target tgt e is r itself. The messages are real numbers, so the common factor d (r) moves out of the sum.
  After that the two programs differ only in how they take the batch statistics, which Spec.stats_agree settles.
-/
import proofs.«149551_j31903017074707_2_alg».proof.Proof.KI.KForm
import proofs.«149551_j31903017074707_2_alg».proof.Proof.KI.DegReal
import proofs.«149551_j31903017074707_2_alg».proof.Proof.RefGather
import proofs.«149551_j31903017074707_2_alg».proof.Proof.Spec

set_option maxRecDepth 16384

noncomputable section

open Idealize.ShloMosaic Idealize.ShloMosaic.ValueIdx

namespace Cert.Bridge

open Cert.KernelIdeal.Val Cert.ReferenceIdeal.RefVal Cert.ReferenceIdeal.Read

abbrev SX : Shape := ⟨2, ![50000, 128]⟩
abbrev SE : Shape := ⟨2, ![2, 800000]⟩
abbrev SW : Shape := ⟨2, ![128, 128]⟩
abbrev SB : Shape := ⟨1, ![128]⟩

variable (x0 : SX.Idx → EReal) (e1 : SE.Idx → BitVec 32) (w : SW.Idx → EReal) (b : SB.Idx → EReal)

/-- The two programs clamp the same wrapped source list: one source node per list entry. -/
theorem src_eq (e : Fin 850000) : srcR e1 e = srcK e1 e := by
  refine Fin.ext ?_
  show min (val_main_v38 (F := Ideal) e1 (ix1 e)).toInt.toNat (50000 - 1) = min (nrowK e1 (ix1 e)).toInt.toNat (50000 - 1)
  rw [nrow_eq]

/-- An entry lands at row r under the kernel program's scatter-add exactly when it does under the reference's. -/
theorem filter_eq (r : Fin 50000) (f : Fin 128) :
    (Finset.univ.filter (fun j : Cert.ReferenceIdeal.S850000x128.Idx =>
        Cert.ReferenceIdeal.scatter_S50000x128_S850000x1_S850000x128_1_0_0_1.resultIdx? j (val_main_v45 (F := Ideal) e1) = some (ix2 r f)))
      = (Finset.univ.filter (fun j : Cert.KernelIdeal.S850000x128.Idx =>
        Cert.KernelIdeal.scatter_S50000x128_S850000x1_S850000x128_1_0_0_1.resultIdx? j (broadcastInDim Cert.KernelIdeal.S850000x1 ![0] Cert.KernelIdeal.Gen.bcast_S850000_S850000x1_0 (colK e1)) = some (ix2 r f))) := rfl

set_option maxHeartbeats 2000000 in
/-- THE PRE-NORMALISATION ARRAYS AGREE at (r, f). -/
theorem a_eq (hx0 : ∀ i, ∃ y : ℝ, x0 i = ((y : ℝ) : EReal)) (hw : ∀ i, ∃ y : ℝ, w i = ((y : ℝ) : EReal)) (r : Fin 50000) (f : Fin 128) :
    aK x0 e1 w b (ix2 r f) = val_main_v49 (F := Ideal) x0 e1 w b (ix2 r f) := by
  rw [aK_apply, ref_a, filter_eq]
  refine congrArg (· + b (ix1 f)) ?_
  choose fx hfx using hx0
  choose fw hfw using hw
  choose fd hfd using dinvK_real e1
  -- the message of list entry e at column f, as a real number
  have hmsg : ∀ (e : Fin 850000), (∑ k : Fin 128, x0 (ix2 (srcK e1 e) k) * w (ix2 f k)) * dinvK e1 (ix1 (srcK e1 e))
      = (((∑ k : Fin 128, fx (ix2 (srcK e1 e) k) * fw (ix2 f k)) * fd (ix1 (srcK e1 e)) : ℝ) : EReal) := fun e => by
    rw [hfd, EReal.coe_mul, Cert.Spec.coe_sum]
    refine congrArg (· * ((fd (ix1 (srcK e1 e)) : ℝ) : EReal)) (Finset.sum_congr rfl fun k _ => ?_)
    rw [hfx, hfw, EReal.coe_mul]
  set S := Finset.univ.filter (fun j : Cert.KernelIdeal.S850000x128.Idx =>
        Cert.KernelIdeal.scatter_S50000x128_S850000x1_S850000x128_1_0_0_1.resultIdx? j (broadcastInDim Cert.KernelIdeal.S850000x1 ![0] Cert.KernelIdeal.Gen.bcast_S850000_S850000x1_0 (colK e1)) = some (ix2 r f)) with hS
  have hK : ∑ j ∈ S, Host.gather Cert.KernelIdeal.gather_S50000x128_S850000x1_S850000x128_1_0_n_n_0_1_1128 (hsK x0 e1 w) (broadcastInDim Cert.KernelIdeal.S850000x1 ![0] Cert.KernelIdeal.Gen.bcast_S850000_S850000x1_0 (nrowK e1)) j
      = ∑ j ∈ S, (((∑ k : Fin 128, fx (ix2 (srcK e1 ⟨(j 0).val, idx2_lt0 j⟩) k) * fw (ix2 f k)) * fd (ix1 (srcK e1 ⟨(j 0).val, idx2_lt0 j⟩)) : ℝ) : EReal) := by
    refine Finset.sum_congr rfl fun j hj => ?_
    have hl := (Finset.mem_filter.mp hj).2
    obtain ⟨e, f', rfl⟩ : ∃ (e : Fin 850000) (f' : Fin 128), j = ix2 e f' := ⟨j 0, j 1, eq_ix2 j⟩
    have hf : f' = f := Fin.ext (Cert.KernelIdeal.Val.scatter2_lands _ e f' (ix2 r f) hl).2.symm
    subst hf
    rw [msgs_apply]
    exact hmsg e
  have hR : ∑ j ∈ S, val_main_v40 (F := Ideal) x0 e1 w j * (val_main_v23 (F := Ideal) e1 (ix1 ⟨(j 0).val, idx2_lt0 j⟩) * val_main_v30 (F := Ideal) e1 (ix1 ⟨(j 0).val, idx2_lt0 j⟩))
      = ∑ j ∈ S, (((∑ k : Fin 128, fx (ix2 (srcK e1 ⟨(j 0).val, idx2_lt0 j⟩) k) * fw (ix2 f k)) * fd (ix1 (srcK e1 ⟨(j 0).val, idx2_lt0 j⟩)) : ℝ) : EReal) * ((fd (ix1 r) : ℝ) : EReal) := by
    refine Finset.sum_congr rfl fun j hj => ?_
    have hl := (Finset.mem_filter.mp hj).2
    obtain ⟨e, f', rfl⟩ : ∃ (e : Fin 850000) (f' : Fin 128), j = ix2 e f' := ⟨j 0, j 1, eq_ix2 j⟩
    have hlk := Cert.KernelIdeal.Val.scatter2_lands _ e f' (ix2 r f) hl
    have hf : f' = f := Fin.ext hlk.2.symm
    subst hf
    have hcol : (val_main_v6 (F := Ideal) e1 (ix1 e)).toInt = (r.val : Int) := by
      rw [col_eq]; rw [← bcol_apply (colK e1) e]; exact hlk.1
    show val_main_v40 (F := Ideal) x0 e1 w (ix2 e f') * (val_main_v23 (F := Ideal) e1 (ix1 e) * val_main_v30 (F := Ideal) e1 (ix1 e)) = _
    rw [ref_msg, ref_dsrc, srcR_eq, ref_dtgt_lands e1 e r hcol, src_eq, dinv_eq, dinv_eq, ← hmsg e, hfd (ix1 r), mul_assoc]
  rw [hK, hR, hfd (ix1 r), Ideal.ofBits_zero_f32, zero_add, zero_add, Cert.Spec.sum_mul_real]

end Cert.Bridge

end
-- ==== Proof.RefReal.lean ====
/-
  The reference program's array before the normalisation is real-valued when its float inputs and its guarded inverse
  square-root degrees are: every update of the aggregation is a product of three reals (a finite sum of products of reals,
  and two inverse square-root degrees), the aggregate is a finite sum of such updates from zero, and the bias is real.
-/
import proofs.«149551_j31903017074707_2_alg».proof.Proof.RefGather
import proofs.«149551_j31903017074707_2_alg».proof.Proof.RefForm
import proofs.«149551_j31903017074707_2_alg».proof.Proof.Spec
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx

/-- A finite sum of extended reals that are all real is real. -/
theorem real_sum {ι : Type*} (S : Finset ι) (t : ι → EReal) (ht : ∀ j, ∃ y : ℝ, t j = ((y : ℝ) : EReal)) :
    ∃ y : ℝ, ∑ j ∈ S, t j = ((y : ℝ) : EReal) := by
  choose g hg using ht
  exact ⟨∑ j ∈ S, g j, by rw [Cert.Spec.coe_sum]; exact Finset.sum_congr rfl fun j _ => hg j⟩

/-- The aggregate plus bias at (r, f) is real when x, W, b and the inverse square-root degree vector are. -/
theorem ref_a_real (x0 : S50000x128.Idx → EReal) (x1 : S2x800000.Idx → BitVec 32) (x2 : S128x128.Idx → EReal) (x3 : S128.Idx → EReal)
    (hx0 : ∀ i, ∃ y : ℝ, x0 i = ((y : ℝ) : EReal)) (hx2 : ∀ i, ∃ y : ℝ, x2 i = ((y : ℝ) : EReal)) (hx3 : ∀ i, ∃ y : ℝ, x3 i = ((y : ℝ) : EReal))
    (hd : ∀ i, ∃ y : ℝ, val_main_v16 (F := Ideal) x1 i = ((y : ℝ) : EReal)) (r : Fin 50000) (f : Fin 128) :
    ∃ y : ℝ, val_main_v49 (F := Ideal) x0 x1 x2 x3 (ix2 r f) = ((y : ℝ) : EReal) := by
  choose fx hfx using hx0
  choose fw hfw using hx2
  choose fb hfb using hx3
  choose fd hfd using hd
  -- every update is a real: a finite sum of products of reals times two inverse square-root degrees
  have hupd : ∀ j : S850000x128.Idx, ∃ y : ℝ,
      val_main_v40 (F := Ideal) x0 x1 x2 j
        * (val_main_v23 (F := Ideal) x1 (ix1 ⟨(j 0).val, idx2_lt0 j⟩) * val_main_v30 (F := Ideal) x1 (ix1 ⟨(j 0).val, idx2_lt0 j⟩))
      = ((y : ℝ) : EReal) := by
    intro j
    obtain ⟨e, f', rfl⟩ : ∃ (e : Fin 850000) (f' : Fin 128), j = ix2 e f' := ⟨j 0, j 1, eq_ix2 j⟩
    show ∃ y : ℝ, val_main_v40 (F := Ideal) x0 x1 x2 (ix2 e f')
      * (val_main_v23 (F := Ideal) x1 (ix1 e) * val_main_v30 (F := Ideal) x1 (ix1 e)) = ((y : ℝ) : EReal)
    have h40 : val_main_v40 (F := Ideal) x0 x1 x2 (ix2 e f')
        = ((∑ k : Fin 128, fx (ix2 (srcR x1 e) k) * fw (ix2 f' k) : ℝ) : EReal) := by
      rw [ref_msg, Cert.Spec.coe_sum]
      exact Finset.sum_congr rfl fun k _ => by rw [hfx, hfw, EReal.coe_mul]
    rw [h40, ref_dsrc, ref_dtgt, hfd, hfd, ← EReal.coe_mul, ← EReal.coe_mul]
    exact ⟨_, rfl⟩
  obtain ⟨y, hy⟩ := real_sum
    (Finset.univ.filter (fun j : S850000x128.Idx =>
      scatter_S50000x128_S850000x1_S850000x128_1_0_0_1.resultIdx? j (val_main_v45 (F := Ideal) x1) = some (ix2 r f)))
    (fun j => val_main_v40 (F := Ideal) x0 x1 x2 j
      * (val_main_v23 (F := Ideal) x1 (ix1 ⟨(j 0).val, idx2_lt0 j⟩) * val_main_v30 (F := Ideal) x1 (ix1 ⟨(j 0).val, idx2_lt0 j⟩)))
    hupd
  refine ⟨y + fb (ix1 f), ?_⟩
  rw [ref_a, Ideal.ofBits_zero_f32, zero_add, hy, hfb, EReal.coe_add]

end Cert.ReferenceIdeal.RefVal

end
-- ==== Proof.Final.lean ====
/-
  The kernel program's result array IS the reference's, at the exact instance, when the first, third and fourth arguments
  are real-valued: index by index both are
  max (((a (r, f) - mean f) * rsqrt (var f + eps)) * scale f + shift f) 0 with one array a (Bridge.a_eq), one mean, and
  one variance (the kernel program's mean of squares less squared mean, clamped at zero, is the reference's mean of squared
  deviations: Spec.stats_agree).
-/
import proofs.«149551_j31903017074707_2_alg».proof.Proof.KI.KFinal
import proofs.«149551_j31903017074707_2_alg».proof.Proof.Bridge
import proofs.«149551_j31903017074707_2_alg».proof.Proof.RefReal
import proofs.«149551_j31903017074707_2_alg».proof.Proof.RefForm

set_option maxRecDepth 16384

noncomputable section

open Idealize.ShloMosaic Idealize.ShloMosaic.TcCoe Idealize.SL.Sem Idealize.ShloMosaic.ValueIdx

namespace Cert.Bridge

open Cert.KernelIdeal Cert.KernelIdeal.Hand Cert.KernelIdeal.Val Cert.ReferenceIdeal.RefVal Cert.ReferenceIdeal.Read

theorem fifty_thousand : Ideal.ofBits .f32 0x47435000#32 = ((((50000 : ℕ) : ℝ)) : EReal) := by
  rw [Cert.Spec.ofBits_50000]; norm_num

set_option maxHeartbeats 4000000 in
theorem result_eq (m : (ℓ : Loc nD τ sig) → Buf (Elt Ideal) ℓ) (ρ : Dev nD → PrngReg) (c : Dev nD)
    (hx0 : ∀ i, ∃ y : ℝ, (m ((c : Thread nD τ).loc main_arg0) : SX.Idx → EReal) i = ((y : ℝ) : EReal))
    (hw : ∀ i, ∃ y : ℝ, (m ((c : Thread nD τ).loc main_arg2) : SW.Idx → EReal) i = ((y : ℝ) : EReal))
    (hb : ∀ i, ∃ y : ℝ, (m ((c : Thread nD τ).loc main_arg3) : SB.Idx → EReal) i = ((y : ℝ) : EReal)) :
    (W8 m ρ c (Proc.devRef .tc main_v38) : SX.Idx → EReal)
      = val_main_v75 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨r, f, rfl⟩ : ∃ (r : Fin 50000) (f : Fin 128), i = ix2 r f := ⟨i 0, i 1, eq_ix2 i⟩
  rw [kernel_out, ref_out, ref_var, ref_mean]
  have ha : ∀ k : Fin 50000, aK (m ((c : Thread nD τ).loc main_arg0)) (m ((c : Thread nD τ).loc main_arg1)) (m ((c : Thread nD τ).loc main_arg2)) (m ((c : Thread nD τ).loc main_arg3)) (ix2 k f)
      = val_main_v49 (F := Ideal) (m ((c : Thread nD τ).loc main_arg0)) (m ((c : Thread nD τ).loc main_arg1)) (m ((c : Thread nD τ).loc main_arg2)) (m ((c : Thread nD τ).loc main_arg3)) (ix2 k f) :=
    fun k => a_eq _ _ _ _ hx0 hw k f
  have hd : ∀ i, ∃ y : ℝ, val_main_v16 (F := Ideal) (m ((c : Thread nD τ).loc main_arg1)) i = ((y : ℝ) : EReal) := fun i => by
    obtain ⟨y, hy⟩ := dinvK_real (m ((c : Thread nD τ).loc main_arg1)) i
    exact ⟨y, (dinv_eq _ i).trans hy⟩
  choose fa hfa using fun k : Fin 50000 => ref_a_real _ (m ((c : Thread nD τ).loc main_arg1)) _ _ hx0 hw hb hd k f
  simp only [ha]
  simp only [hfa]
  rw [Cert.Spec.stats_agree (N := 50000) (by norm_num) fa (Ideal.ofBits .f32 0x00000000#32) (Ideal.ofBits .f32 0x47435000#32) Ideal.ofBits_zero_f32 fifty_thousand]

end Cert.Bridge

end
-- ==== Proof.lean ====
/-
  The certificate. Both programs compute a graph-convolution layer followed by batch normalisation and a rectifier:
  with d the inverse square root of each node's in-degree (self loops added), h = x W^T, the aggregation
  a (r, .) = sum over the edges e into r of d (src e) d (r) h (src e, .) plus the bias, and the output
  max ((a - mean) * rsqrt (var + eps) * scale + shift, 0) with the mean and variance of each column of a. The kernel
  program folds d (src e) into the rows of h before the gather and d (r) after the scatter-add, and takes the variance as the
  mean of squares less the squared mean, clamped at zero; at the exact instance, on finite inputs, these are the same
  numbers (Proof/Bridge.lean, Proof/Spec.lean). The frames of the two printed kernel programs are the run of @main segment by
  segment (Proof/K*/MainRun.lean); the reference's frame is its run with the result dropped.
-/
import proofs.«149551_j31903017074707_2_alg».proof.Defs
import proofs.«149551_j31903017074707_2_alg».proof.Proof.Gen.Kernel
import proofs.«149551_j31903017074707_2_alg».proof.Proof.Gen.KernelIdeal
import proofs.«149551_j31903017074707_2_alg».proof.Proof.Gen.ReferenceIdeal
import proofs.«149551_j31903017074707_2_alg».proof.Proof.Gen.Pre_finite_inputs
import proofs.«149551_j31903017074707_2_alg».proof.Proof.K.MainRun
import proofs.«149551_j31903017074707_2_alg».proof.Proof.KI.MainRun
import proofs.«149551_j31903017074707_2_alg».proof.Proof.RefRead
import proofs.«149551_j31903017074707_2_alg».proof.Proof.Finite
import proofs.«149551_j31903017074707_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- On finite inputs the kernel program's result array is the reference's: both runs end, the first at the last boundary's
    contents of the result buffer, the second at its operations' composed term, and these are one array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W8 m ρ c (Proc.devRef .tc Cert.KernelIdeal.main_v38), ?_, ?_⟩
  · refine (θ_run Cert.KernelIdeal.defs _ _).mono (fun _ h c => ?_) (Cert.KernelIdeal.Hand.run_all (F := Ideal) m ρ)
    exact ⟨h c _ (Cert.KernelIdeal.Hand.mem_uc Cert.KernelIdeal.main_v38 (by decide)),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c)⟩
  · refine (θ_run Cert.ReferenceIdeal.defs _ _).mono (fun _ h c => ⟨(h c).1.trans ?_, (h c).2⟩) (Cert.ReferenceIdeal.Value.run (F := Ideal) m' ρ')
    obtain ⟨h0, h2, h3⟩ := Cert.FiniteInputs.real_of_pre _ _ _ _ _ _ (hpre c)
    rw [Cert.ReferenceIdeal.Read.val_main_v75_eq, (hagree c).1, (hagree c).2.1, (hagree c).2.2.1, (hagree c).2.2.2.1, (hagree c).2.2.2.2.1, (hagree c).2.2.2.2.2]
    exact (Cert.Bridge.result_eq m ρ c h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
